-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v157)) (v1 : (c : Dev Cert.KernelIdeal.nD) → Buf (Elt Ideal) ((c.tc : Thread Cert.KernelIdeal.nD Cert.KernelIdeal.τ).loc Cert.KernelIdeal.main_v141)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v157) = v0 c
          ∧ r.2.mem ((c.tc : Thread Cert.KernelIdeal.nD Cert.KernelIdeal.τ).loc Cert.KernelIdeal.main_v141) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v230) = v0 c
          ∧ r.2.mem ((c.tc : Thread Cert.ReferenceIdeal.nD Cert.ReferenceIdeal.τ).loc Cert.ReferenceIdeal.main_v259) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x128x128 : Shape := ⟨3, ![2, 128, 128]⟩
abbrev S2x128 : Shape := ⟨2, ![2, 128]⟩
abbrev S2x600000 : Shape := ⟨2, ![2, 600000]⟩
abbrev S_ : Shape := ⟨0, ![]⟩
abbrev S1x600000 : Shape := ⟨2, ![1, 600000]⟩
abbrev S600000 : Shape := ⟨1, ![600000]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S2x128x128 : S_.BroadcastsInDim S2x128x128 (![] : Fin 0 → Fin S2x128x128.rank)
  reducesTo_S2x128x128_S_d0_1_2 : S2x128x128.ReducesTo [0, 1, 2] S_
  bcast_S_S2x128 : S_.BroadcastsInDim S2x128 (![] : Fin 0 → Fin S2x128.rank)
  reducesTo_S2x128_S_d0_1 : S2x128.ReducesTo [0, 1] S_
  slices_S2x600000_S1x600000_1_0 : S2x600000.Slices ![1, 0] S1x600000
  shapeCasts_S1x600000_S600000 : S1x600000.ShapeCasts S600000
  bcast_S_S600000 : S_.BroadcastsInDim S600000 (![] : Fin 0 → Fin S600000.rank)
  reducesTo_S600000_S_d0 : S600000.ReducesTo [0] S_

variable [Facts]

def fn_part4 {F : FTy → Type} [FloatOps F] (main_v64 : IVec S_ 1) (main_v68 : IVec S600000 1) : IVec S_ 1 :=
  let main_c_25 : IVec S_ 1 := constantI S_ 1 1#1
  let main_v69 : IVec S_ 1 := (fun x v => Host.reduce IntOp.andi x v reducesTo_S600000_S_d0 h_S_) main_v68 main_c_25
  let main_v70 : IVec S_ 1 := andi main_v64 main_v69
  main_v70

def fn_part3 {F : FTy → Type} [FloatOps F] (main_arg11 : FVec F S2x128 .f32) (main_arg12 : IVec S2x600000 32) (main_arg13 : IVec S2x600000 32) (main_v48 : IVec S_ 1) (main_v49 : FVec F S2x128 .f32) (main_v50 : FVec F S2x128 .f32) : IVec S_ 1 :=
  let main_v51 : IVec S2x128 1 := cmpf .olt main_v49 main_v50
  let main_c_19 : IVec S_ 1 := constantI S_ 1 1#1
  let main_v52 : IVec S_ 1 := (fun x v => Host.reduce IntOp.andi x v reducesTo_S2x128_S_d0_1 h_S_) main_v51 main_c_19
  let main_v53 : IVec S_ 1 := andi main_v48 main_v52
  let main_v54 : FVec F S2x128 .f32 := Host.absf main_arg11
  let main_cst_20 : FVec F S_ .f32 := constant S_ .f32 0x7F800000#32
  let main_v55 : FVec F S2x128 .f32 := broadcastInDim S2x128 ![] bcast_S_S2x128 main_cst_20
  let main_v56 : IVec S2x128 1 := cmpf .olt main_v54 main_v55
  let main_c_21 : IVec S_ 1 := constantI S_ 1 1#1
  let main_v57 : IVec S_ 1 := (fun x v => Host.reduce IntOp.andi x v reducesTo_S2x128_S_d0_1 h_S_) main_v56 main_c_21
  let main_v58 : IVec S_ 1 := andi main_v53 main_v57
  let main_v59 : IVec S1x600000 32 := (extractStridedSlice S1x600000 ![1, 0] · slices_S2x600000_S1x600000_1_0) main_arg12
  let main_v60 : IVec S600000 32 := shapeCast S600000 main_v59 shapeCasts_S1x600000_S600000
  let main_c_22 : IVec S_ 32 := constantI S_ 32 0#32
  let main_v61 : IVec S600000 32 := broadcastInDim S600000 ![] bcast_S_S600000 main_c_22
  let main_v62 : IVec S600000 1 := cmpi .sge main_v60 main_v61
  let main_c_23 : IVec S_ 1 := constantI S_ 1 1#1
  let main_v63 : IVec S_ 1 := (fun x v => Host.reduce IntOp.andi x v reducesTo_S600000_S_d0 h_S_) main_v62 main_c_23
  let main_v64 : IVec S_ 1 := andi main_v58 main_v63
  let main_v65 : IVec S1x600000 32 := (extractStridedSlice S1x600000 ![1, 0] · slices_S2x600000_S1x600000_1_0) main_arg13
  let main_v66 : IVec S600000 32 := shapeCast S600000 main_v65 shapeCasts_S1x600000_S600000
  let main_c_24 : IVec S_ 32 := constantI S_ 32 0#32
  let main_v67 : IVec S600000 32 := broadcastInDim S600000 ![] bcast_S_S600000 main_c_24
  let main_v68 : IVec S600000 1 := cmpi .sge main_v66 main_v67
  fn_part4 (F := F) main_v64 main_v68

def fn_part2 {F : FTy → Type} [FloatOps F] (main_arg7 : FVec F S2x128x128 .f32) (main_arg8 : FVec F S2x128 .f32) (main_arg9 : FVec F S2x128 .f32) (main_arg10 : FVec F S2x128 .f32) (main_arg11 : FVec F S2x128 .f32) (main_arg12 : IVec S2x600000 32) (main_arg13 : IVec S2x600000 32) (main_v33 : IVec S_ 1) : IVec S_ 1 :=
  let main_v34 : FVec F S2x128x128 .f32 := Host.absf main_arg7
  let main_cst_12 : FVec F S_ .f32 := constant S_ .f32 0x7F800000#32
  let main_v35 : FVec F S2x128x128 .f32 := broadcastInDim S2x128x128 ![] bcast_S_S2x128x128 main_cst_12
  let main_v36 : IVec S2x128x128 1 := cmpf .olt main_v34 main_v35
  let main_c_13 : IVec S_ 1 := constantI S_ 1 1#1
  let main_v37 : IVec S_ 1 := (fun x v => Host.reduce IntOp.andi x v reducesTo_S2x128x128_S_d0_1_2 h_S_) main_v36 main_c_13
  let main_v38 : IVec S_ 1 := andi main_v33 main_v37
  let main_v39 : FVec F S2x128 .f32 := Host.absf main_arg8
  let main_cst_14 : FVec F S_ .f32 := constant S_ .f32 0x7F800000#32
  let main_v40 : FVec F S2x128 .f32 := broadcastInDim S2x128 ![] bcast_S_S2x128 main_cst_14
  let main_v41 : IVec S2x128 1 := cmpf .olt main_v39 main_v40
  let main_c_15 : IVec S_ 1 := constantI S_ 1 1#1
  let main_v42 : IVec S_ 1 := (fun x v => Host.reduce IntOp.andi x v reducesTo_S2x128_S_d0_1 h_S_) main_v41 main_c_15
  let main_v43 : IVec S_ 1 := andi main_v38 main_v42
  let main_v44 : FVec F S2x128 .f32 := Host.absf main_arg9
  let main_cst_16 : FVec F S_ .f32 := constant S_ .f32 0x7F800000#32
  let main_v45 : FVec F S2x128 .f32 := broadcastInDim S2x128 ![] bcast_S_S2x128 main_cst_16
  let main_v46 : IVec S2x128 1 := cmpf .olt main_v44 main_v45
  let main_c_17 : IVec S_ 1 := constantI S_ 1 1#1
  let main_v47 : IVec S_ 1 := (fun x v => Host.reduce IntOp.andi x v reducesTo_S2x128_S_d0_1 h_S_) main_v46 main_c_17
  let main_v48 : IVec S_ 1 := andi main_v43 main_v47
  let main_v49 : FVec F S2x128 .f32 := Host.absf main_arg10
  let main_cst_18 : FVec F S_ .f32 := constant S_ .f32 0x7F800000#32
  let main_v50 : FVec F S2x128 .f32 := broadcastInDim S2x128 ![] bcast_S_S2x128 main_cst_18
  fn_part3 (F := F) main_arg11 main_arg12 main_arg13 main_v48 main_v49 main_v50

def fn_part1 {F : FTy → Type} [FloatOps F] (main_arg4 : FVec F S2x128x128 .f32) (main_arg5 : FVec F S2x128x128 .f32) (main_arg6 : FVec F S2x128 .f32) (main_arg7 : FVec F S2x128x128 .f32) (main_arg8 : FVec F S2x128 .f32) (main_arg9 : FVec F S2x128 .f32) (main_arg10 : FVec F S2x128 .f32) (main_arg11 : FVec F S2x128 .f32) (main_arg12 : IVec S2x600000 32) (main_arg13 : IVec S2x600000 32) (main_v13 : IVec S_ 1) (main_v16 : IVec S2x128 1) : IVec S_ 1 :=
  let main_c_5 : IVec S_ 1 := constantI S_ 1 1#1
  let main_v17 : IVec S_ 1 := (fun x v => Host.reduce IntOp.andi x v reducesTo_S2x128_S_d0_1 h_S_) main_v16 main_c_5
  let main_v18 : IVec S_ 1 := andi main_v13 main_v17
  let main_v19 : FVec F S2x128x128 .f32 := Host.absf main_arg4
  let main_cst_6 : FVec F S_ .f32 := constant S_ .f32 0x7F800000#32
  let main_v20 : FVec F S2x128x128 .f32 := broadcastInDim S2x128x128 ![] bcast_S_S2x128x128 main_cst_6
  let main_v21 : IVec S2x128x128 1 := cmpf .olt main_v19 main_v20
  let main_c_7 : IVec S_ 1 := constantI S_ 1 1#1
  let main_v22 : IVec S_ 1 := (fun x v => Host.reduce IntOp.andi x v reducesTo_S2x128x128_S_d0_1_2 h_S_) main_v21 main_c_7
  let main_v23 : IVec S_ 1 := andi main_v18 main_v22
  let main_v24 : FVec F S2x128x128 .f32 := Host.absf main_arg5
  let main_cst_8 : FVec F S_ .f32 := constant S_ .f32 0x7F800000#32
  let main_v25 : FVec F S2x128x128 .f32 := broadcastInDim S2x128x128 ![] bcast_S_S2x128x128 main_cst_8
  let main_v26 : IVec S2x128x128 1 := cmpf .olt main_v24 main_v25
  let main_c_9 : IVec S_ 1 := constantI S_ 1 1#1
  let main_v27 : IVec S_ 1 := (fun x v => Host.reduce IntOp.andi x v reducesTo_S2x128x128_S_d0_1_2 h_S_) main_v26 main_c_9
  let main_v28 : IVec S_ 1 := andi main_v23 main_v27
  let main_v29 : FVec F S2x128 .f32 := Host.absf main_arg6
  let main_cst_10 : FVec F S_ .f32 := constant S_ .f32 0x7F800000#32
  let main_v30 : FVec F S2x128 .f32 := broadcastInDim S2x128 ![] bcast_S_S2x128 main_cst_10
  let main_v31 : IVec S2x128 1 := cmpf .olt main_v29 main_v30
  let main_c_11 : IVec S_ 1 := constantI S_ 1 1#1
  let main_v32 : IVec S_ 1 := (fun x v => Host.reduce IntOp.andi x v reducesTo_S2x128_S_d0_1 h_S_) main_v31 main_c_11
  let main_v33 : IVec S_ 1 := andi main_v28 main_v32
  fn_part2 (F := F) main_arg7 main_arg8 main_arg9 main_arg10 main_arg11 main_arg12 main_arg13 main_v33

def fn {F : FTy → Type} [FloatOps F] (main_arg0 : FVec F S100000x128 .f32) (main_arg1 : FVec F S100000x128 .f32) (main_arg2 : FVec F S2x128x128 .f32) (main_arg3 : FVec F S2x128 .f32) (main_arg4 : FVec F S2x128x128 .f32) (main_arg5 : FVec F S2x128x128 .f32) (main_arg6 : FVec F S2x128 .f32) (main_arg7 : FVec F S2x128x128 .f32) (main_arg8 : FVec F S2x128 .f32) (main_arg9 : FVec F S2x128 .f32) (main_arg10 : FVec F S2x128 .f32) (main_arg11 : FVec F S2x128 .f32) (main_arg12 : IVec S2x600000 32) (main_arg13 : IVec S2x600000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S100000x128 .f32 := Host.absf main_arg1
  let main_cst_0 : FVec F S_ .f32 := constant S_ .f32 0x7F800000#32
  let main_v5 : FVec F S100000x128 .f32 := broadcastInDim S100000x128 ![] bcast_S_S100000x128 main_cst_0
  let main_v6 : IVec S100000x128 1 := cmpf .olt main_v4 main_v5
  let main_c_1 : IVec S_ 1 := constantI S_ 1 1#1
  let main_v7 : IVec S_ 1 := (fun x v => Host.reduce IntOp.andi x v reducesTo_S100000x128_S_d0_1 h_S_) main_v6 main_c_1
  let main_v8 : IVec S_ 1 := andi main_v3 main_v7
  let main_v9 : FVec F S2x128x128 .f32 := Host.absf main_arg2
  let main_cst_2 : FVec F S_ .f32 := constant S_ .f32 0x7F800000#32
  let main_v10 : FVec F S2x128x128 .f32 := broadcastInDim S2x128x128 ![] bcast_S_S2x128x128 main_cst_2
  let main_v11 : IVec S2x128x128 1 := cmpf .olt main_v9 main_v10
  let main_c_3 : IVec S_ 1 := constantI S_ 1 1#1
  let main_v12 : IVec S_ 1 := (fun x v => Host.reduce IntOp.andi x v reducesTo_S2x128x128_S_d0_1_2 h_S_) main_v11 main_c_3
  let main_v13 : IVec S_ 1 := andi main_v8 main_v12
  let main_v14 : FVec F S2x128 .f32 := Host.absf main_arg3
  let main_cst_4 : FVec F S_ .f32 := constant S_ .f32 0x7F800000#32
  let main_v15 : FVec F S2x128 .f32 := broadcastInDim S2x128 ![] bcast_S_S2x128 main_cst_4
  let main_v16 : IVec S2x128 1 := cmpf .olt main_v14 main_v15
  fn_part1 (F := F) main_arg4 main_arg5 main_arg6 main_arg7 main_arg8 main_arg9 main_arg10 main_arg11 main_arg12 main_arg13 main_v13 main_v16
-- ==== Kernel.lean ====
abbrev S100000x128 : Shape := ⟨2, ![100000, 128]⟩
abbrev S2x128x128 : Shape := ⟨3, ![2, 128, 128]⟩
abbrev S2x128 : Shape := ⟨2, ![2, 128]⟩
abbrev S2x600000 : Shape := ⟨2, ![2, 600000]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S100000x1 : Shape := ⟨2, ![100000, 1]⟩
abbrev S600000x128 : Shape := ⟨2, ![600000, 128]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S10000x128 : Shape := ⟨2, ![10000, 128]⟩
abbrev S10000x1 : Shape := ⟨2, ![10000, 1]⟩
abbrev S10000 : Shape := ⟨1, ![10000]⟩

abbrev nBuf : Space → Nat
  | .hbm => 204
  | .vmem => 52
  | .smem => 0
  | _ => 0

abbrev hbmTy0_0 (i : Nat) : BufTy := match i % 128 with
  | 0 => ⟨S100000x128, .f32⟩
  | 1 => ⟨S100000x128, .f32⟩
  | 2 => ⟨S2x128x128, .f32⟩
  | 3 => ⟨S2x128, .f32⟩
  | 4 => ⟨S2x128x128, .f32⟩
  | 5 => ⟨S2x128x128, .f32⟩
  | 6 => ⟨S2x128, .f32⟩
  | 7 => ⟨S2x128x128, .f32⟩
  | 8 => ⟨S2x128, .f32⟩
  | 9 => ⟨S2x128, .f32⟩
  | 10 => ⟨S2x128, .f32⟩
  | 11 => ⟨S2x128, .f32⟩
  | 12 => ⟨S2x600000, .i32⟩
  | 13 => ⟨S2x600000, .i32⟩
  | 14 => ⟨S1x600000, .i32⟩
  | 15 => ⟨S600000, .i32⟩
  | 16 => ⟨S1x600000, .i32⟩
  | 17 => ⟨S600000, .i32⟩
  | 18 => ⟨S1x600000, .i32⟩
  | 19 => ⟨S600000, .i32⟩
  | 20 => ⟨S1x600000, .i32⟩
  | 21 => ⟨S600000, .i32⟩
  | 22 => ⟨S_, .f32⟩
  | 23 => ⟨S600000x1, .f32⟩
  | 24 => ⟨S_, .f32⟩
  | 25 => ⟨S100000x1, .f32⟩
  | 26 => ⟨S_, .i32⟩
  | 27 => ⟨S600000, .i32⟩
  | 28 => ⟨S600000, .i1⟩
  | 29 => ⟨S_, .i32⟩
  | 30 => ⟨S600000, .i32⟩
  | 31 => ⟨S600000, .i32⟩
  | 32 => ⟨S600000, .i32⟩
  | 33 => ⟨S600000x1, .i32⟩
  | 34 => ⟨S100000x1, .f32⟩
  | 35 => ⟨S_, .f32⟩
  | 36 => ⟨S600000x1, .f32⟩
  | 37 => ⟨S_, .f32⟩
  | 38 => ⟨S100000x1, .f32⟩
  | 39 => ⟨S_, .i32⟩
  | 40 => ⟨S600000, .i32⟩
  | 41 => ⟨S600000, .i1⟩
  | 42 => ⟨S_, .i32⟩
  | 43 => ⟨S600000, .i32⟩
  | 44 => ⟨S600000, .i32⟩
  | 45 => ⟨S600000, .i32⟩
  | 46 => ⟨S600000x1, .i32⟩
  | 47 => ⟨S100000x1, .f32⟩
  | 48 => ⟨S_, .f32⟩
  | 49 => ⟨S100000x1, .f32⟩
  | 50 => ⟨S100000x1, .f32⟩
  | 51 => ⟨S_, .f32⟩
  | 52 => ⟨S100000x1, .f32⟩
  | 53 => ⟨S100000x1, .f32⟩
  | 54 => ⟨S_, .f32⟩
  | 55 => ⟨S100000x1, .f32⟩
  | 56 => ⟨S100000x1, .f32⟩
  | 57 => ⟨S_, .f32⟩
  | 58 => ⟨S100000x1, .f32⟩
  | 59 => ⟨S100000x1, .f32⟩
  | 60 => ⟨S_, .f32⟩
  | 61 => ⟨S100000x128, .f32⟩
  | 62 => ⟨S_, .i32⟩
  | 63 => ⟨S600000, .i32⟩
  | 64 => ⟨S600000, .i1⟩
  | 65 => ⟨S_, .i32⟩
  | 66 => ⟨S600000, .i32⟩
  | 67 => ⟨S600000, .i32⟩
  | 68 => ⟨S600000, .i32⟩
  | 69 => ⟨S600000x1, .i32⟩
  | 70 => ⟨S600000x128, .f32⟩
  | 71 => ⟨S_, .i32⟩
  | 72 => ⟨S600000, .i32⟩
  | 73 => ⟨S600000, .i1⟩
  | 74 => ⟨S_, .i32⟩
  | 75 => ⟨S600000, .i32⟩
  | 76 => ⟨S600000, .i32⟩
  | 77 => ⟨S600000, .i32⟩
  | 78 => ⟨S600000x1, .i32⟩
  | 79 => ⟨S100000x128, .f32⟩
  | 80 => ⟨S_, .f32⟩
  | 81 => ⟨S100000x128, .f32⟩
  | 82 => ⟨S_, .i32⟩
  | 83 => ⟨S600000, .i32⟩
  | 84 => ⟨S600000, .i1⟩
  | 85 => ⟨S_, .i32⟩
  | 86 => ⟨S600000, .i32⟩
  | 87 => ⟨S600000, .i32⟩
  | 88 => ⟨S600000, .i32⟩
  | 89 => ⟨S600000x1, .i32⟩
  | 90 => ⟨S600000x128, .f32⟩
  | 91 => ⟨S_, .i32⟩
  | 92 => ⟨S600000, .i32⟩
  | 93 => ⟨S600000, .i1⟩
  | 94 => ⟨S_, .i32⟩
  | 95 => ⟨S600000, .i32⟩
  | 96 => ⟨S600000, .i32⟩
  | 97 => ⟨S600000, .i32⟩
  | 98 => ⟨S600000x1, .i32⟩
  | 99 => ⟨S100000x128, .f32⟩
  | 100 => ⟨S1x128x128, .f32⟩
  | 101 => ⟨S128x128, .f32⟩
  | 102 => ⟨S1x128, .f32⟩
  | 103 => ⟨S128, .f32⟩
  | 104 => ⟨S1x128x128, .f32⟩
  | 105 => ⟨S128x128, .f32⟩
  | 106 => ⟨S1x128, .f32⟩
  | 107 => ⟨S128, .f32⟩
  | 108 => ⟨S1x128, .f32⟩
  | 109 => ⟨S128, .f32⟩
  | 110 => ⟨S128x128, .f32⟩
  | 111 => ⟨S128x128, .f32⟩
  | 112 => ⟨S1x128, .f32⟩
  | 113 => ⟨S1x128, .f32⟩
  | 114 => ⟨S1x128, .f32⟩
  | 115 => ⟨S100000x128, .f32⟩
  | 116 => ⟨S1x128x128, .f32⟩
  | 117 => ⟨S128x128, .f32⟩
  | 118 => ⟨S1x128, .f32⟩
  | 119 => ⟨S128, .f32⟩
  | 120 => ⟨S1x128x128, .f32⟩
  | 121 => ⟨S128x128, .f32⟩
  | 122 => ⟨S1x128, .f32⟩
  | 123 => ⟨S128, .f32⟩
  | 124 => ⟨S1x128, .f32⟩
  | 125 => ⟨S128, .f32⟩
  | 126 => ⟨S128x128, .f32⟩
  | 127 => ⟨S128x128, .f32⟩
  | _ => ⟨S100000x128, .f32⟩

abbrev hbmTy0_1 (i : Nat) : BufTy := match i % 128 with
  | 0 => ⟨S1x128, .f32⟩
  | 1 => ⟨S1x128, .f32⟩
  | 2 => ⟨S1x128, .f32⟩
  | 3 => ⟨S100000x128, .f32⟩
  | 4 => ⟨S_, .f32⟩
  | 5 => ⟨S100000x128, .f32⟩
  | 6 => ⟨S_, .i32⟩
  | 7 => ⟨S600000, .i32⟩
  | 8 => ⟨S600000, .i1⟩
  | 9 => ⟨S_, .i32⟩
  | 10 => ⟨S600000, .i32⟩
  | 11 => ⟨S600000, .i32⟩
  | 12 => ⟨S600000, .i32⟩
  | 13 => ⟨S600000x1, .i32⟩
  | 14 => ⟨S600000x128, .f32⟩
  | 15 => ⟨S_, .i32⟩
  | 16 => ⟨S600000, .i32⟩
  | 17 => ⟨S600000, .i1⟩
  | 18 => ⟨S_, .i32⟩
  | 19 => ⟨S600000, .i32⟩
  | 20 => ⟨S600000, .i32⟩
  | 21 => ⟨S600000, .i32⟩
  | 22 => ⟨S600000x1, .i32⟩
  | 23 => ⟨S100000x128, .f32⟩
  | 24 => ⟨S_, .f32⟩
  | 25 => ⟨S100000x128, .f32⟩
  | 26 => ⟨S_, .i32⟩
  | 27 => ⟨S600000, .i32⟩
  | 28 => ⟨S600000, .i1⟩
  | 29 => ⟨S_, .i32⟩
  | 30 => ⟨S600000, .i32⟩
  | 31 => ⟨S600000, .i32⟩
  | 32 => ⟨S600000, .i32⟩
  | 33 => ⟨S600000x1, .i32⟩
  | 34 => ⟨S600000x128, .f32⟩
  | 35 => ⟨S_, .i32⟩
  | 36 => ⟨S600000, .i32⟩
  | 37 => ⟨S600000, .i1⟩
  | 38 => ⟨S_, .i32⟩
  | 39 => ⟨S600000, .i32⟩
  | 40 => ⟨S600000, .i32⟩
  | 41 => ⟨S600000, .i32⟩
  | 42 => ⟨S600000x1, .i32⟩
  | 43 => ⟨S100000x128, .f32⟩
  | 44 => ⟨S1x128x128, .f32⟩
  | 45 => ⟨S128x128, .f32⟩
  | 46 => ⟨S1x128, .f32⟩
  | 47 => ⟨S128, .f32⟩
  | 48 => ⟨S1x128x128, .f32⟩
  | 49 => ⟨S128x128, .f32⟩
  | 50 => ⟨S1x128, .f32⟩
  | 51 => ⟨S128, .f32⟩
  | 52 => ⟨S1x128, .f32⟩
  | 53 => ⟨S128, .f32⟩
  | 54 => ⟨S128x128, .f32⟩
  | 55 => ⟨S128x128, .f32⟩
  | 56 => ⟨S1x128, .f32⟩
  | 57 => ⟨S1x128, .f32⟩
  | 58 => ⟨S1x128, .f32⟩
  | 59 => ⟨S100000x128, .f32⟩
  | 60 => ⟨S1x128x128, .f32⟩
  | 61 => ⟨S128x128, .f32⟩
  | 62 => ⟨S1x128, .f32⟩
  | 63 => ⟨S128, .f32⟩
  | 64 => ⟨S1x128x128, .f32⟩
  | 65 => ⟨S128x128, .f32⟩
  | 66 => ⟨S1x128, .f32⟩
  | 67 => ⟨S128, .f32⟩
  | 68 => ⟨S1x128, .f32⟩
  | 69 => ⟨S128, .f32⟩
  | 70 => ⟨S128x128, .f32⟩
  | 71 => ⟨S128x128, .f32⟩
  | 72 => ⟨S1x128, .f32⟩
  | 73 => ⟨S1x128, .f32⟩
  | 74 => ⟨S1x128, .f32⟩
  | 75 => ⟨S100000x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S10000x128, .f32⟩
  | .local _ .vmem, ⟨1, _⟩ => ⟨S10000x128, .f32⟩
  | .local _ .vmem, ⟨2, _⟩ => ⟨S10000x1, .f32⟩
  | .local _ .vmem, ⟨3, _⟩ => ⟨S10000x1, .f32⟩
  | .local _ .vmem, ⟨4, _⟩ => ⟨S10000x128, .f32⟩
  | .local _ .vmem, ⟨5, _⟩ => ⟨S10000x128, .f32⟩
  | .local _ .vmem, ⟨6, _⟩ => ⟨S128x128, .f32⟩
  | .local _ .vmem, ⟨7, _⟩ => ⟨S1x128, .f32⟩
  | .local _ .vmem, ⟨8, _⟩ => ⟨S128x128, .f32⟩
  | .local _ .vmem, ⟨9, _⟩ => ⟨S1x128, .f32⟩
  | .local _ .vmem, ⟨10, _⟩ => ⟨S1x128, .f32⟩
  | .local _ .vmem, ⟨11, _⟩ => ⟨S10000x128, .f32⟩
  | .local _ .vmem, ⟨12, _⟩ => ⟨S10000x128, .f32⟩
  | .local _ .vmem, ⟨13, _⟩ => ⟨S10000x128, .f32⟩
  | .local _ .vmem, ⟨14, _⟩ => ⟨S10000x128, .f32⟩
  | .local _ .vmem, ⟨15, _⟩ => ⟨S10000x1, .f32⟩
  | .local _ .vmem, ⟨16, _⟩ => ⟨S10000x1, .f32⟩
  | .local _ .vmem, ⟨17, _⟩ => ⟨S10000x128, .f32⟩
  | .local _ .vmem, ⟨18, _⟩ => ⟨S10000x128, .f32⟩
  | .local _ .vmem, ⟨19, _⟩ => ⟨S128x128, .f32⟩
  | .local _ .vmem, ⟨20, _⟩ => ⟨S1x128, .f32⟩
  | .local _ .vmem, ⟨21, _⟩ => ⟨S128x128, .f32⟩
  | .local _ .vmem, ⟨22, _⟩ => ⟨S1x128, .f32⟩
  | .local _ .vmem, ⟨23, _⟩ => ⟨S1x128, .f32⟩
  | .local _ .vmem, ⟨24, _⟩ => ⟨S10000x128, .f32⟩
  | .local _ .vmem, ⟨25, _⟩ => ⟨S10000x128, .f32⟩
  | .local _ .vmem, ⟨26, _⟩ => ⟨S10000x128, .f32⟩
  | .local _ .vmem, ⟨27, _⟩ => ⟨S10000x128, .f32⟩
  | .local _ .vmem, ⟨28, _⟩ => ⟨S10000x1, .f32⟩
  | .local _ .vmem, ⟨29, _⟩ => ⟨S10000x1, .f32⟩
  | .local _ .vmem, ⟨30, _⟩ => ⟨S10000x128, .f32⟩
  | .local _ .vmem, ⟨31, _⟩ => ⟨S10000x128, .f32⟩
  | .local _ .vmem, ⟨32, _⟩ => ⟨S128x128, .f32⟩
  | .local _ .vmem, ⟨33, _⟩ => ⟨S1x128, .f32⟩
  | .local _ .vmem, ⟨34, _⟩ => ⟨S128x128, .f32⟩
  | .local _ .vmem, ⟨35, _⟩ => ⟨S1x128, .f32⟩
  | .local _ .vmem, ⟨36, _⟩ => ⟨S1x128, .f32⟩
  | .local _ .vmem, ⟨37, _⟩ => ⟨S10000x128, .f32⟩
  | .local _ .vmem, ⟨38, _⟩ => ⟨S10000x128, .f32⟩
  | .local _ .vmem, ⟨39, _⟩ => ⟨S10000x128, .f32⟩
  | .local _ .vmem, ⟨40, _⟩ => ⟨S10000x128, .f32⟩
  | .local _ .vmem, ⟨41, _⟩ => ⟨S10000x1, .f32⟩
  | .local _ .vmem, ⟨42, _⟩ => ⟨S10000x1, .f32⟩
  | .local _ .vmem, ⟨43, _⟩ => ⟨S10000x128, .f32⟩
  | .local _ .vmem, ⟨44, _⟩ => ⟨S10000x128, .f32⟩
  | .local _ .vmem, ⟨45, _⟩ => ⟨S128x128, .f32⟩
  | .local _ .vmem, ⟨46, _⟩ => ⟨S1x128, .f32⟩
  | .local _ .vmem, ⟨47, _⟩ => ⟨S128x128, .f32⟩
  | .local _ .vmem, ⟨48, _⟩ => ⟨S1x128, .f32⟩
  | .local _ .vmem, ⟨49, _⟩ => ⟨S1x128, .f32⟩
  | .local _ .vmem, ⟨50, _⟩ => ⟨S10000x128, .f32⟩
  | .local _ .vmem, ⟨51, _⟩ => ⟨S10000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | _, _ => false

abbrev semScoped : Fin 0 → Bool
  | ⟨_, h⟩ => absurd h (Nat.not_lt_zero _)

abbrev dmaSemScoped : Fin 52 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | _ => false

abbrev sig : RefSig :=
  ofTc nBuf bufTy 0 52 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst : Ref sig .tc := ⟨.hbm, 22, rfl⟩
abbrev main_v8 : Ref sig .tc := ⟨.hbm, 23, rfl⟩
abbrev main_cst_0 : Ref sig .tc := ⟨.hbm, 24, rfl⟩
abbrev main_v9 : Ref sig .tc := ⟨.hbm, 25, rfl⟩
abbrev main_c : Ref sig .tc := ⟨.hbm, 26, rfl⟩
abbrev main_v10 : Ref sig .tc := ⟨.hbm, 27, rfl⟩
abbrev main_v11 : Ref sig .tc := ⟨.hbm, 28, rfl⟩
abbrev main_c_1 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_cst_2 : Ref sig .tc := ⟨.hbm, 35, rfl⟩
abbrev main_v17 : Ref sig .tc := ⟨.hbm, 36, rfl⟩
abbrev main_cst_3 : Ref sig .tc := ⟨.hbm, 37, rfl⟩
abbrev main_v18 : Ref sig .tc := ⟨.hbm, 38, rfl⟩
abbrev main_c_4 : Ref sig .tc := ⟨.hbm, 39, rfl⟩
abbrev main_v19 : Ref sig .tc := ⟨.hbm, 40, rfl⟩
abbrev main_v20 : Ref sig .tc := ⟨.hbm, 41, rfl⟩
abbrev main_c_5 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_cst_6 : Ref sig .tc := ⟨.hbm, 48, rfl⟩
abbrev main_v26 : Ref sig .tc := ⟨.hbm, 49, rfl⟩
abbrev main_v27 : Ref sig .tc := ⟨.hbm, 50, rfl⟩
abbrev main_cst_7 : Ref sig .tc := ⟨.hbm, 51, rfl⟩
abbrev main_v28 : Ref sig .tc := ⟨.hbm, 52, rfl⟩
abbrev main_v29 : Ref sig .tc := ⟨.hbm, 53, rfl⟩
abbrev main_cst_8 : Ref sig .tc := ⟨.hbm, 54, rfl⟩
abbrev main_v30 : Ref sig .tc := ⟨.hbm, 55, rfl⟩
abbrev main_v31 : Ref sig .tc := ⟨.hbm, 56, rfl⟩
abbrev main_cst_9 : Ref sig .tc := ⟨.hbm, 57, rfl⟩
abbrev main_v32 : Ref sig .tc := ⟨.hbm, 58, rfl⟩
abbrev main_v33 : Ref sig .tc := ⟨.hbm, 59, rfl⟩
abbrev main_cst_10 : Ref sig .tc := ⟨.hbm, 60, rfl⟩
abbrev main_v34 : Ref sig .tc := ⟨.hbm, 61, rfl⟩
abbrev main_c_11 : Ref sig .tc := ⟨.hbm, 62, rfl⟩
abbrev main_v35 : Ref sig .tc := ⟨.hbm, 63, rfl⟩
abbrev main_v36 : Ref sig .tc := ⟨.hbm, 64, rfl⟩
abbrev main_c_12 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_c_13 : Ref sig .tc := ⟨.hbm, 71, rfl⟩
abbrev main_v42 : Ref sig .tc := ⟨.hbm, 72, rfl⟩
abbrev main_v43 : Ref sig .tc := ⟨.hbm, 73, rfl⟩
abbrev main_c_14 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_cst_15 : Ref sig .tc := ⟨.hbm, 80, rfl⟩
abbrev main_v49 : Ref sig .tc := ⟨.hbm, 81, rfl⟩
abbrev main_c_16 : Ref sig .tc := ⟨.hbm, 82, rfl⟩
abbrev main_v50 : Ref sig .tc := ⟨.hbm, 83, rfl⟩
abbrev main_v51 : Ref sig .tc := ⟨.hbm, 84, rfl⟩
abbrev main_c_17 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_c_18 : Ref sig .tc := ⟨.hbm, 91, rfl⟩
abbrev main_v57 : Ref sig .tc := ⟨.hbm, 92, rfl⟩
abbrev main_v58 : Ref sig .tc := ⟨.hbm, 93, rfl⟩
abbrev main_c_19 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_cst_20 : Ref sig .tc := ⟨.hbm, 132, rfl⟩
abbrev main_v96 : Ref sig .tc := ⟨.hbm, 133, rfl⟩
abbrev main_c_21 : Ref sig .tc := ⟨.hbm, 134, rfl⟩
abbrev main_v97 : Ref sig .tc := ⟨.hbm, 135, rfl⟩
abbrev main_v98 : Ref sig .tc := ⟨.hbm, 136, rfl⟩
abbrev main_c_22 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_c_23 : Ref sig .tc := ⟨.hbm, 143, rfl⟩
abbrev main_v104 : Ref sig .tc := ⟨.hbm, 144, rfl⟩
abbrev main_v105 : Ref sig .tc := ⟨.hbm, 145, rfl⟩
abbrev main_c_24 : Ref sig .tc := ⟨.hbm, 146, rfl⟩
abbrev main_v106 : Ref sig .tc := ⟨.hbm, 147, rfl⟩
abbrev main_v107 : Ref sig .tc := ⟨.hbm, 148, rfl⟩
abbrev main_v108 : Ref sig .tc := ⟨.hbm, 149, rfl⟩
abbrev main_v109 : Ref sig .tc := ⟨.hbm, 150, rfl⟩
abbrev main_v110 : Ref sig .tc := ⟨.hbm, 151, rfl⟩
abbrev main_cst_25 : Ref sig .tc := ⟨.hbm, 152, rfl⟩
abbrev main_v111 : Ref sig .tc := ⟨.hbm, 153, rfl⟩
abbrev main_c_26 : Ref sig .tc := ⟨.hbm, 154, rfl⟩
abbrev main_v112 : Ref sig .tc := ⟨.hbm, 155, rfl⟩
abbrev main_v113 : Ref sig .tc := ⟨.hbm, 156, rfl⟩
abbrev main_c_27 : Ref sig .tc := ⟨.hbm, 157, rfl⟩
abbrev main_v114 : Ref sig .tc := ⟨.hbm, 158, rfl⟩
abbrev main_v115 : Ref sig .tc := ⟨.hbm, 159, rfl⟩
abbrev main_v116 : Ref sig .tc := ⟨.hbm, 160, rfl⟩
abbrev main_v117 : Ref sig .tc := ⟨.hbm, 161, rfl⟩
abbrev main_v118 : Ref sig .tc := ⟨.hbm, 162, rfl⟩
abbrev main_c_28 : Ref sig .tc := ⟨.hbm, 163, rfl⟩
abbrev main_v119 : Ref sig .tc := ⟨.hbm, 164, rfl⟩
abbrev main_v120 : Ref sig .tc := ⟨.hbm, 165, rfl⟩
abbrev main_c_29 : Ref sig .tc := ⟨.hbm, 166, rfl⟩
abbrev main_v121 : Ref sig .tc := ⟨.hbm, 167, rfl⟩
abbrev main_v122 : Ref sig .tc := ⟨.hbm, 168, rfl⟩
abbrev main_v123 : Ref sig .tc := ⟨.hbm, 169, rfl⟩
abbrev main_v124 : Ref sig .tc := ⟨.hbm, 170, rfl⟩
abbrev main_v125 : Ref sig .tc := ⟨.hbm, 171, rfl⟩
abbrev main_v126 : Ref sig .tc := ⟨.hbm, 172, rfl⟩
abbrev main_v127 : Ref sig .tc := ⟨.hbm, 173, rfl⟩
abbrev main_v128 : Ref sig .tc := ⟨.hbm, 174, rfl⟩
abbrev main_v129 : Ref sig .tc := ⟨.hbm, 175, rfl⟩
abbrev main_v130 : Ref sig .tc := ⟨.hbm, 176, rfl⟩
abbrev main_v131 : Ref sig .tc := ⟨.hbm, 177, rfl⟩
abbrev main_v132 : Ref sig .tc := ⟨.hbm, 178, rfl⟩
abbrev main_v133 : Ref sig .tc := ⟨.hbm, 179, rfl⟩
abbrev main_v134 : Ref sig .tc := ⟨.hbm, 180, rfl⟩
abbrev main_v135 : Ref sig .tc := ⟨.hbm, 181, rfl⟩
abbrev main_v136 : Ref sig .tc := ⟨.hbm, 182, rfl⟩
abbrev main_v137 : Ref sig .tc := ⟨.hbm, 183, rfl⟩
abbrev main_v138 : Ref sig .tc := ⟨.hbm, 184, rfl⟩
abbrev main_v139 : Ref sig .tc := ⟨.hbm, 185, rfl⟩
abbrev main_v140 : Ref sig .tc := ⟨.hbm, 186, rfl⟩
abbrev main_v141 : Ref sig .tc := ⟨.hbm, 187, rfl⟩
abbrev main_v142 : Ref sig .tc := ⟨.hbm, 188, rfl⟩
abbrev main_v143 : Ref sig .tc := ⟨.hbm, 189, rfl⟩
abbrev main_v144 : Ref sig .tc := ⟨.hbm, 190, rfl⟩
abbrev main_v145 : Ref sig .tc := ⟨.hbm, 191, rfl⟩
abbrev main_v146 : Ref sig .tc := ⟨.hbm, 192, rfl⟩
abbrev main_v147 : Ref sig .tc := ⟨.hbm, 193, rfl⟩
abbrev main_v148 : Ref sig .tc := ⟨.hbm, 194, rfl⟩
abbrev main_v149 : Ref sig .tc := ⟨.hbm, 195, rfl⟩
abbrev main_v150 : Ref sig .tc := ⟨.hbm, 196, rfl⟩
abbrev main_v151 : Ref sig .tc := ⟨.hbm, 197, rfl⟩
abbrev main_v152 : Ref sig .tc := ⟨.hbm, 198, rfl⟩
abbrev main_v153 : Ref sig .tc := ⟨.hbm, 199, rfl⟩
abbrev main_v154 : Ref sig .tc := ⟨.hbm, 200, rfl⟩
abbrev main_v155 : Ref sig .tc := ⟨.hbm, 201, rfl⟩
abbrev main_v156 : Ref sig .tc := ⟨.hbm, 202, rfl⟩
abbrev main_v157 : Ref sig .tc := ⟨.hbm, 203, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg2_1 : Ref sig .tc := ⟨.vmem, 18, rfl⟩
abbrev cc1_stg3_0 : Ref sig .tc := ⟨.vmem, 19, rfl⟩
abbrev cc1_stg4_0 : Ref sig .tc := ⟨.vmem, 20, rfl⟩
abbrev cc1_stg5_0 : Ref sig .tc := ⟨.vmem, 21, rfl⟩
abbrev cc1_stg6_0 : Ref sig .tc := ⟨.vmem, 22, rfl⟩
abbrev cc1_stg7_0 : Ref sig .tc := ⟨.vmem, 23, rfl⟩
abbrev cc1_stg8_0 : Ref sig .tc := ⟨.vmem, 24, rfl⟩
abbrev cc1_stg8_1 : Ref sig .tc := ⟨.vmem, 25, rfl⟩
abbrev cc2_stg0_0 : Ref sig .tc := ⟨.vmem, 26, rfl⟩
abbrev cc2_stg0_1 : Ref sig .tc := ⟨.vmem, 27, rfl⟩
abbrev cc2_stg1_0 : Ref sig .tc := ⟨.vmem, 28, rfl⟩
abbrev cc2_stg1_1 : Ref sig .tc := ⟨.vmem, 29, rfl⟩
abbrev cc2_stg2_0 : Ref sig .tc := ⟨.vmem, 30, rfl⟩
abbrev cc2_stg2_1 : Ref sig .tc := ⟨.vmem, 31, rfl⟩
abbrev cc2_stg3_0 : Ref sig .tc := ⟨.vmem, 32, rfl⟩
abbrev cc2_stg4_0 : Ref sig .tc := ⟨.vmem, 33, rfl⟩
abbrev cc2_stg5_0 : Ref sig .tc := ⟨.vmem, 34, rfl⟩
abbrev cc2_stg6_0 : Ref sig .tc := ⟨.vmem, 35, rfl⟩
abbrev cc2_stg7_0 : Ref sig .tc := ⟨.vmem, 36, rfl⟩
abbrev cc2_stg8_0 : Ref sig .tc := ⟨.vmem, 37, rfl⟩
abbrev cc2_stg8_1 : Ref sig .tc := ⟨.vmem, 38, rfl⟩
abbrev cc3_stg0_0 : Ref sig .tc := ⟨.vmem, 39, rfl⟩
abbrev cc3_stg0_1 : Ref sig .tc := ⟨.vmem, 40, rfl⟩
abbrev cc3_stg1_0 : Ref sig .tc := ⟨.vmem, 41, rfl⟩
abbrev cc3_stg1_1 : Ref sig .tc := ⟨.vmem, 42, rfl⟩
abbrev cc3_stg2_0 : Ref sig .tc := ⟨.vmem, 43, rfl⟩
abbrev cc3_stg2_1 : Ref sig .tc := ⟨.vmem, 44, rfl⟩
abbrev cc3_stg3_0 : Ref sig .tc := ⟨.vmem, 45, rfl⟩
abbrev cc3_stg4_0 : Ref sig .tc := ⟨.vmem, 46, rfl⟩
abbrev cc3_stg5_0 : Ref sig .tc := ⟨.vmem, 47, rfl⟩
abbrev cc3_stg6_0 : Ref sig .tc := ⟨.vmem, 48, rfl⟩
abbrev cc3_stg7_0 : Ref sig .tc := ⟨.vmem, 49, rfl⟩
abbrev cc3_stg8_0 : Ref sig .tc := ⟨.vmem, 50, rfl⟩
abbrev cc3_stg8_1 : Ref sig .tc := ⟨.vmem, 51, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc1_sem0_0 : DmaSem sig := 13
abbrev cc1_sem0_1 : DmaSem sig := 14
abbrev cc1_sem1_0 : DmaSem sig := 15
abbrev cc1_sem1_1 : DmaSem sig := 16
abbrev cc1_sem2_0 : DmaSem sig := 17
abbrev cc1_sem2_1 : DmaSem sig := 18
abbrev cc1_sem3_0 : DmaSem sig := 19
abbrev cc1_sem4_0 : DmaSem sig := 20
abbrev cc1_sem5_0 : DmaSem sig := 21
abbrev cc1_sem6_0 : DmaSem sig := 22
abbrev cc1_sem7_0 : DmaSem sig := 23
abbrev cc1_sem8_0 : DmaSem sig := 24
abbrev cc1_sem8_1 : DmaSem sig := 25
abbrev cc2_sem0_0 : DmaSem sig := 26
abbrev cc2_sem0_1 : DmaSem sig := 27
abbrev cc2_sem1_0 : DmaSem sig := 28
abbrev cc2_sem1_1 : DmaSem sig := 29
abbrev cc2_sem2_0 : DmaSem sig := 30
abbrev cc2_sem2_1 : DmaSem sig := 31
abbrev cc2_sem3_0 : DmaSem sig := 32
abbrev cc2_sem4_0 : DmaSem sig := 33
abbrev cc2_sem5_0 : DmaSem sig := 34
abbrev cc2_sem6_0 : DmaSem sig := 35
abbrev cc2_sem7_0 : DmaSem sig := 36
abbrev cc2_sem8_0 : DmaSem sig := 37
abbrev cc2_sem8_1 : DmaSem sig := 38
abbrev cc3_sem0_0 : DmaSem sig := 39
abbrev cc3_sem0_1 : DmaSem sig := 40
abbrev cc3_sem1_0 : DmaSem sig := 41
abbrev cc3_sem1_1 : DmaSem sig := 42
abbrev cc3_sem2_0 : DmaSem sig := 43
abbrev cc3_sem2_1 : DmaSem sig := 44
abbrev cc3_sem3_0 : DmaSem sig := 45
abbrev cc3_sem4_0 : DmaSem sig := 46
abbrev cc3_sem5_0 : DmaSem sig := 47
abbrev cc3_sem6_0 : DmaSem sig := 48
abbrev cc3_sem7_0 : DmaSem sig := 49
abbrev cc3_sem8_0 : DmaSem sig := 50
abbrev cc3_sem8_1 : DmaSem sig := 51

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S10000x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S10000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S10000x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S10000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 2 → Memref sig .tc .vmem S10000x128 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S10000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S10000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S128x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S128x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x128 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S1x128 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 2 → Memref sig .tc .vmem S10000x128 .f32 := fun | 0 => Memref.whole cc3_stg8_0 | 1 => Memref.whole cc3_stg8_1 | ⟨_ + 2, h⟩ => absurd h (Nat.not_lt.2 (Nat.le_add_left _ _))
abbrev sem3_8 : Fin 2 → DmaSem sig := fun | 0 => cc3_sem8_0 | 1 => cc3_sem8_1 | ⟨_ + 2, h⟩ => absurd h (Nat.not_lt.2 (Nat.le_add_left _ _))
abbrev reads3_8 : Fin grid3.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000x1 : S_.BroadcastsInDim S600000x1 (![] : Fin 0 → Fin S600000x1.rank)
  bcast_S_S100000x1 : S_.BroadcastsInDim S100000x1 (![] : Fin 0 → Fin S100000x1.rank)
  bcast_S_S600000 : S_.BroadcastsInDim S600000 (![] : Fin 0 → Fin S600000.rank)
  bcast_S600000_S600000x1_0 : S600000.BroadcastsInDim S600000x1 (![0] : Fin 1 → Fin S600000x1.rank)
  bcast_S_S100000x128 : S_.BroadcastsInDim S100000x128 (![] : Fin 0 → Fin S100000x128.rank)
  slices_S2x128x128_S1x128x128_0_0_0 : S2x128x128.Slices ![0, 0, 0] S1x128x128
  shapeCasts_S1x128x128_S128x128 : S1x128x128.ShapeCasts S128x128
  slices_S2x128_S1x128_0_0 : S2x128.Slices ![0, 0] S1x128
  shapeCasts_S1x128_S128 : S1x128.ShapeCasts S128
  transposes_S128x128_S128x128_1_0 : S128x128.Transposes [1, 0] S128x128
  shapeCasts_S128_S1x128 : S128.ShapeCasts S1x128
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x128 : S10000x1.Broadcasts S10000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  reduces_S10000x128_S10000 : S10000x128.Reduces [1] S10000
  shapeCasts_S10000_S10000x1 : S10000.ShapeCasts S10000x1
  slices_S2x128x128_S1x128x128_1_0_0 : S2x128x128.Slices ![1, 0, 0] S1x128x128
  slices_S2x128_S1x128_1_0 : S2x128.Slices ![1, 0] S1x128
  scatter_S100000x1_S600000x1_S600000x1_1_0_0_1_wf : ScatterDims.WF S100000x1 S600000x1 S600000x1 [1] [0] [0] 1
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  dot_S10000x128_S128x128_S10000x128_1_0_0_1_n_n_wf : DotDims.WF S10000x128 S128x128 S10000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x1.size a ≤ S100000x1.size a
  hwx0_1 : ∀ i : grid0.Coords, EltTy.bits .f32 = 32 ∨ (Rect.block (s := S100000x1) S10000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S100000x128.size a
  hwx0_2 : ∀ i : grid0.Coords, EltTy.bits .f32 = 32 ∨ (Rect.block (s := S100000x128) S10000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S10000x128.size a ≤ S100000x128.size a
  hwx0_8 : ∀ i : grid0.Coords, EltTy.bits .f32 = 32 ∨ (Rect.block (s := S100000x128) S10000x128.size (cc0_transform_8 i) (hinb0_8 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x1.size a ≤ S100000x1.size a
  hwx1_1 : ∀ i : grid1.Coords, EltTy.bits .f32 = 32 ∨ (Rect.block (s := S100000x1) S10000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x128.size a ≤ S100000x128.size a
  hwx1_2 : ∀ i : grid1.Coords, EltTy.bits .f32 = 32 ∨ (Rect.block (s := S100000x128) S10000x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x128.size a ≤ S1x128.size a
  hwx1_7 : ∀ i : grid1.Coords, EltTy.bits .f32 = 32 ∨ (Rect.block (s := S1x128) S1x128.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S10000x128.size a ≤ S100000x128.size a
  hwx1_8 : ∀ i : grid1.Coords, EltTy.bits .f32 = 32 ∨ (Rect.block (s := S100000x128) S10000x128.size (cc1_transform_8 i) (hinb1_8 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S100000x128.size a
  hwx2_0 : ∀ i : grid2.Coords, EltTy.bits .f32 = 32 ∨ (Rect.block (s := S100000x128) S10000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x1.size a ≤ S100000x1.size a
  hwx2_1 : ∀ i : grid2.Coords, EltTy.bits .f32 = 32 ∨ (Rect.block (s := S100000x1) S10000x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x128.size a ≤ S100000x128.size a
  hwx2_2 : ∀ i : grid2.Coords, EltTy.bits .f32 = 32 ∨ (Rect.block (s := S100000x128) S10000x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x128.size a ≤ S128x128.size a
  hwx2_5 : ∀ i : grid2.Coords, EltTy.bits .f32 = 32 ∨ (Rect.block (s := S128x128) S128x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x128.size a ≤ S1x128.size a
  hwx2_6 : ∀ i : grid2.Coords, EltTy.bits .f32 = 32 ∨ (Rect.block (s := S1x128) S1x128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x128.size a ≤ S1x128.size a
  hwx2_7 : ∀ i : grid2.Coords, EltTy.bits .f32 = 32 ∨ (Rect.block (s := S1x128) S1x128.size (cc2_transform_7 i) (hinb2_7 i)).WholeWords (EltTy.packing .f32)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S10000x128.size a ≤ S100000x128.size a
  hwx2_8 : ∀ i : grid2.Coords, EltTy.bits .f32 = 32 ∨ (Rect.block (s := S100000x128) S10000x128.size (cc2_transform_8 i) (hinb2_8 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x128.size a ≤ S100000x128.size a
  hwx3_0 : ∀ i : grid3.Coords, EltTy.bits .f32 = 32 ∨ (Rect.block (s := S100000x128) S10000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S10000x1.size a ≤ S100000x1.size a
  hwx3_1 : ∀ i : grid3.Coords, EltTy.bits .f32 = 32 ∨ (Rect.block (s := S100000x1) S10000x1.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x128.size a ≤ S100000x128.size a
  hwx3_2 : ∀ i : grid3.Coords, EltTy.bits .f32 = 32 ∨ (Rect.block (s := S100000x128) S10000x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x128.size a ≤ S128x128.size a
  hwx3_3 : ∀ i : grid3.Coords, EltTy.bits .f32 = 32 ∨ (Rect.block (s := S128x128) S128x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S128x128.size a ≤ S128x128.size a
  hwx3_5 : ∀ i : grid3.Coords, EltTy.bits .f32 = 32 ∨ (Rect.block (s := S128x128) S128x128.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x128.size a ≤ S1x128.size a
  hwx3_6 : ∀ i : grid3.Coords, EltTy.bits .f32 = 32 ∨ (Rect.block (s := S1x128) S1x128.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S1x128.size a ≤ S1x128.size a
  hwx3_7 : ∀ i : grid3.Coords, EltTy.bits .f32 = 32 ∨ (Rect.block (s := S1x128) S1x128.size (cc3_transform_7 i) (hinb3_7 i)).WholeWords (EltTy.packing .f32)
  hstage3_8 : ∀ j, (stage3_8 j).IsWhole
  nbuf3_8 : grid3.bufCount reads3_8 false = 2
  hreads3_8 : ∀ i i' : grid3.Coords, (∀ a, reads3_8 a = true → i a = i' a) → cc3_transform_8 i = cc3_transform_8 i'
  hinb3_8 : ∀ (i : grid3.Coords) a, (cc3_transform_8 i a + 1) * S10000x128.size a ≤ S100000x128.size a
  hwx3_8 : ∀ i : grid3.Coords, EltTy.bits .f32 = 32 ∨ (Rect.block (s := S100000x128) S10000x128.size (cc3_transform_8 i) (hinb3_8 i)).WholeWords (EltTy.packing .f32)

variable [Facts₀]

def scatter_S100000x1_S600000x1_S600000x1_1_0_0_1 : ScatterDims S100000x1 S600000x1 S600000x1 where
  updateWindowDims := [1]
  insertedWindowDims := [0]
  scatterDimsToOperandDims := [0]
  indexVectorDim := 1
  wf := scatter_S100000x1_S600000x1_S600000x1_1_0_0_1_wf
def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf

abbrev win0_0 : Pipeline.Window sig grid0 :=
  Pipeline.Window.ofSpec (Memref.whole main_v48) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v29) S10000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S10000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v74) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v76) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v75) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v77) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v78) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v79) S10000x128.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_v63) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v33) S10000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg0) S10000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v90) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v92) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v91) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v93) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v94) S1x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v95) S10000x128.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

abbrev win2_0 : Pipeline.Window sig grid2 :=
  Pipeline.Window.ofSpec (Memref.whole main_v110) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v29) S10000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v79) S10000x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v136) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v138) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v137) S128x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v139) S1x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v140) S1x128.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v141) S10000x128.size cc2_transform_8 reads2_8 true false 2 stage2_8 sem2_8
    hrank2 hreads2_8 hinb2_8 nbuf2_8 (Memref.isWhole_whole _) hwx2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

abbrev win3_0 : Pipeline.Window sig grid3 :=
  Pipeline.Window.ofSpec (Memref.whole main_v125) S10000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v33) S10000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v95) S10000x128.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v152) S128x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v154) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v153) S128x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v155) S1x128.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v156) S1x128.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v157) S10000x128.size cc3_transform_8 reads3_8 true false 2 stage3_8 sem3_8
    hrank3 hreads3_8 hinb3_8 nbuf3_8 (Memref.isWhole_whole _) hwx3_8 hstage3_8

abbrev win3 : Fin 9 → Pipeline.Window sig grid3 := fun | 0 => win3_0 | 1 => win3_1 | 2 => win3_2 | 3 => win3_3 | 4 => win3_4 | 5 => win3_5 | 6 => win3_6 | 7 => win3_7 | 8 => win3_8 | ⟨_ + 9, h⟩ => absurd h (Nat.not_lt.2 (Nat.le_add_left _ _))
abbrev spec3 : Fin 9 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x128x128 : Shape := ⟨3, ![2, 128, 128]⟩
abbrev S2x128 : Shape := ⟨2, ![2, 128]⟩
abbrev S2x600000 : Shape := ⟨2, ![2, 600000]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S100000x1 : Shape := ⟨2, ![100000, 1]⟩
abbrev S100000 : Shape := ⟨1, ![100000]⟩

abbrev nBuf : Space → Nat
  | .hbm => 326
  | .vmem => 0
  | .smem => 0
  | _ => 0

abbrev hbmTy0_0 (i : Nat) : BufTy := match i % 128 with
  | 0 => ⟨S100000x128, .f32⟩
  | 1 => ⟨S100000x128, .f32⟩
  | 2 => ⟨S2x128x128, .f32⟩
  | 3 => ⟨S2x128, .f32⟩
  | 4 => ⟨S2x128x128, .f32⟩
  | 5 => ⟨S2x128x128, .f32⟩
  | 6 => ⟨S2x128, .f32⟩
  | 7 => ⟨S2x128x128, .f32⟩
  | 8 => ⟨S2x128, .f32⟩
  | 9 => ⟨S2x128, .f32⟩
  | 10 => ⟨S2x128, .f32⟩
  | 11 => ⟨S2x128, .f32⟩
  | 12 => ⟨S2x600000, .i32⟩
  | 13 => ⟨S2x600000, .i32⟩
  | 14 => ⟨S1x128x128, .f32⟩
  | 15 => ⟨S128x128, .f32⟩
  | 16 => ⟨S1x128, .f32⟩
  | 17 => ⟨S128, .f32⟩
  | 18 => ⟨S1x128x128, .f32⟩
  | 19 => ⟨S128x128, .f32⟩
  | 20 => ⟨S1x600000, .i32⟩
  | 21 => ⟨S600000, .i32⟩
  | 22 => ⟨S1x600000, .i32⟩
  | 23 => ⟨S600000, .i32⟩
  | 24 => ⟨S_, .i32⟩
  | 25 => ⟨S600000, .i32⟩
  | 26 => ⟨S600000, .i1⟩
  | 27 => ⟨S_, .i32⟩
  | 28 => ⟨S600000, .i32⟩
  | 29 => ⟨S600000, .i32⟩
  | 30 => ⟨S600000, .i32⟩
  | 31 => ⟨S600000x1, .i32⟩
  | 32 => ⟨S600000x128, .f32⟩
  | 33 => ⟨S_, .f32⟩
  | 34 => ⟨S100000x128, .f32⟩
  | 35 => ⟨S600000x1, .i32⟩
  | 36 => ⟨S100000x128, .f32⟩
  | 37 => ⟨S_, .f32⟩
  | 38 => ⟨S600000x1, .f32⟩
  | 39 => ⟨S_, .f32⟩
  | 40 => ⟨S100000x1, .f32⟩
  | 41 => ⟨S600000x1, .i32⟩
  | 42 => ⟨S100000x1, .f32⟩
  | 43 => ⟨S_, .f32⟩
  | 44 => ⟨S100000x1, .f32⟩
  | 45 => ⟨S100000x1, .f32⟩
  | 46 => ⟨S100000x128, .f32⟩
  | 47 => ⟨S100000x128, .f32⟩
  | 48 => ⟨S128x128, .f32⟩
  | 49 => ⟨S100000x128, .f32⟩
  | 50 => ⟨S1x128, .f32⟩
  | 51 => ⟨S100000x128, .f32⟩
  | 52 => ⟨S100000x128, .f32⟩
  | 53 => ⟨S128x128, .f32⟩
  | 54 => ⟨S100000x128, .f32⟩
  | 55 => ⟨S100000x128, .f32⟩
  | 56 => ⟨S1x128x128, .f32⟩
  | 57 => ⟨S128x128, .f32⟩
  | 58 => ⟨S1x128, .f32⟩
  | 59 => ⟨S128, .f32⟩
  | 60 => ⟨S1x128x128, .f32⟩
  | 61 => ⟨S128x128, .f32⟩
  | 62 => ⟨S1x600000, .i32⟩
  | 63 => ⟨S600000, .i32⟩
  | 64 => ⟨S1x600000, .i32⟩
  | 65 => ⟨S600000, .i32⟩
  | 66 => ⟨S_, .i32⟩
  | 67 => ⟨S600000, .i32⟩
  | 68 => ⟨S600000, .i1⟩
  | 69 => ⟨S_, .i32⟩
  | 70 => ⟨S600000, .i32⟩
  | 71 => ⟨S600000, .i32⟩
  | 72 => ⟨S600000, .i32⟩
  | 73 => ⟨S600000x1, .i32⟩
  | 74 => ⟨S600000x128, .f32⟩
  | 75 => ⟨S_, .f32⟩
  | 76 => ⟨S100000x128, .f32⟩
  | 77 => ⟨S600000x1, .i32⟩
  | 78 => ⟨S100000x128, .f32⟩
  | 79 => ⟨S_, .f32⟩
  | 80 => ⟨S600000x1, .f32⟩
  | 81 => ⟨S_, .f32⟩
  | 82 => ⟨S100000x1, .f32⟩
  | 83 => ⟨S600000x1, .i32⟩
  | 84 => ⟨S100000x1, .f32⟩
  | 85 => ⟨S_, .f32⟩
  | 86 => ⟨S100000x1, .f32⟩
  | 87 => ⟨S100000x1, .f32⟩
  | 88 => ⟨S100000x128, .f32⟩
  | 89 => ⟨S100000x128, .f32⟩
  | 90 => ⟨S128x128, .f32⟩
  | 91 => ⟨S100000x128, .f32⟩
  | 92 => ⟨S1x128, .f32⟩
  | 93 => ⟨S100000x128, .f32⟩
  | 94 => ⟨S100000x128, .f32⟩
  | 95 => ⟨S128x128, .f32⟩
  | 96 => ⟨S100000x128, .f32⟩
  | 97 => ⟨S100000x128, .f32⟩
  | 98 => ⟨S1x128, .f32⟩
  | 99 => ⟨S128, .f32⟩
  | 100 => ⟨S1x128, .f32⟩
  | 101 => ⟨S128, .f32⟩
  | 102 => ⟨S_, .f32⟩
  | 103 => ⟨S100000, .f32⟩
  | 104 => ⟨S100000x1, .f32⟩
  | 105 => ⟨S_, .f32⟩
  | 106 => ⟨S100000x1, .f32⟩
  | 107 => ⟨S100000x1, .f32⟩
  | 108 => ⟨S100000x128, .f32⟩
  | 109 => ⟨S100000x128, .f32⟩
  | 110 => ⟨S100000x128, .f32⟩
  | 111 => ⟨S_, .f32⟩
  | 112 => ⟨S100000, .f32⟩
  | 113 => ⟨S100000x1, .f32⟩
  | 114 => ⟨S_, .f32⟩
  | 115 => ⟨S100000x1, .f32⟩
  | 116 => ⟨S100000x1, .f32⟩
  | 117 => ⟨S100000x128, .f32⟩
  | 118 => ⟨S100000x128, .f32⟩
  | 119 => ⟨S_, .f32⟩
  | 120 => ⟨S100000x1, .f32⟩
  | 121 => ⟨S100000x1, .f32⟩
  | 122 => ⟨S100000x1, .f32⟩
  | 123 => ⟨S100000x128, .f32⟩
  | 124 => ⟨S100000x128, .f32⟩
  | 125 => ⟨S1x128, .f32⟩
  | 126 => ⟨S100000x128, .f32⟩
  | 127 => ⟨S100000x128, .f32⟩
  | _ => ⟨S100000x128, .f32⟩

abbrev hbmTy0_1 (i : Nat) : BufTy := match i % 128 with
  | 0 => ⟨S1x128, .f32⟩
  | 1 => ⟨S100000x128, .f32⟩
  | 2 => ⟨S100000x128, .f32⟩
  | 3 => ⟨S_, .f32⟩
  | 4 => ⟨S100000x128, .f32⟩
  | 5 => ⟨S100000x128, .f32⟩
  | 6 => ⟨S1x128, .f32⟩
  | 7 => ⟨S128, .f32⟩
  | 8 => ⟨S1x128, .f32⟩
  | 9 => ⟨S128, .f32⟩
  | 10 => ⟨S_, .f32⟩
  | 11 => ⟨S100000, .f32⟩
  | 12 => ⟨S100000x1, .f32⟩
  | 13 => ⟨S_, .f32⟩
  | 14 => ⟨S100000x1, .f32⟩
  | 15 => ⟨S100000x1, .f32⟩
  | 16 => ⟨S100000x128, .f32⟩
  | 17 => ⟨S100000x128, .f32⟩
  | 18 => ⟨S100000x128, .f32⟩
  | 19 => ⟨S_, .f32⟩
  | 20 => ⟨S100000, .f32⟩
  | 21 => ⟨S100000x1, .f32⟩
  | 22 => ⟨S_, .f32⟩
  | 23 => ⟨S100000x1, .f32⟩
  | 24 => ⟨S100000x1, .f32⟩
  | 25 => ⟨S100000x128, .f32⟩
  | 26 => ⟨S100000x128, .f32⟩
  | 27 => ⟨S_, .f32⟩
  | 28 => ⟨S100000x1, .f32⟩
  | 29 => ⟨S100000x1, .f32⟩
  | 30 => ⟨S100000x1, .f32⟩
  | 31 => ⟨S100000x128, .f32⟩
  | 32 => ⟨S100000x128, .f32⟩
  | 33 => ⟨S1x128, .f32⟩
  | 34 => ⟨S100000x128, .f32⟩
  | 35 => ⟨S100000x128, .f32⟩
  | 36 => ⟨S1x128, .f32⟩
  | 37 => ⟨S100000x128, .f32⟩
  | 38 => ⟨S100000x128, .f32⟩
  | 39 => ⟨S_, .f32⟩
  | 40 => ⟨S100000x128, .f32⟩
  | 41 => ⟨S100000x128, .f32⟩
  | 42 => ⟨S1x128x128, .f32⟩
  | 43 => ⟨S128x128, .f32⟩
  | 44 => ⟨S1x128, .f32⟩
  | 45 => ⟨S128, .f32⟩
  | 46 => ⟨S1x128x128, .f32⟩
  | 47 => ⟨S128x128, .f32⟩
  | 48 => ⟨S1x600000, .i32⟩
  | 49 => ⟨S600000, .i32⟩
  | 50 => ⟨S1x600000, .i32⟩
  | 51 => ⟨S600000, .i32⟩
  | 52 => ⟨S_, .i32⟩
  | 53 => ⟨S600000, .i32⟩
  | 54 => ⟨S600000, .i1⟩
  | 55 => ⟨S_, .i32⟩
  | 56 => ⟨S600000, .i32⟩
  | 57 => ⟨S600000, .i32⟩
  | 58 => ⟨S600000, .i32⟩
  | 59 => ⟨S600000x1, .i32⟩
  | 60 => ⟨S600000x128, .f32⟩
  | 61 => ⟨S_, .f32⟩
  | 62 => ⟨S100000x128, .f32⟩
  | 63 => ⟨S600000x1, .i32⟩
  | 64 => ⟨S100000x128, .f32⟩
  | 65 => ⟨S_, .f32⟩
  | 66 => ⟨S600000x1, .f32⟩
  | 67 => ⟨S_, .f32⟩
  | 68 => ⟨S100000x1, .f32⟩
  | 69 => ⟨S600000x1, .i32⟩
  | 70 => ⟨S100000x1, .f32⟩
  | 71 => ⟨S_, .f32⟩
  | 72 => ⟨S100000x1, .f32⟩
  | 73 => ⟨S100000x1, .f32⟩
  | 74 => ⟨S100000x128, .f32⟩
  | 75 => ⟨S100000x128, .f32⟩
  | 76 => ⟨S128x128, .f32⟩
  | 77 => ⟨S100000x128, .f32⟩
  | 78 => ⟨S1x128, .f32⟩
  | 79 => ⟨S100000x128, .f32⟩
  | 80 => ⟨S100000x128, .f32⟩
  | 81 => ⟨S128x128, .f32⟩
  | 82 => ⟨S100000x128, .f32⟩
  | 83 => ⟨S100000x128, .f32⟩
  | 84 => ⟨S1x128x128, .f32⟩
  | 85 => ⟨S128x128, .f32⟩
  | 86 => ⟨S1x128, .f32⟩
  | 87 => ⟨S128, .f32⟩
  | 88 => ⟨S1x128x128, .f32⟩
  | 89 => ⟨S128x128, .f32⟩
  | 90 => ⟨S1x600000, .i32⟩
  | 91 => ⟨S600000, .i32⟩
  | 92 => ⟨S1x600000, .i32⟩
  | 93 => ⟨S600000, .i32⟩
  | 94 => ⟨S_, .i32⟩
  | 95 => ⟨S600000, .i32⟩
  | 96 => ⟨S600000, .i1⟩
  | 97 => ⟨S_, .i32⟩
  | 98 => ⟨S600000, .i32⟩
  | 99 => ⟨S600000, .i32⟩
  | 100 => ⟨S600000, .i32⟩
  | 101 => ⟨S600000x1, .i32⟩
  | 102 => ⟨S600000x128, .f32⟩
  | 103 => ⟨S_, .f32⟩
  | 104 => ⟨S100000x128, .f32⟩
  | 105 => ⟨S600000x1, .i32⟩
  | 106 => ⟨S100000x128, .f32⟩
  | 107 => ⟨S_, .f32⟩
  | 108 => ⟨S600000x1, .f32⟩
  | 109 => ⟨S_, .f32⟩
  | 110 => ⟨S100000x1, .f32⟩
  | 111 => ⟨S600000x1, .i32⟩
  | 112 => ⟨S100000x1, .f32⟩
  | 113 => ⟨S_, .f32⟩
  | 114 => ⟨S100000x1, .f32⟩
  | 115 => ⟨S100000x1, .f32⟩
  | 116 => ⟨S100000x128, .f32⟩
  | 117 => ⟨S100000x128, .f32⟩
  | 118 => ⟨S128x128, .f32⟩
  | 119 => ⟨S100000x128, .f32⟩
  | 120 => ⟨S1x128, .f32⟩
  | 121 => ⟨S100000x128, .f32⟩
  | 122 => ⟨S100000x128, .f32⟩
  | 123 => ⟨S128x128, .f32⟩
  | 124 => ⟨S100000x128, .f32⟩
  | 125 => ⟨S100000x128, .f32⟩
  | 126 => ⟨S1x128, .f32⟩
  | 127 => ⟨S128, .f32⟩
  | _ => ⟨S100000x128, .f32⟩

abbrev hbmTy0_2 (i : Nat) : BufTy := match i % 128 with
  | 0 => ⟨S1x128, .f32⟩
  | 1 => ⟨S128, .f32⟩
  | 2 => ⟨S_, .f32⟩
  | 3 => ⟨S100000, .f32⟩
  | 4 => ⟨S100000x1, .f32⟩
  | 5 => ⟨S_, .f32⟩
  | 6 => ⟨S100000x1, .f32⟩
  | 7 => ⟨S100000x1, .f32⟩
  | 8 => ⟨S100000x128, .f32⟩
  | 9 => ⟨S100000x128, .f32⟩
  | 10 => ⟨S100000x128, .f32⟩
  | 11 => ⟨S_, .f32⟩
  | 12 => ⟨S100000, .f32⟩
  | 13 => ⟨S100000x1, .f32⟩
  | 14 => ⟨S_, .f32⟩
  | 15 => ⟨S100000x1, .f32⟩
  | 16 => ⟨S100000x1, .f32⟩
  | 17 => ⟨S100000x128, .f32⟩
  | 18 => ⟨S100000x128, .f32⟩
  | 19 => ⟨S_, .f32⟩
  | 20 => ⟨S100000x1, .f32⟩
  | 21 => ⟨S100000x1, .f32⟩
  | 22 => ⟨S100000x1, .f32⟩
  | 23 => ⟨S100000x128, .f32⟩
  | 24 => ⟨S100000x128, .f32⟩
  | 25 => ⟨S1x128, .f32⟩
  | 26 => ⟨S100000x128, .f32⟩
  | 27 => ⟨S100000x128, .f32⟩
  | 28 => ⟨S1x128, .f32⟩
  | 29 => ⟨S100000x128, .f32⟩
  | 30 => ⟨S100000x128, .f32⟩
  | 31 => ⟨S_, .f32⟩
  | 32 => ⟨S100000x128, .f32⟩
  | 33 => ⟨S100000x128, .f32⟩
  | 34 => ⟨S1x128, .f32⟩
  | 35 => ⟨S128, .f32⟩
  | 36 => ⟨S1x128, .f32⟩
  | 37 => ⟨S128, .f32⟩
  | 38 => ⟨S_, .f32⟩
  | 39 => ⟨S100000, .f32⟩
  | 40 => ⟨S100000x1, .f32⟩
  | 41 => ⟨S_, .f32⟩
  | 42 => ⟨S100000x1, .f32⟩
  | 43 => ⟨S100000x1, .f32⟩
  | 44 => ⟨S100000x128, .f32⟩
  | 45 => ⟨S100000x128, .f32⟩
  | 46 => ⟨S100000x128, .f32⟩
  | 47 => ⟨S_, .f32⟩
  | 48 => ⟨S100000, .f32⟩
  | 49 => ⟨S100000x1, .f32⟩
  | 50 => ⟨S_, .f32⟩
  | 51 => ⟨S100000x1, .f32⟩
  | 52 => ⟨S100000x1, .f32⟩
  | 53 => ⟨S100000x128, .f32⟩
  | 54 => ⟨S100000x128, .f32⟩
  | 55 => ⟨S_, .f32⟩
  | 56 => ⟨S100000x1, .f32⟩
  | 57 => ⟨S100000x1, .f32⟩
  | 58 => ⟨S100000x1, .f32⟩
  | 59 => ⟨S100000x128, .f32⟩
  | 60 => ⟨S100000x128, .f32⟩
  | 61 => ⟨S1x128, .f32⟩
  | 62 => ⟨S100000x128, .f32⟩
  | 63 => ⟨S100000x128, .f32⟩
  | 64 => ⟨S1x128, .f32⟩
  | 65 => ⟨S100000x128, .f32⟩
  | 66 => ⟨S100000x128, .f32⟩
  | 67 => ⟨S_, .f32⟩
  | 68 => ⟨S100000x128, .f32⟩
  | 69 => ⟨S100000x128, .f32⟩
  | _ => ⟨S100000x128, .f32⟩

abbrev hbmTy (i : Nat) : BufTy := match i / 128 with
  | 0 => hbmTy0_0 i
  | 1 => hbmTy0_1 i
  | 2 => hbmTy0_2 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_c : Ref sig .tc := ⟨.hbm, 24, rfl⟩
abbrev main_v10 : Ref sig .tc := ⟨.hbm, 25, rfl⟩
abbrev main_v11 : Ref sig .tc := ⟨.hbm, 26, rfl⟩
abbrev main_c_0 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_cst : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_1 : Ref sig .tc := ⟨.hbm, 37, rfl⟩
abbrev main_v20 : Ref sig .tc := ⟨.hbm, 38, rfl⟩
abbrev main_cst_2 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_cst_3 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_c_4 : Ref sig .tc := ⟨.hbm, 66, rfl⟩
abbrev main_v46 : Ref sig .tc := ⟨.hbm, 67, rfl⟩
abbrev main_v47 : Ref sig .tc := ⟨.hbm, 68, rfl⟩
abbrev main_c_5 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_cst_6 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_7 : Ref sig .tc := ⟨.hbm, 79, rfl⟩
abbrev main_v56 : Ref sig .tc := ⟨.hbm, 80, rfl⟩
abbrev main_cst_8 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_cst_9 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_cst_10 : Ref sig .tc := ⟨.hbm, 102, rfl⟩
abbrev main_v76 : Ref sig .tc := ⟨.hbm, 103, rfl⟩
abbrev main_v77 : Ref sig .tc := ⟨.hbm, 104, rfl⟩
abbrev main_cst_11 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_cst_12 : Ref sig .tc := ⟨.hbm, 111, rfl⟩
abbrev main_v83 : Ref sig .tc := ⟨.hbm, 112, rfl⟩
abbrev main_v84 : Ref sig .tc := ⟨.hbm, 113, rfl⟩
abbrev main_cst_13 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_cst_14 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_call0_cst : Ref sig .tc := ⟨.hbm, 131, rfl⟩
abbrev main_call0_v0 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩
abbrev main_cst_15 : Ref sig .tc := ⟨.hbm, 138, rfl⟩
abbrev main_v105 : Ref sig .tc := ⟨.hbm, 139, rfl⟩
abbrev main_v106 : Ref sig .tc := ⟨.hbm, 140, rfl⟩
abbrev main_cst_16 : Ref sig .tc := ⟨.hbm, 141, rfl⟩
abbrev main_v107 : Ref sig .tc := ⟨.hbm, 142, rfl⟩
abbrev main_v108 : Ref sig .tc := ⟨.hbm, 143, rfl⟩
abbrev main_v109 : Ref sig .tc := ⟨.hbm, 144, rfl⟩
abbrev main_v110 : Ref sig .tc := ⟨.hbm, 145, rfl⟩
abbrev main_v111 : Ref sig .tc := ⟨.hbm, 146, rfl⟩
abbrev main_cst_17 : Ref sig .tc := ⟨.hbm, 147, rfl⟩
abbrev main_v112 : Ref sig .tc := ⟨.hbm, 148, rfl⟩
abbrev main_v113 : Ref sig .tc := ⟨.hbm, 149, rfl⟩
abbrev main_cst_18 : Ref sig .tc := ⟨.hbm, 150, rfl⟩
abbrev main_v114 : Ref sig .tc := ⟨.hbm, 151, rfl⟩
abbrev main_v115 : Ref sig .tc := ⟨.hbm, 152, rfl⟩
abbrev main_v116 : Ref sig .tc := ⟨.hbm, 153, rfl⟩
abbrev main_v117 : Ref sig .tc := ⟨.hbm, 154, rfl⟩
abbrev main_cst_19 : Ref sig .tc := ⟨.hbm, 155, rfl⟩
abbrev main_v118 : Ref sig .tc := ⟨.hbm, 156, rfl⟩
abbrev main_v119 : Ref sig .tc := ⟨.hbm, 157, rfl⟩
abbrev main_v120 : Ref sig .tc := ⟨.hbm, 158, rfl⟩
abbrev main_v121 : Ref sig .tc := ⟨.hbm, 159, rfl⟩
abbrev main_v122 : Ref sig .tc := ⟨.hbm, 160, rfl⟩
abbrev main_v123 : Ref sig .tc := ⟨.hbm, 161, rfl⟩
abbrev main_v124 : Ref sig .tc := ⟨.hbm, 162, rfl⟩
abbrev main_v125 : Ref sig .tc := ⟨.hbm, 163, rfl⟩
abbrev main_v126 : Ref sig .tc := ⟨.hbm, 164, rfl⟩
abbrev main_v127 : Ref sig .tc := ⟨.hbm, 165, rfl⟩
abbrev main_v128 : Ref sig .tc := ⟨.hbm, 166, rfl⟩
abbrev main_call1_cst : Ref sig .tc := ⟨.hbm, 167, rfl⟩
abbrev main_call1_v0 : Ref sig .tc := ⟨.hbm, 168, rfl⟩
abbrev main_v129 : Ref sig .tc := ⟨.hbm, 169, rfl⟩
abbrev main_v130 : Ref sig .tc := ⟨.hbm, 170, rfl⟩
abbrev main_v131 : Ref sig .tc := ⟨.hbm, 171, rfl⟩
abbrev main_v132 : Ref sig .tc := ⟨.hbm, 172, rfl⟩
abbrev main_v133 : Ref sig .tc := ⟨.hbm, 173, rfl⟩
abbrev main_v134 : Ref sig .tc := ⟨.hbm, 174, rfl⟩
abbrev main_v135 : Ref sig .tc := ⟨.hbm, 175, rfl⟩
abbrev main_v136 : Ref sig .tc := ⟨.hbm, 176, rfl⟩
abbrev main_v137 : Ref sig .tc := ⟨.hbm, 177, rfl⟩
abbrev main_v138 : Ref sig .tc := ⟨.hbm, 178, rfl⟩
abbrev main_v139 : Ref sig .tc := ⟨.hbm, 179, rfl⟩
abbrev main_c_20 : Ref sig .tc := ⟨.hbm, 180, rfl⟩
abbrev main_v140 : Ref sig .tc := ⟨.hbm, 181, rfl⟩
abbrev main_v141 : Ref sig .tc := ⟨.hbm, 182, rfl⟩
abbrev main_c_21 : Ref sig .tc := ⟨.hbm, 183, rfl⟩
abbrev main_v142 : Ref sig .tc := ⟨.hbm, 184, rfl⟩
abbrev main_v143 : Ref sig .tc := ⟨.hbm, 185, rfl⟩
abbrev main_v144 : Ref sig .tc := ⟨.hbm, 186, rfl⟩
abbrev main_v145 : Ref sig .tc := ⟨.hbm, 187, rfl⟩
abbrev main_v146 : Ref sig .tc := ⟨.hbm, 188, rfl⟩
abbrev main_cst_22 : Ref sig .tc := ⟨.hbm, 189, rfl⟩
abbrev main_v147 : Ref sig .tc := ⟨.hbm, 190, rfl⟩
abbrev main_v148 : Ref sig .tc := ⟨.hbm, 191, rfl⟩
abbrev main_v149 : Ref sig .tc := ⟨.hbm, 192, rfl⟩
abbrev main_cst_23 : Ref sig .tc := ⟨.hbm, 193, rfl⟩
abbrev main_v150 : Ref sig .tc := ⟨.hbm, 194, rfl⟩
abbrev main_cst_24 : Ref sig .tc := ⟨.hbm, 195, rfl⟩
abbrev main_v151 : Ref sig .tc := ⟨.hbm, 196, rfl⟩
abbrev main_v152 : Ref sig .tc := ⟨.hbm, 197, rfl⟩
abbrev main_v153 : Ref sig .tc := ⟨.hbm, 198, rfl⟩
abbrev main_cst_25 : Ref sig .tc := ⟨.hbm, 199, rfl⟩
abbrev main_v154 : Ref sig .tc := ⟨.hbm, 200, rfl⟩
abbrev main_v155 : Ref sig .tc := ⟨.hbm, 201, rfl⟩
abbrev main_v156 : Ref sig .tc := ⟨.hbm, 202, rfl⟩
abbrev main_v157 : Ref sig .tc := ⟨.hbm, 203, rfl⟩
abbrev main_v158 : Ref sig .tc := ⟨.hbm, 204, rfl⟩
abbrev main_v159 : Ref sig .tc := ⟨.hbm, 205, rfl⟩
abbrev main_v160 : Ref sig .tc := ⟨.hbm, 206, rfl⟩
abbrev main_v161 : Ref sig .tc := ⟨.hbm, 207, rfl⟩
abbrev main_v162 : Ref sig .tc := ⟨.hbm, 208, rfl⟩
abbrev main_v163 : Ref sig .tc := ⟨.hbm, 209, rfl⟩
abbrev main_v164 : Ref sig .tc := ⟨.hbm, 210, rfl⟩
abbrev main_v165 : Ref sig .tc := ⟨.hbm, 211, rfl⟩
abbrev main_v166 : Ref sig .tc := ⟨.hbm, 212, rfl⟩
abbrev main_v167 : Ref sig .tc := ⟨.hbm, 213, rfl⟩
abbrev main_v168 : Ref sig .tc := ⟨.hbm, 214, rfl⟩
abbrev main_v169 : Ref sig .tc := ⟨.hbm, 215, rfl⟩
abbrev main_v170 : Ref sig .tc := ⟨.hbm, 216, rfl⟩
abbrev main_v171 : Ref sig .tc := ⟨.hbm, 217, rfl⟩
abbrev main_v172 : Ref sig .tc := ⟨.hbm, 218, rfl⟩
abbrev main_v173 : Ref sig .tc := ⟨.hbm, 219, rfl⟩
abbrev main_v174 : Ref sig .tc := ⟨.hbm, 220, rfl⟩
abbrev main_v175 : Ref sig .tc := ⟨.hbm, 221, rfl⟩
abbrev main_c_26 : Ref sig .tc := ⟨.hbm, 222, rfl⟩
abbrev main_v176 : Ref sig .tc := ⟨.hbm, 223, rfl⟩
abbrev main_v177 : Ref sig .tc := ⟨.hbm, 224, rfl⟩
abbrev main_c_27 : Ref sig .tc := ⟨.hbm, 225, rfl⟩
abbrev main_v178 : Ref sig .tc := ⟨.hbm, 226, rfl⟩
abbrev main_v179 : Ref sig .tc := ⟨.hbm, 227, rfl⟩
abbrev main_v180 : Ref sig .tc := ⟨.hbm, 228, rfl⟩
abbrev main_v181 : Ref sig .tc := ⟨.hbm, 229, rfl⟩
abbrev main_v182 : Ref sig .tc := ⟨.hbm, 230, rfl⟩
abbrev main_cst_28 : Ref sig .tc := ⟨.hbm, 231, rfl⟩
abbrev main_v183 : Ref sig .tc := ⟨.hbm, 232, rfl⟩
abbrev main_v184 : Ref sig .tc := ⟨.hbm, 233, rfl⟩
abbrev main_v185 : Ref sig .tc := ⟨.hbm, 234, rfl⟩
abbrev main_cst_29 : Ref sig .tc := ⟨.hbm, 235, rfl⟩
abbrev main_v186 : Ref sig .tc := ⟨.hbm, 236, rfl⟩
abbrev main_cst_30 : Ref sig .tc := ⟨.hbm, 237, rfl⟩
abbrev main_v187 : Ref sig .tc := ⟨.hbm, 238, rfl⟩
abbrev main_v188 : Ref sig .tc := ⟨.hbm, 239, rfl⟩
abbrev main_v189 : Ref sig .tc := ⟨.hbm, 240, rfl⟩
abbrev main_cst_31 : Ref sig .tc := ⟨.hbm, 241, rfl⟩
abbrev main_v190 : Ref sig .tc := ⟨.hbm, 242, rfl⟩
abbrev main_v191 : Ref sig .tc := ⟨.hbm, 243, rfl⟩
abbrev main_v192 : Ref sig .tc := ⟨.hbm, 244, rfl⟩
abbrev main_v193 : Ref sig .tc := ⟨.hbm, 245, rfl⟩
abbrev main_v194 : Ref sig .tc := ⟨.hbm, 246, rfl⟩
abbrev main_v195 : Ref sig .tc := ⟨.hbm, 247, rfl⟩
abbrev main_v196 : Ref sig .tc := ⟨.hbm, 248, rfl⟩
abbrev main_v197 : Ref sig .tc := ⟨.hbm, 249, rfl⟩
abbrev main_v198 : Ref sig .tc := ⟨.hbm, 250, rfl⟩
abbrev main_v199 : Ref sig .tc := ⟨.hbm, 251, rfl⟩
abbrev main_v200 : Ref sig .tc := ⟨.hbm, 252, rfl⟩
abbrev main_v201 : Ref sig .tc := ⟨.hbm, 253, rfl⟩
abbrev main_v202 : Ref sig .tc := ⟨.hbm, 254, rfl⟩
abbrev main_v203 : Ref sig .tc := ⟨.hbm, 255, rfl⟩
abbrev main_v204 : Ref sig .tc := ⟨.hbm, 256, rfl⟩
abbrev main_v205 : Ref sig .tc := ⟨.hbm, 257, rfl⟩
abbrev main_cst_32 : Ref sig .tc := ⟨.hbm, 258, rfl⟩
abbrev main_v206 : Ref sig .tc := ⟨.hbm, 259, rfl⟩
abbrev main_v207 : Ref sig .tc := ⟨.hbm, 260, rfl⟩
abbrev main_cst_33 : Ref sig .tc := ⟨.hbm, 261, rfl⟩
abbrev main_v208 : Ref sig .tc := ⟨.hbm, 262, rfl⟩
abbrev main_v209 : Ref sig .tc := ⟨.hbm, 263, rfl⟩
abbrev main_v210 : Ref sig .tc := ⟨.hbm, 264, rfl⟩
abbrev main_v211 : Ref sig .tc := ⟨.hbm, 265, rfl⟩
abbrev main_v212 : Ref sig .tc := ⟨.hbm, 266, rfl⟩
abbrev main_cst_34 : Ref sig .tc := ⟨.hbm, 267, rfl⟩
abbrev main_v213 : Ref sig .tc := ⟨.hbm, 268, rfl⟩
abbrev main_v214 : Ref sig .tc := ⟨.hbm, 269, rfl⟩
abbrev main_cst_35 : Ref sig .tc := ⟨.hbm, 270, rfl⟩
abbrev main_v215 : Ref sig .tc := ⟨.hbm, 271, rfl⟩
abbrev main_v216 : Ref sig .tc := ⟨.hbm, 272, rfl⟩
abbrev main_v217 : Ref sig .tc := ⟨.hbm, 273, rfl⟩
abbrev main_v218 : Ref sig .tc := ⟨.hbm, 274, rfl⟩
abbrev main_cst_36 : Ref sig .tc := ⟨.hbm, 275, rfl⟩
abbrev main_v219 : Ref sig .tc := ⟨.hbm, 276, rfl⟩
abbrev main_v220 : Ref sig .tc := ⟨.hbm, 277, rfl⟩
abbrev main_v221 : Ref sig .tc := ⟨.hbm, 278, rfl⟩
abbrev main_v222 : Ref sig .tc := ⟨.hbm, 279, rfl⟩
abbrev main_v223 : Ref sig .tc := ⟨.hbm, 280, rfl⟩
abbrev main_v224 : Ref sig .tc := ⟨.hbm, 281, rfl⟩
abbrev main_v225 : Ref sig .tc := ⟨.hbm, 282, rfl⟩
abbrev main_v226 : Ref sig .tc := ⟨.hbm, 283, rfl⟩
abbrev main_v227 : Ref sig .tc := ⟨.hbm, 284, rfl⟩
abbrev main_v228 : Ref sig .tc := ⟨.hbm, 285, rfl⟩
abbrev main_v229 : Ref sig .tc := ⟨.hbm, 286, rfl⟩
abbrev main_call2_cst : Ref sig .tc := ⟨.hbm, 287, rfl⟩
abbrev main_call2_v0 : Ref sig .tc := ⟨.hbm, 288, rfl⟩
abbrev main_v230 : Ref sig .tc := ⟨.hbm, 289, rfl⟩
abbrev main_v231 : Ref sig .tc := ⟨.hbm, 290, rfl⟩
abbrev main_v232 : Ref sig .tc := ⟨.hbm, 291, rfl⟩
abbrev main_v233 : Ref sig .tc := ⟨.hbm, 292, rfl⟩
abbrev main_v234 : Ref sig .tc := ⟨.hbm, 293, rfl⟩
abbrev main_cst_37 : Ref sig .tc := ⟨.hbm, 294, rfl⟩
abbrev main_v235 : Ref sig .tc := ⟨.hbm, 295, rfl⟩
abbrev main_v236 : Ref sig .tc := ⟨.hbm, 296, rfl⟩
abbrev main_cst_38 : Ref sig .tc := ⟨.hbm, 297, rfl⟩
abbrev main_v237 : Ref sig .tc := ⟨.hbm, 298, rfl⟩
abbrev main_v238 : Ref sig .tc := ⟨.hbm, 299, rfl⟩
abbrev main_v239 : Ref sig .tc := ⟨.hbm, 300, rfl⟩
abbrev main_v240 : Ref sig .tc := ⟨.hbm, 301, rfl⟩
abbrev main_v241 : Ref sig .tc := ⟨.hbm, 302, rfl⟩
abbrev main_cst_39 : Ref sig .tc := ⟨.hbm, 303, rfl⟩
abbrev main_v242 : Ref sig .tc := ⟨.hbm, 304, rfl⟩
abbrev main_v243 : Ref sig .tc := ⟨.hbm, 305, rfl⟩
abbrev main_cst_40 : Ref sig .tc := ⟨.hbm, 306, rfl⟩
abbrev main_v244 : Ref sig .tc := ⟨.hbm, 307, rfl⟩
abbrev main_v245 : Ref sig .tc := ⟨.hbm, 308, rfl⟩
abbrev main_v246 : Ref sig .tc := ⟨.hbm, 309, rfl⟩
abbrev main_v247 : Ref sig .tc := ⟨.hbm, 310, rfl⟩
abbrev main_cst_41 : Ref sig .tc := ⟨.hbm, 311, rfl⟩
abbrev main_v248 : Ref sig .tc := ⟨.hbm, 312, rfl⟩
abbrev main_v249 : Ref sig .tc := ⟨.hbm, 313, rfl⟩
abbrev main_v250 : Ref sig .tc := ⟨.hbm, 314, rfl⟩
abbrev main_v251 : Ref sig .tc := ⟨.hbm, 315, rfl⟩
abbrev main_v252 : Ref sig .tc := ⟨.hbm, 316, rfl⟩
abbrev main_v253 : Ref sig .tc := ⟨.hbm, 317, rfl⟩
abbrev main_v254 : Ref sig .tc := ⟨.hbm, 318, rfl⟩
abbrev main_v255 : Ref sig .tc := ⟨.hbm, 319, rfl⟩
abbrev main_v256 : Ref sig .tc := ⟨.hbm, 320, rfl⟩
abbrev main_v257 : Ref sig .tc := ⟨.hbm, 321, rfl⟩
abbrev main_v258 : Ref sig .tc := ⟨.hbm, 322, rfl⟩
abbrev main_call3_cst : Ref sig .tc := ⟨.hbm, 323, rfl⟩
abbrev main_call3_v0 : Ref sig .tc := ⟨.hbm, 324, rfl⟩
abbrev main_v259 : Ref sig .tc := ⟨.hbm, 325, rfl⟩

abbrev nD : Nat := 1
abbrev τ : Topo := Topo.v7x

variable {F : FTy → Type} [FloatOps F]

class Facts₀ : Prop where
  slices_S2x128x128_S1x128x128_0_0_0 : S2x128x128.Slices ![0, 0, 0] S1x128x128
  shapeCasts_S1x128x128_S128x128 : S1x128x128.ShapeCasts S128x128
  slices_S2x128_S1x128_0_0 : S2x128.Slices ![0, 0] S1x128
  shapeCasts_S1x128_S128 : S1x128.ShapeCasts S128
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S100000x128 : S_.BroadcastsInDim S100000x128 (![] : Fin 0 → Fin S100000x128.rank)
  bcast_S_S600000x1 : S_.BroadcastsInDim S600000x1 (![] : Fin 0 → Fin S600000x1.rank)
  bcast_S_S100000x1 : S_.BroadcastsInDim S100000x1 (![] : Fin 0 → Fin S100000x1.rank)
  bcast_S100000x1_S100000x128_0_1 : S100000x1.BroadcastsInDim S100000x128 (![0, 1] : Fin 2 → Fin S100000x128.rank)
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S100000_d1 : S100000x128.ReducesTo [1] S100000
  h_S_ : 0 < S_.numel
  bcast_S100000_S100000x1_0 : S100000.BroadcastsInDim S100000x1 (![0] : Fin 1 → Fin S100000x1.rank)
  slices_S2x128x128_S1x128x128_1_0_0 : S2x128x128.Slices ![1, 0, 0] S1x128x128
  slices_S2x128_S1x128_1_0 : S2x128.Slices ![1, 0] S1x128
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  scatter_S100000x1_S600000x1_S600000x1_1_0_0_1_wf : ScatterDims.WF S100000x1 S600000x1 S600000x1 [1] [0] [0] 1
  dot_S100000x128_S128x128_S100000x128_1_0_0_1_n_n_wf : DotDims.WF S100000x128 S128x128 S100000x128 [1] [0] [0] [1] [] []

variable [Facts₀]

def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def scatter_S100000x1_S600000x1_S600000x1_1_0_0_1 : ScatterDims S100000x1 S600000x1 S600000x1 where
  updateWindowDims := [1]
  insertedWindowDims := [0]
  scatterDimsToOperandDims := [0]
  indexVectorDim := 1
  wf := scatter_S100000x1_S600000x1_S600000x1_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.KernelRun.lean ====
/-
  The idealized kernel's run with its two results named: every weakly fair execution of @main terminates, nothing faults,
  the argument arrays end as launched, and each result array ends at what the memory fold through @main's eight
  segments (four stretches of host operations, four kernel regions) leaves in its buffer.
-/
import proofs.«134971_j26482768347335_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of @main with the results named: the two result buffers end at the last boundary's contents, the
    arguments as launched. -/
theorem run_values : θ_run defs (onTc (τ := τ) (main (F := F))) ⟨m, fun _ => 0, ρ⟩ (fun r => ∀ c : Dev nD,
      r.2.mem ((c.tc : Thread nD τ).loc main_v157) = W8 m ρ c (Proc.devRef .tc main_v157)
      ∧ r.2.mem ((c.tc : Thread nD τ).loc main_v141) = W8 m ρ c (Proc.devRef .tc main_v141)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v157 (by decide)),
       h c _ (mem_uc main_v141 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c),
       (h c _ (mem_uc main_arg10 (by decide))).trans (W8_main_arg10 m ρ c),
       (h c _ (mem_uc main_arg11 (by decide))).trans (W8_main_arg11 m ρ c),
       (h c _ (mem_uc main_arg12 (by decide))).trans (W8_main_arg12 m ρ c),
       (h c _ (mem_uc main_arg13 (by decide))).trans (W8_main_arg13 m ρ c)⟩)

end Cert.KernelIdeal.RunValue

end
-- ==== Proof.SageSpec.lean ====
/-
  One layer of the two-type graph network, as a function of whole arrays at the extended reals.

  For a node p the pre-normalisation activation is
      h(p, r) = Σ_k (S(p,k) · I(p)) · WL(k,r)  +  BL(r)  +  Σ_k X(p,k) · WR(k,r),
  where S is the sum of the neighbours' feature rows, I the reciprocal of the clamped neighbour count, X the node's own
  features, and WL, WR the two weight matrices already transposed. The output is the layer normalisation of the row h(p, ·)
  over its 128 channels (mean and biased variance as sums divided by 128, the variance shifted by the f32 literal
  closest to 1e-5), scaled by LW, shifted by LB and clamped below at zero.

  The number of rows n is a parameter: the same function describes a block of rows and the whole array, and a block of
  the whole array's result is the result of the blocks (the function acts row by row).
-/
import Idealize.ShloMosaic.PureOps.Ideal
import Idealize.ShloMosaic.PureOps.Ideal.Laws
import Idealize.ShloMosaic.Lib.ValueIdx

noncomputable section

namespace SageSpec

open Idealize.ShloMosaic Idealize.ShloMosaic.ValueIdx

/-- The divisor 128 and the variance shift, as the f32 words both programs carry. -/
abbrev c128 : EReal := Ideal.ofBits .f32 0x43000000#32
abbrev epsv : EReal := Ideal.ofBits .f32 0x3727C5AC#32
abbrev zerov : EReal := Ideal.ofBits .f32 0x00000000#32

/-- The activation of row `p` at channel `r` before normalisation. -/
def hrow {n : Nat} (S : (⟨2, ![n, 128]⟩ : Shape).Idx → EReal) (I : (⟨2, ![n, 1]⟩ : Shape).Idx → EReal)
    (X : (⟨2, ![n, 128]⟩ : Shape).Idx → EReal) (WL : (⟨2, ![128, 128]⟩ : Shape).Idx → EReal)
    (BL : (⟨2, ![1, 128]⟩ : Shape).Idx → EReal) (WR : (⟨2, ![128, 128]⟩ : Shape).Idx → EReal) (p : Fin n) (r : Fin 128) : EReal :=
  (∑ k : Fin 128, (S (ix2 p k) * I (ix2 p (0 : Fin 1))) * WL (ix2 k r)) + BL (ix2 (0 : Fin 1) r)
    + ∑ k : Fin 128, X (ix2 p k) * WR (ix2 k r)

/-- The mean of a row over its 128 channels. -/
def rowMean (h : Fin 128 → EReal) : EReal := Ideal.div (∑ r : Fin 128, h r) c128

/-- Layer normalisation of a row, scaled, shifted and clamped below at zero, at channel `q`. -/
def lnrelu (h : Fin 128 → EReal) (LW LB : (⟨2, ![1, 128]⟩ : Shape).Idx → EReal) (q : Fin 128) : EReal :=
  max (((h q - rowMean h)
        * Ideal.rsqrt (Ideal.div (∑ r : Fin 128, (h r - rowMean h) * (h r - rowMean h)) c128 + epsv))
        * LW (ix2 (0 : Fin 1) q) + LB (ix2 (0 : Fin 1) q)) zerov

/-- The layer on `n` rows. -/
def comb {n : Nat} (S : (⟨2, ![n, 128]⟩ : Shape).Idx → EReal) (I : (⟨2, ![n, 1]⟩ : Shape).Idx → EReal)
    (X : (⟨2, ![n, 128]⟩ : Shape).Idx → EReal) (WL : (⟨2, ![128, 128]⟩ : Shape).Idx → EReal)
    (BL : (⟨2, ![1, 128]⟩ : Shape).Idx → EReal) (WR : (⟨2, ![128, 128]⟩ : Shape).Idx → EReal)
    (LW LB : (⟨2, ![1, 128]⟩ : Shape).Idx → EReal) : (⟨2, ![n, 128]⟩ : Shape).Idx → EReal :=
  fun j => lnrelu (hrow S I X WL BL WR (j 0)) LW LB (j 1)

theorem comb_ix2 {n : Nat} (S : (⟨2, ![n, 128]⟩ : Shape).Idx → EReal) (I : (⟨2, ![n, 1]⟩ : Shape).Idx → EReal)
    (X : (⟨2, ![n, 128]⟩ : Shape).Idx → EReal) (WL : (⟨2, ![128, 128]⟩ : Shape).Idx → EReal)
    (BL : (⟨2, ![1, 128]⟩ : Shape).Idx → EReal) (WR : (⟨2, ![128, 128]⟩ : Shape).Idx → EReal)
    (LW LB : (⟨2, ![1, 128]⟩ : Shape).Idx → EReal) (p : Fin n) (q : Fin 128) :
    comb S I X WL BL WR LW LB (ix2 p q) = lnrelu (hrow S I X WL BL WR p) LW LB q := rfl

/-- Dividing by a nonzero extended real is multiplying by its reciprocal taken as `1 / y`: both are `x · y⁻¹`. -/
theorem div_eq_mul_one_div (x y : EReal) (hy : y ≠ 0) : Ideal.div x y = x * Ideal.div 1 y := by
  unfold Ideal.div
  rw [if_neg hy, if_neg hy, one_mul]

/-- A count clamped below at one is not zero. -/
theorem max_one_ne_zero (a : EReal) : max a (1 : EReal) ≠ 0 := by
  intro h
  have h1 : (1 : EReal) ≤ max a 1 := le_max_right a 1
  rw [h] at h1
  exact absurd h1 (by norm_num)

end SageSpec

end
-- ==== Proof.KernelHostDefs.lean ====
/-
  The host side of the idealized kernel's @main, as named functions of arrays: the rows of an edge list, the index
  normalisation, the neighbour count and its clamped reciprocal, the neighbour sum (a row gather feeding a scatter-add),
  the per-layer slices of the stacked parameters, and one whole layer `KL` (host aggregate, then the region's function
  `SageSpec.comb`). Each is spelt exactly as @main's operations print, so that what a host stretch leaves in a buffer is
  one of these functions of what it found.
-/
import proofs.«134971_j26482768347335_2_alg».proof.Proof.Gen.KernelIdeal.Frame
import proofs.«134971_j26482768347335_2_alg».proof.Proof.SageSpec
import Idealize.ShloMosaic.Lib.StableHlo.Run

set_option maxRecDepth 16384

noncomputable section

namespace Cert.KernelIdeal.Stages

open Cert.KernelIdeal Cert.KernelIdeal.Gen Idealize.ShloMosaic Idealize.ShloMosaic.TcCoe Idealize.ShloMosaic.StableHlo Idealize.SL.Sem

/-- A TensorCore reference as a device buffer. -/
abbrev dr (b : Ref sig .tc) : DevRef τ sig := Proc.devRef (τ := τ) .tc b

/-- Row 0 (sources) and row 1 (destinations) of an edge list. -/
def row0 (ei : IVec S2x600000 32) : IVec S600000 32 :=
  shapeCast S600000 (extractStridedSlice S1x600000 ![0, 0] ei slices_S2x600000_S1x600000_0_0) shapeCasts_S1x600000_S600000
def row1 (ei : IVec S2x600000 32) : IVec S600000 32 :=
  shapeCast S600000 (extractStridedSlice S1x600000 ![1, 0] ei slices_S2x600000_S1x600000_1_0) shapeCasts_S1x600000_S600000

/-- A negative index i read as i + 100000. -/
def norm (d : IVec S600000 32) : IVec S600000 32 :=
  select (cmpi .slt d (broadcastInDim S600000 ![] bcast_S_S600000 (constantI S_ 32 0#32)))
    (addi d (broadcastInDim S600000 ![] bcast_S_S600000 (constantI S_ 32 100000#32))) d

/-- An index vector as a column of one-entry index vectors. -/
def col (d : IVec S600000 32) : IVec S600000x1 32 := broadcastInDim S600000x1 ![0] bcast_S600000_S600000x1_0 d

/-- The number of edges arriving at each node, by destination index vector d. -/
def cnt (d : IVec S600000 32) : FVec Ideal S100000x1 .f32 :=
  Host.scatterAdd scatter_S100000x1_S600000x1_S600000x1_1_0_0_1
    (broadcastInDim S100000x1 ![] bcast_S_S100000x1 (constant S_ .f32 0x00000000#32)) (col d)
    (broadcastInDim S600000x1 ![] bcast_S_S600000x1 (constant S_ .f32 0x3F800000#32))

/-- The count clamped below at one. -/
def cmax (d : IVec S600000 32) : FVec Ideal S100000x1 .f32 :=
  maximumf (cnt d) (broadcastInDim S100000x1 ![] bcast_S_S100000x1 (constant S_ .f32 0x3F800000#32))

/-- The reciprocal of the clamped count. -/
def inv (d : IVec S600000 32) : FVec Ideal S100000x1 .f32 :=
  Host.divf (broadcastInDim S100000x1 ![] bcast_S_S100000x1 (constant S_ .f32 0x3F800000#32)) (cmax d)

/-- The sum, at each destination node, of the feature rows of x at the sources of the edges arriving there. -/
def agg (x : FVec Ideal S100000x128 .f32) (s d : IVec S600000 32) : FVec Ideal S100000x128 .f32 :=
  Host.scatterAdd scatter_S100000x128_S600000x1_S600000x128_1_0_0_1
    (broadcastInDim S100000x128 ![] bcast_S_S100000x128 (constant S_ .f32 0x00000000#32)) (col d)
    (Host.gather gather_S100000x128_S600000x1_S600000x128_1_0_n_n_0_1_1128 x (col (norm s)))

/-- Layer 0 and layer 1 of a stacked weight array and of a stacked vector array. -/
def wsl0 (W : FVec Ideal S2x128x128 .f32) : FVec Ideal S128x128 .f32 :=
  shapeCast S128x128 (extractStridedSlice S1x128x128 ![0, 0, 0] W slices_S2x128x128_S1x128x128_0_0_0) shapeCasts_S1x128x128_S128x128
def wsl1 (W : FVec Ideal S2x128x128 .f32) : FVec Ideal S128x128 .f32 :=
  shapeCast S128x128 (extractStridedSlice S1x128x128 ![1, 0, 0] W slices_S2x128x128_S1x128x128_1_0_0) shapeCasts_S1x128x128_S128x128
def vsl0 (b : FVec Ideal S2x128 .f32) : FVec Ideal S128 .f32 :=
  shapeCast S128 (extractStridedSlice S1x128 ![0, 0] b slices_S2x128_S1x128_0_0) shapeCasts_S1x128_S128
def vsl1 (b : FVec Ideal S2x128 .f32) : FVec Ideal S128 .f32 :=
  shapeCast S128 (extractStridedSlice S1x128 ![1, 0] b slices_S2x128_S1x128_1_0) shapeCasts_S1x128_S128

/-- A weight matrix transposed; a vector laid out as a row. -/
def tr (W : FVec Ideal S128x128 .f32) : FVec Ideal S128x128 .f32 := transpose S128x128 [1, 0] W transposes_S128x128_S128x128_1_0
def rowv (b : FVec Ideal S128 .f32) : FVec Ideal S1x128 .f32 := shapeCast S1x128 b shapeCasts_S128_S1x128

/-- One layer as the kernel computes it: the aggregate and the reciprocal count from the host, the rest in the region. The
    destination indices enter normalised. -/
def KL (xs xd : FVec Ideal S100000x128 .f32) (ei : IVec S2x600000 32) (W Wr : FVec Ideal S128x128 .f32) (b lw lb : FVec Ideal S128 .f32) :
    FVec Ideal S100000x128 .f32 :=
  SageSpec.comb (n := 100000) (agg xs (row0 ei) (norm (row1 ei))) (inv (norm (row1 ei))) xd (tr W) (rowv b) (tr Wr) (rowv lw) (rowv lb)

end Cert.KernelIdeal.Stages

end
-- ==== Proof.StageH0a.lean ====
/-
  What the first stretch of host operations of the idealized kernel's @main leaves in the buffers that matter
  later (the operands of the first two regions and the rows of the two edge lists), as functions of what the stretch found: each operation writes its own result buffer and leaves every other
  buffer as it was.
-/
import proofs.«134971_j26482768347335_2_alg».proof.Proof.KernelHostDefs
import Idealize.ShloMosaic.Lib.StableHlo.Run

set_option maxRecDepth 16384

noncomputable section

namespace Cert.KernelIdeal.Stages

open Cert.KernelIdeal Cert.KernelIdeal.Gen Idealize.ShloMosaic Idealize.ShloMosaic.TcCoe Idealize.ShloMosaic.StableHlo Idealize.SL.Sem
theorem h0_v48 (V : Valuation τ sig (Elt Ideal)) :
    after (hostOps0 (F := Ideal)) V (dr main_v48) = agg (V (dr main_arg0)) (row0 (V (dr main_arg12))) (norm (row1 (V (dr main_arg12)))) := by
  after_results_simp
  rfl

theorem h0_v29 (V : Valuation τ sig (Elt Ideal)) :
    after (hostOps0 (F := Ideal)) V (dr main_v29) = inv (norm (row1 (V (dr main_arg12)))) := by
  after_results_simp
  rfl

theorem h0_v74 (V : Valuation τ sig (Elt Ideal)) :
    after (hostOps0 (F := Ideal)) V (dr main_v74) = tr (wsl0 (V (dr main_arg2))) := by
  after_results_simp
  rfl

theorem h0_v76 (V : Valuation τ sig (Elt Ideal)) :
    after (hostOps0 (F := Ideal)) V (dr main_v76) = rowv (vsl0 (V (dr main_arg3))) := by
  after_results_simp
  rfl

theorem h0_v75 (V : Valuation τ sig (Elt Ideal)) :
    after (hostOps0 (F := Ideal)) V (dr main_v75) = tr (wsl0 (V (dr main_arg4))) := by
  after_results_simp
  rfl

theorem h0_v77 (V : Valuation τ sig (Elt Ideal)) :
    after (hostOps0 (F := Ideal)) V (dr main_v77) = rowv (vsl0 (V (dr main_arg10))) := by
  after_results_simp
  rfl

theorem h0_v78 (V : Valuation τ sig (Elt Ideal)) :
    after (hostOps0 (F := Ideal)) V (dr main_v78) = rowv (vsl0 (V (dr main_arg11))) := by
  after_results_simp
  rfl

theorem h0_v63 (V : Valuation τ sig (Elt Ideal)) :
    after (hostOps0 (F := Ideal)) V (dr main_v63) = agg (V (dr main_arg1)) (row0 (V (dr main_arg13))) (norm (row1 (V (dr main_arg13)))) := by
  after_results_simp
  rfl

theorem h0_v33 (V : Valuation τ sig (Elt Ideal)) :
    after (hostOps0 (F := Ideal)) V (dr main_v33) = inv (norm (row1 (V (dr main_arg13)))) := by
  after_results_simp
  rfl

theorem h0_v1 (V : Valuation τ sig (Elt Ideal)) :
    after (hostOps0 (F := Ideal)) V (dr main_v1) = row0 (V (dr main_arg12)) := by
  after_results_simp
  rfl

theorem h0_v3 (V : Valuation τ sig (Elt Ideal)) :
    after (hostOps0 (F := Ideal)) V (dr main_v3) = row1 (V (dr main_arg12)) := by
  after_results_simp
  rfl

theorem h0_v5 (V : Valuation τ sig (Elt Ideal)) :
    after (hostOps0 (F := Ideal)) V (dr main_v5) = row0 (V (dr main_arg13)) := by
  after_results_simp
  rfl

theorem h0_v7 (V : Valuation τ sig (Elt Ideal)) :
    after (hostOps0 (F := Ideal)) V (dr main_v7) = row1 (V (dr main_arg13)) := by
  after_results_simp
  rfl

end Cert.KernelIdeal.Stages

end
-- ==== Proof.StageH0b.lean ====
/-
  What the first stretch of host operations of the idealized kernel's @main leaves in the buffers that matter
  later (the argument arrays, which no operation writes), as functions of what the stretch found: each operation writes its own result buffer and leaves every other
  buffer as it was.
-/
import proofs.«134971_j26482768347335_2_alg».proof.Proof.KernelHostDefs
import Idealize.ShloMosaic.Lib.StableHlo.Run

set_option maxRecDepth 16384

noncomputable section

namespace Cert.KernelIdeal.Stages

open Cert.KernelIdeal Cert.KernelIdeal.Gen Idealize.ShloMosaic Idealize.ShloMosaic.TcCoe Idealize.ShloMosaic.StableHlo Idealize.SL.Sem
theorem h0_arg0 (V : Valuation τ sig (Elt Ideal)) :
    after (hostOps0 (F := Ideal)) V (dr main_arg0) = V (dr main_arg0) := by
  after_results_simp

theorem h0_arg1 (V : Valuation τ sig (Elt Ideal)) :
    after (hostOps0 (F := Ideal)) V (dr main_arg1) = V (dr main_arg1) := by
  after_results_simp

theorem h0_arg2 (V : Valuation τ sig (Elt Ideal)) :
    after (hostOps0 (F := Ideal)) V (dr main_arg2) = V (dr main_arg2) := by
  after_results_simp

theorem h0_arg3 (V : Valuation τ sig (Elt Ideal)) :
    after (hostOps0 (F := Ideal)) V (dr main_arg3) = V (dr main_arg3) := by
  after_results_simp

theorem h0_arg4 (V : Valuation τ sig (Elt Ideal)) :
    after (hostOps0 (F := Ideal)) V (dr main_arg4) = V (dr main_arg4) := by
  after_results_simp

theorem h0_arg5 (V : Valuation τ sig (Elt Ideal)) :
    after (hostOps0 (F := Ideal)) V (dr main_arg5) = V (dr main_arg5) := by
  after_results_simp

theorem h0_arg6 (V : Valuation τ sig (Elt Ideal)) :
    after (hostOps0 (F := Ideal)) V (dr main_arg6) = V (dr main_arg6) := by
  after_results_simp

theorem h0_arg7 (V : Valuation τ sig (Elt Ideal)) :
    after (hostOps0 (F := Ideal)) V (dr main_arg7) = V (dr main_arg7) := by
  after_results_simp

theorem h0_arg8 (V : Valuation τ sig (Elt Ideal)) :
    after (hostOps0 (F := Ideal)) V (dr main_arg8) = V (dr main_arg8) := by
  after_results_simp

theorem h0_arg9 (V : Valuation τ sig (Elt Ideal)) :
    after (hostOps0 (F := Ideal)) V (dr main_arg9) = V (dr main_arg9) := by
  after_results_simp

theorem h0_arg10 (V : Valuation τ sig (Elt Ideal)) :
    after (hostOps0 (F := Ideal)) V (dr main_arg10) = V (dr main_arg10) := by
  after_results_simp

theorem h0_arg11 (V : Valuation τ sig (Elt Ideal)) :
    after (hostOps0 (F := Ideal)) V (dr main_arg11) = V (dr main_arg11) := by
  after_results_simp

end Cert.KernelIdeal.Stages

end
-- ==== Proof.StageH1.lean ====
/-
  What the second stretch of host operations of the idealized kernel's @main leaves in the buffers that matter
  later (the operands of the next region and what is carried across), as functions of what the stretch found: each operation writes its own result buffer and leaves every other
  buffer as it was.
-/
import proofs.«134971_j26482768347335_2_alg».proof.Proof.KernelHostDefs
import Idealize.ShloMosaic.Lib.StableHlo.Run

set_option maxRecDepth 16384

noncomputable section

namespace Cert.KernelIdeal.Stages

open Cert.KernelIdeal Cert.KernelIdeal.Gen Idealize.ShloMosaic Idealize.ShloMosaic.TcCoe Idealize.ShloMosaic.StableHlo Idealize.SL.Sem
theorem h1_v90 (V : Valuation τ sig (Elt Ideal)) :
    after (hostOps1 (F := Ideal)) V (dr main_v90) = tr (wsl0 (V (dr main_arg5))) := by
  after_results_simp
  rfl

theorem h1_v92 (V : Valuation τ sig (Elt Ideal)) :
    after (hostOps1 (F := Ideal)) V (dr main_v92) = rowv (vsl0 (V (dr main_arg6))) := by
  after_results_simp
  rfl

theorem h1_v91 (V : Valuation τ sig (Elt Ideal)) :
    after (hostOps1 (F := Ideal)) V (dr main_v91) = tr (wsl0 (V (dr main_arg7))) := by
  after_results_simp
  rfl

theorem h1_v93 (V : Valuation τ sig (Elt Ideal)) :
    after (hostOps1 (F := Ideal)) V (dr main_v93) = rowv (vsl0 (V (dr main_arg8))) := by
  after_results_simp
  rfl

theorem h1_v94 (V : Valuation τ sig (Elt Ideal)) :
    after (hostOps1 (F := Ideal)) V (dr main_v94) = rowv (vsl0 (V (dr main_arg9))) := by
  after_results_simp
  rfl

theorem h1_v63 (V : Valuation τ sig (Elt Ideal)) :
    after (hostOps1 (F := Ideal)) V (dr main_v63) = V (dr main_v63) := by
  after_results_simp

theorem h1_v33 (V : Valuation τ sig (Elt Ideal)) :
    after (hostOps1 (F := Ideal)) V (dr main_v33) = V (dr main_v33) := by
  after_results_simp

theorem h1_arg0 (V : Valuation τ sig (Elt Ideal)) :
    after (hostOps1 (F := Ideal)) V (dr main_arg0) = V (dr main_arg0) := by
  after_results_simp

theorem h1_v79 (V : Valuation τ sig (Elt Ideal)) :
    after (hostOps1 (F := Ideal)) V (dr main_v79) = V (dr main_v79) := by
  after_results_simp

theorem h1_v29 (V : Valuation τ sig (Elt Ideal)) :
    after (hostOps1 (F := Ideal)) V (dr main_v29) = V (dr main_v29) := by
  after_results_simp

theorem h1_v1 (V : Valuation τ sig (Elt Ideal)) :
    after (hostOps1 (F := Ideal)) V (dr main_v1) = V (dr main_v1) := by
  after_results_simp

theorem h1_v3 (V : Valuation τ sig (Elt Ideal)) :
    after (hostOps1 (F := Ideal)) V (dr main_v3) = V (dr main_v3) := by
  after_results_simp

theorem h1_v5 (V : Valuation τ sig (Elt Ideal)) :
    after (hostOps1 (F := Ideal)) V (dr main_v5) = V (dr main_v5) := by
  after_results_simp

theorem h1_v7 (V : Valuation τ sig (Elt Ideal)) :
    after (hostOps1 (F := Ideal)) V (dr main_v7) = V (dr main_v7) := by
  after_results_simp

theorem h1_arg2 (V : Valuation τ sig (Elt Ideal)) :
    after (hostOps1 (F := Ideal)) V (dr main_arg2) = V (dr main_arg2) := by
  after_results_simp

theorem h1_arg3 (V : Valuation τ sig (Elt Ideal)) :
    after (hostOps1 (F := Ideal)) V (dr main_arg3) = V (dr main_arg3) := by
  after_results_simp

theorem h1_arg4 (V : Valuation τ sig (Elt Ideal)) :
    after (hostOps1 (F := Ideal)) V (dr main_arg4) = V (dr main_arg4) := by
  after_results_simp

theorem h1_arg10 (V : Valuation τ sig (Elt Ideal)) :
    after (hostOps1 (F := Ideal)) V (dr main_arg10) = V (dr main_arg10) := by
  after_results_simp

theorem h1_arg11 (V : Valuation τ sig (Elt Ideal)) :
    after (hostOps1 (F := Ideal)) V (dr main_arg11) = V (dr main_arg11) := by
  after_results_simp

theorem h1_arg5 (V : Valuation τ sig (Elt Ideal)) :
    after (hostOps1 (F := Ideal)) V (dr main_arg5) = V (dr main_arg5) := by
  after_results_simp

theorem h1_arg6 (V : Valuation τ sig (Elt Ideal)) :
    after (hostOps1 (F := Ideal)) V (dr main_arg6) = V (dr main_arg6) := by
  after_results_simp

theorem h1_arg7 (V : Valuation τ sig (Elt Ideal)) :
    after (hostOps1 (F := Ideal)) V (dr main_arg7) = V (dr main_arg7) := by
  after_results_simp

theorem h1_arg8 (V : Valuation τ sig (Elt Ideal)) :
    after (hostOps1 (F := Ideal)) V (dr main_arg8) = V (dr main_arg8) := by
  after_results_simp

theorem h1_arg9 (V : Valuation τ sig (Elt Ideal)) :
    after (hostOps1 (F := Ideal)) V (dr main_arg9) = V (dr main_arg9) := by
  after_results_simp

end Cert.KernelIdeal.Stages

end
-- ==== Proof.StageH2.lean ====
/-
  What the third stretch of host operations of the idealized kernel's @main leaves in the buffers that matter
  later (the operands of the next region and what is carried across), as functions of what the stretch found: each operation writes its own result buffer and leaves every other
  buffer as it was.
-/
import proofs.«134971_j26482768347335_2_alg».proof.Proof.KernelHostDefs
import Idealize.ShloMosaic.Lib.StableHlo.Run

set_option maxRecDepth 16384

noncomputable section

namespace Cert.KernelIdeal.Stages

open Cert.KernelIdeal Cert.KernelIdeal.Gen Idealize.ShloMosaic Idealize.ShloMosaic.TcCoe Idealize.ShloMosaic.StableHlo Idealize.SL.Sem
theorem h2_v110 (V : Valuation τ sig (Elt Ideal)) :
    after (hostOps2 (F := Ideal)) V (dr main_v110) = agg (V (dr main_v95)) (V (dr main_v1)) (norm (V (dr main_v3))) := by
  after_results_simp
  rfl

theorem h2_v125 (V : Valuation τ sig (Elt Ideal)) :
    after (hostOps2 (F := Ideal)) V (dr main_v125) = agg (V (dr main_v79)) (V (dr main_v5)) (norm (V (dr main_v7))) := by
  after_results_simp
  rfl

theorem h2_v136 (V : Valuation τ sig (Elt Ideal)) :
    after (hostOps2 (F := Ideal)) V (dr main_v136) = tr (wsl1 (V (dr main_arg2))) := by
  after_results_simp
  rfl

theorem h2_v138 (V : Valuation τ sig (Elt Ideal)) :
    after (hostOps2 (F := Ideal)) V (dr main_v138) = rowv (vsl1 (V (dr main_arg3))) := by
  after_results_simp
  rfl

theorem h2_v137 (V : Valuation τ sig (Elt Ideal)) :
    after (hostOps2 (F := Ideal)) V (dr main_v137) = tr (wsl1 (V (dr main_arg4))) := by
  after_results_simp
  rfl

theorem h2_v139 (V : Valuation τ sig (Elt Ideal)) :
    after (hostOps2 (F := Ideal)) V (dr main_v139) = rowv (vsl1 (V (dr main_arg10))) := by
  after_results_simp
  rfl

theorem h2_v140 (V : Valuation τ sig (Elt Ideal)) :
    after (hostOps2 (F := Ideal)) V (dr main_v140) = rowv (vsl1 (V (dr main_arg11))) := by
  after_results_simp
  rfl

theorem h2_v29 (V : Valuation τ sig (Elt Ideal)) :
    after (hostOps2 (F := Ideal)) V (dr main_v29) = V (dr main_v29) := by
  after_results_simp

theorem h2_v79 (V : Valuation τ sig (Elt Ideal)) :
    after (hostOps2 (F := Ideal)) V (dr main_v79) = V (dr main_v79) := by
  after_results_simp

theorem h2_v33 (V : Valuation τ sig (Elt Ideal)) :
    after (hostOps2 (F := Ideal)) V (dr main_v33) = V (dr main_v33) := by
  after_results_simp

theorem h2_v95 (V : Valuation τ sig (Elt Ideal)) :
    after (hostOps2 (F := Ideal)) V (dr main_v95) = V (dr main_v95) := by
  after_results_simp

theorem h2_arg5 (V : Valuation τ sig (Elt Ideal)) :
    after (hostOps2 (F := Ideal)) V (dr main_arg5) = V (dr main_arg5) := by
  after_results_simp

theorem h2_arg6 (V : Valuation τ sig (Elt Ideal)) :
    after (hostOps2 (F := Ideal)) V (dr main_arg6) = V (dr main_arg6) := by
  after_results_simp

theorem h2_arg7 (V : Valuation τ sig (Elt Ideal)) :
    after (hostOps2 (F := Ideal)) V (dr main_arg7) = V (dr main_arg7) := by
  after_results_simp

theorem h2_arg8 (V : Valuation τ sig (Elt Ideal)) :
    after (hostOps2 (F := Ideal)) V (dr main_arg8) = V (dr main_arg8) := by
  after_results_simp

theorem h2_arg9 (V : Valuation τ sig (Elt Ideal)) :
    after (hostOps2 (F := Ideal)) V (dr main_arg9) = V (dr main_arg9) := by
  after_results_simp

end Cert.KernelIdeal.Stages

end
-- ==== Proof.StageH3.lean ====
/-
  What the fourth stretch of host operations of the idealized kernel's @main leaves in the buffers that matter
  later (the operands of the next region and what is carried across), as functions of what the stretch found: each operation writes its own result buffer and leaves every other
  buffer as it was.
-/
import proofs.«134971_j26482768347335_2_alg».proof.Proof.KernelHostDefs
import Idealize.ShloMosaic.Lib.StableHlo.Run

set_option maxRecDepth 16384

noncomputable section

namespace Cert.KernelIdeal.Stages

open Cert.KernelIdeal Cert.KernelIdeal.Gen Idealize.ShloMosaic Idealize.ShloMosaic.TcCoe Idealize.ShloMosaic.StableHlo Idealize.SL.Sem
theorem h3_v152 (V : Valuation τ sig (Elt Ideal)) :
    after (hostOps3 (F := Ideal)) V (dr main_v152) = tr (wsl1 (V (dr main_arg5))) := by
  after_results_simp
  rfl

theorem h3_v154 (V : Valuation τ sig (Elt Ideal)) :
    after (hostOps3 (F := Ideal)) V (dr main_v154) = rowv (vsl1 (V (dr main_arg6))) := by
  after_results_simp
  rfl

theorem h3_v153 (V : Valuation τ sig (Elt Ideal)) :
    after (hostOps3 (F := Ideal)) V (dr main_v153) = tr (wsl1 (V (dr main_arg7))) := by
  after_results_simp
  rfl

theorem h3_v155 (V : Valuation τ sig (Elt Ideal)) :
    after (hostOps3 (F := Ideal)) V (dr main_v155) = rowv (vsl1 (V (dr main_arg8))) := by
  after_results_simp
  rfl

theorem h3_v156 (V : Valuation τ sig (Elt Ideal)) :
    after (hostOps3 (F := Ideal)) V (dr main_v156) = rowv (vsl1 (V (dr main_arg9))) := by
  after_results_simp
  rfl

theorem h3_v125 (V : Valuation τ sig (Elt Ideal)) :
    after (hostOps3 (F := Ideal)) V (dr main_v125) = V (dr main_v125) := by
  after_results_simp

theorem h3_v33 (V : Valuation τ sig (Elt Ideal)) :
    after (hostOps3 (F := Ideal)) V (dr main_v33) = V (dr main_v33) := by
  after_results_simp

theorem h3_v95 (V : Valuation τ sig (Elt Ideal)) :
    after (hostOps3 (F := Ideal)) V (dr main_v95) = V (dr main_v95) := by
  after_results_simp

theorem h3_v141 (V : Valuation τ sig (Elt Ideal)) :
    after (hostOps3 (F := Ideal)) V (dr main_v141) = V (dr main_v141) := by
  after_results_simp

end Cert.KernelIdeal.Stages

end
-- ==== Proof.LibPlainDot.lean ====
/-
  A plain matrix product's dimension numbers — the left operand's axis 1 contracted with the right operand's axis 0, no batch
  axis — read at an index. For such a record the left operand is read at (row, k) and the right at (k, column), so at the
  extended reals a product into the zero accumulator is the sum over k of x(row, k) · w(k, column), in any order and grouping
  (addition of extended reals is commutative and associative). Nothing here depends on a program: the record's four
  coordinate facts are hypotheses, which each use site proves from its own record by unfolding.
-/
import Idealize.ShloMosaic.Lib.ValueIdx
import Idealize.ShloMosaic.PureOps.Ideal.Laws

noncomputable section

namespace PlainDot

open Idealize.ShloMosaic Idealize.ShloMosaic.ValueIdx

/-- The dimension numbers `D` are those of a plain [M, K] × [K, N] product: one contracted axis of extent K; the left
    operand read at (row of the result, contraction position) and the right at (contraction position, column). -/
structure IsPlain {M K N : Nat} (D : DotDims ⟨2, ![M, K]⟩ ⟨2, ![K, N]⟩ ⟨2, ![M, N]⟩) : Prop where
  rank : D.contr.rank = 1
  size : D.contr.size ⟨0, by omega⟩ = K
  lhs0 : ∀ (i : (⟨2, ![M, N]⟩ : Shape).Idx) (q : D.contr.Idx), (D.lhsIdx i q 0).val = (i 0).val
  lhs1 : ∀ (i : (⟨2, ![M, N]⟩ : Shape).Idx) (q : D.contr.Idx), (D.lhsIdx i q 1).val = (q ⟨0, by omega⟩).val
  rhs0 : ∀ (i : (⟨2, ![M, N]⟩ : Shape).Idx) (q : D.contr.Idx), (D.rhsIdx i q 0).val = (q ⟨0, by omega⟩).val
  rhs1 : ∀ (i : (⟨2, ![M, N]⟩ : Shape).Idx) (q : D.contr.Idx), (D.rhsIdx i q 1).val = (i 1).val

variable {M K N : Nat} {φ₁ φ₂ : FTy}

/-- The two operand indices at result index (r, j) and contraction position k. -/
theorem IsPlain.lhsIdx_eq {D : DotDims ⟨2, ![M, K]⟩ ⟨2, ![K, N]⟩ ⟨2, ![M, N]⟩} (h : IsPlain D) (r : Fin M) (j : Fin N) (k : Fin K) :
    D.lhsIdx (ix2 r j) ((contrEquiv1 D K h.rank h.size).symm k) = ix2 r k :=
  funext fun a => Fin.ext (by
    match a with
    | ⟨0, _⟩ => exact h.lhs0 _ _
    | ⟨1, _⟩ => exact (h.lhs1 _ _).trans (contrEquiv1_symm_val D K h.rank h.size k))

theorem IsPlain.rhsIdx_eq {D : DotDims ⟨2, ![M, K]⟩ ⟨2, ![K, N]⟩ ⟨2, ![M, N]⟩} (h : IsPlain D) (r : Fin M) (j : Fin N) (k : Fin K) :
    D.rhsIdx (ix2 r j) ((contrEquiv1 D K h.rank h.size).symm k) = ix2 k j :=
  funext fun a => Fin.ext (by
    match a with
    | ⟨0, _⟩ => exact (h.rhs0 _ _).trans (contrEquiv1_symm_val D K h.rank h.size k)
    | ⟨1, _⟩ => exact h.rhs1 _ _)

/-- A matrix product into the zero accumulator, at the extended reals, read at (r, j): the sum over the contracted
    axis of x(r, k) · w(k, j). -/
theorem matmul_zero_apply (D : DotDims ⟨2, ![M, K]⟩ ⟨2, ![K, N]⟩ ⟨2, ![M, N]⟩) (h : IsPlain D) (prec : Option ContractPrecision)
    (x : FVec Ideal ⟨2, ![M, K]⟩ φ₁) (w : FVec Ideal ⟨2, ![K, N]⟩ φ₂) (r : Fin M) (j : Fin N) :
    FloatOps.matmul D prec x w (constant (F := Ideal) ⟨2, ![M, N]⟩ .f32 0x00000000#32) (ix2 r j)
      = ∑ k : Fin K, x (ix2 r k) * w (ix2 k j) := by
  rw [Ideal.matmul_constant_zero_apply, ← Equiv.sum_comp (contrEquiv1 D K h.rank h.size).symm]
  refine Finset.sum_congr rfl fun k _ => ?_
  rw [h.lhsIdx_eq r j k, h.rhsIdx_eq r j k]

end PlainDot

end
-- ==== Proof.LibKeepdims.lean ====
/-
  Layout facts for a sum taken along the last axis with the axis kept: a vector of `a` entries recast as a column
  `[a, 1]`, a column spread across `b` lanes, and a one-entry vector spread down a column. Each says which entry of the
  operand an entry of the result reads. General over the extents.
-/
import Idealize.ShloMosaic.Lib.Pipeline.Value
import Idealize.ShloMosaic.Lib.ValueIdx
import Idealize.ShloMosaic.Lib.ValueLayout

namespace Idealize.ShloMosaic.Keepdims

open Idealize.ShloMosaic Idealize.ShloMosaic.ValueIdx

variable {α : Type}

/-- A vector `[a]` recast as a column `[a, 1]` reads, at `(i, 0)`, entry `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` spread across `b` lanes reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector `[b]` recast as a row and spread down `a` rows reads, at `(p, c)`, entry `c`. -/
theorem broadcastTo_row_of_vec_apply {a b : ℕ} (x : (⟨1, ![b]⟩ : Shape).Idx → α) (hc : (⟨1, ![b]⟩ : Shape).ShapeCasts ⟨2, ![1, b]⟩)
    (h : (⟨2, ![1, b]⟩ : Shape).Broadcasts ⟨2, ![a, b]⟩) (p : Fin a) (c : Fin b) :
    broadcastTo ⟨2, ![a, b]⟩ (shapeCast ⟨2, ![1, b]⟩ x hc) h (ix2 p c) = x (ix1 c) :=
  (broadcastTo_1b_ab_apply _ h p c).trans (shapeCast_a_1a_apply x hc 0 c)

end Idealize.ShloMosaic.Keepdims
-- ==== Proof.RegionValue0.lean ====
/-
  Region 0 of the network: one layer (see the specification module) applied to one node type's arrays.

  The region works on blocks of 10000 consecutive rows. At a point of its grid it reads block t of the summed-neighbour array,
  of the reciprocal-count column and of the node's own features, reads the two weight matrices, the bias and the two
  normalisation vectors whole, and writes block t of the result. A row of the result depends only on the same row of the
  three row-blocked operands, so the block a point writes is the block of the layer applied to the whole arrays, and the ten
  blocks tile the 100000 rows: the result array ends holding the layer of the arrays the region found.
-/
import proofs.«134971_j26482768347335_2_alg».proof.Proof.Gen.KernelIdeal.Frame
import proofs.«134971_j26482768347335_2_alg».proof.Proof.SageSpec
import proofs.«134971_j26482768347335_2_alg».proof.Proof.LibPlainDot
import proofs.«134971_j26482768347335_2_alg».proof.Proof.LibKeepdims
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.ShloMosaic.ValueIdx Idealize.SL.Sem
open Idealize.ShloMosaic.Pipeline (Dat)

namespace Cert.KernelIdeal.RegionValue

open Cert.KernelIdeal Cert.KernelIdeal.Gen

namespace R0

/-! ## The body's arithmetic at an index -/

theorem hz : (![0, 0] : Fin 2 → Nat) = fun _ => 0 := funext fun a => by fin_cases a <;> rfl

/-- The body's two matrix products are plain ones: the left operand's lane axis against the right operand's row axis. -/
theorem plain : PlainDot.IsPlain (M := 10000) (K := 128) (N := 128) dot_S10000x128_S128x128_S10000x128_1_0_0_1_n_n where
  rank := rfl
  size := rfl
  lhs0 := fun i q => by
    unfold DotDims.lhsIdx
    rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
    rfl
  lhs1 := fun i q => dot_S10000x128_S128x128_S10000x128_1_0_0_1_n_n.lhsIdx_val_of_single rfl i q
  rhs0 := fun i q => dot_S10000x128_S128x128_S10000x128_1_0_0_1_n_n.rhsIdx_val_of_single rfl i q
  rhs1 := fun i q => by
    unfold DotDims.rhsIdx
    rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
    rfl

/-- A sum along the 128 lanes with the axis kept, read at row p: the sum over the lanes of row p. -/
theorem rowSum_apply (v : FVec Ideal S10000x128 .f32) (hφ : FKind.Formats .f32) (hacc : (0x00000000#32 : BitVec 32) = 0x00000000#32)
    (p : Fin 10000) (u : Fin 1) :
    shapeCast S10000x1 (multiReduction (F := Ideal) .add [1] S10000 v 0x00000000#32 reduces_S10000x128_S10000 hφ hacc) shapeCasts_S10000_S10000x1 (ix2 p u)
      = ∑ r : Fin 128, v (ix2 p r) := by
  refine (Keepdims.shapeCast_a_a1_apply _ shapeCasts_S10000_S10000x1 p u).trans ?_
  refine (Ideal.multiReduction_add_single v 0x00000000#32 reduces_S10000x128_S10000 hφ hacc (ix1 p)).trans ?_
  refine Finset.sum_congr rfl fun r _ => congrArg v ?_
  funext a
  apply Fin.ext
  match a with
  | ⟨0, _⟩ => rfl
  | ⟨1, _⟩ => rfl

/-- The activation before normalisation, as the body forms it from its loaded blocks. -/
def pre (x0 : Vec Ideal S10000x128 .f32) (x1 : Vec Ideal S10000x1 .f32) (x2 : Vec Ideal S10000x128 .f32) (x3 : Vec Ideal S128x128 .f32)
    (x4 : Vec Ideal S1x128 .f32) (x5 : Vec Ideal S128x128 .f32) : FVec Ideal S10000x128 .f32 :=
  have v1 : FVec Ideal S10000x128 .f32 := shapeCast S10000x128 x0 shapeCasts_S10000x128_S10000x128
  have v3 : FVec Ideal S10000x1 .f32 := shapeCast S10000x1 x1 shapeCasts_S10000x1_S10000x1
  have v5 : FVec Ideal S10000x128 .f32 := broadcastTo S10000x128 v3 broadcasts_S10000x1_S10000x128
  have v6 : FVec Ideal S10000x128 .f32 := mulf v1 v5
  have v8 : FVec Ideal S128x128 .f32 := shapeCast S128x128 x3 shapeCasts_S128x128_S128x128
  have cst : FVec Ideal S10000x128 .f32 := constant (F := Ideal) S10000x128 .f32 0x00000000#32
  have v9 : FVec Ideal S10000x128 .f32 := FloatOps.matmul (F := Ideal) dot_S10000x128_S128x128_S10000x128_1_0_0_1_n_n (some .fp32) v6 v8 cst
  have v11 : FVec Ideal S1x128 .f32 := shapeCast S1x128 x4 shapeCasts_S1x128_S1x128
  have v12 : FVec Ideal S10000x128 .f32 := broadcastTo S10000x128 v11 broadcasts_S1x128_S10000x128
  have v13 : FVec Ideal S10000x128 .f32 := addf v9 v12
  have v15 : FVec Ideal S128x128 .f32 := shapeCast S128x128 x5 shapeCasts_S128x128_S128x128
  have v4 : FVec Ideal S10000x128 .f32 := x2
  have v16 : FVec Ideal S10000x128 .f32 := FloatOps.matmul (F := Ideal) dot_S10000x128_S128x128_S10000x128_1_0_0_1_n_n (some .fp32) v4 v15 cst
  addf v13 v16

/-- At row p and channel r it is the specification's activation: the neighbour sum scaled by the reciprocal count, times the
    left weights, plus the bias, plus the own features times the right weights. -/
theorem pre_apply (x0 : Vec Ideal S10000x128 .f32) (x1 : Vec Ideal S10000x1 .f32) (x2 : Vec Ideal S10000x128 .f32) (x3 : Vec Ideal S128x128 .f32)
    (x4 : Vec Ideal S1x128 .f32) (x5 : Vec Ideal S128x128 .f32) (p : Fin 10000) (r : Fin 128) :
    pre x0 x1 x2 x3 x4 x5 (ix2 p r) = SageSpec.hrow x0 x1 x2 x3 x4 x5 p r := by
  unfold pre SageSpec.hrow
  simp only [shapeCast_self]
  rw [addf_apply, addf_apply, PlainDot.matmul_zero_apply _ plain, PlainDot.matmul_zero_apply _ plain, broadcastTo_1b_ab_apply]
  simp only [mulf_apply, Keepdims.broadcastTo_a1_ab_apply]

/-- The column of row means of an activation array, as the body forms it: the sum along the lanes, the axis kept, over 128. -/
def meanCol (g : FVec Ideal S10000x128 .f32) : FVec Ideal S10000x1 .f32 :=
  divf (shapeCast S10000x1 (multiReduction (F := Ideal) .add [1] S10000 g 0x00000000#32 reduces_S10000x128_S10000 (.inl rfl) rfl) shapeCasts_S10000_S10000x1)
    (broadcast S10000x1 (Scalar.ofBits .f32 0x43000000#32))

/-- An activation array with each row's mean subtracted. -/
def centred (h : FVec Ideal S10000x128 .f32) : FVec Ideal S10000x128 .f32 :=
  subf h (broadcastTo S10000x128 (meanCol h) broadcasts_S10000x1_S10000x128)

/-- The normalisation of the rows of an activation array, as the body forms it: subtract the row's mean, multiply by the
    reciprocal square root of the row's shifted variance (the mean of the squares of the centred row, plus the shift). -/
def normOf (h : FVec Ideal S10000x128 .f32) : FVec Ideal S10000x128 .f32 :=
  mulf (centred h)
    (broadcastTo S10000x128
      (rsqrt (addf (meanCol (mulf (centred h) (centred h))) (broadcast S10000x1 (Scalar.ofBits .f32 0x3727C5AC#32))))
      broadcasts_S10000x1_S10000x128)

/-- The body's normalised activation is that normalisation of the activation. -/
theorem pay2_eq (x0 : Vec Ideal S10000x128 .f32) (x1 : Vec Ideal S10000x1 .f32) (x2 : Vec Ideal S10000x128 .f32) (x3 : Vec Ideal S128x128 .f32)
    (x4 : Vec Ideal S1x128 .f32) (x5 : Vec Ideal S128x128 .f32) :
    k0_pay2 (F := Ideal) x0 x1 x2 x3 x4 x5 = normOf (pre x0 x1 x2 x3 x4 x5) := rfl

theorem rsqrt_apply {s : Shape} (x : FVec Ideal s .f32) (i : s.Idx) : rsqrt x i = Ideal.rsqrt (x i) := rfl

/-- The mean column at row p is the mean of row p. -/
theorem meanCol_apply (g : FVec Ideal S10000x128 .f32) (p : Fin 10000) (u : Fin 1) :
    meanCol g (ix2 p u) = SageSpec.rowMean (fun r => g (ix2 p r)) := by
  unfold meanCol
  show Ideal.div _ (Ideal.ofBits .f32 0x43000000#32) = _
  rw [rowSum_apply]
  rfl

/-- The centred array at row p and channel q. -/
theorem centred_apply (h : FVec Ideal S10000x128 .f32) (p : Fin 10000) (q : Fin 128) :
    centred h (ix2 p q) = h (ix2 p q) - SageSpec.rowMean (fun r => h (ix2 p r)) := by
  unfold centred
  rw [subf_apply, Keepdims.broadcastTo_a1_ab_apply, meanCol_apply]

/-- The normalisation at row p and channel q, in terms of row p alone. -/
theorem normOf_apply (h : FVec Ideal S10000x128 .f32) (p : Fin 10000) (q : Fin 128) :
    normOf h (ix2 p q) = (h (ix2 p q) - SageSpec.rowMean (fun r => h (ix2 p r)))
      * Ideal.rsqrt (Ideal.div (∑ r : Fin 128, (h (ix2 p r) - SageSpec.rowMean (fun r => h (ix2 p r))) * (h (ix2 p r) - SageSpec.rowMean (fun r => h (ix2 p r))))
          SageSpec.c128 + SageSpec.epsv) := by
  unfold normOf
  rw [mulf_apply, centred_apply, Keepdims.broadcastTo_a1_ab_apply, rsqrt_apply, addf_apply, broadcast_apply, meanCol_apply]
  simp only [mulf_apply, centred_apply]
  rfl

/-- The last step of the body at row p and channel q: scale, shift, clamp below at zero. -/
theorem pay1_apply (v35 : FVec Ideal S10000x128 .f32) (v37 : FVec Ideal S1x128 .f32) (v40 : Vec Ideal S1x128 .f32) (p : Fin 10000) (q : Fin 128) :
    k0_pay1 (F := Ideal) v35 v37 v40 (ix2 p q) = max (v35 (ix2 p q) * v37 (ix2 (0 : Fin 1) q) + v40 (ix2 (0 : Fin 1) q)) SageSpec.zerov := by
  unfold k0_pay1
  rw [maximumf_apply, addf_apply, mulf_apply, shapeCast_self, broadcastTo_1b_ab_apply, broadcastTo_1b_ab_apply]
  rfl

theorem pay3_eq (v36 : Vec Ideal S1x128 .f32) : k0_pay3 (F := Ideal) v36 = v36 := by
  unfold k0_pay3
  exact shapeCast_self _ _

/-- WHAT THE BODY LEAVES in the output block, from the eight input blocks: the layer applied to the blocks. -/
theorem out_eq (x0 : Vec Ideal S10000x128 .f32) (x1 : Vec Ideal S10000x1 .f32) (x2 : Vec Ideal S10000x128 .f32) (x3 : Vec Ideal S128x128 .f32)
    (x4 : Vec Ideal S1x128 .f32) (x5 : Vec Ideal S128x128 .f32) (x6 : Vec Ideal S1x128 .f32) (x7 : Vec Ideal S1x128 .f32) :
    out0_8 (F := Ideal) x0 x1 x2 x3 x4 x5 x6 x7 = SageSpec.comb (n := 10000) x0 x1 x2 x3 x4 x5 x6 x7 := by
  unfold out0_8
  rw [View.canon_unit_zero hz]
  simp only [View.ld_unit_zero (S := S10000x128) hz, View.ld_unit_zero (S := S10000x1) hz, View.ld_unit_zero (S := S128x128) hz,
    View.ld_unit_zero (S := S1x128) hz]
  funext j
  obtain ⟨p, q, rfl⟩ : ∃ (p : Fin 10000) (q : Fin 128), j = ix2 p q := ⟨j 0, j 1, eq_ix2 j⟩
  rw [pay1_apply, pay2_eq, pay3_eq, normOf_apply, SageSpec.comb_ix2]
  unfold SageSpec.lnrelu
  simp only [pre_apply]

/-! ## From blocks to the array -/

/-- The layer acts row by row: if the three row-blocked operands of a block are rows tv·10000 … of whole arrays, the layer of
    the block at row y is the layer of the whole arrays at row tv·10000 + y. -/
theorem point_eq (B0 : S10000x128.Idx → EReal) (B1 : S10000x1.Idx → EReal) (B2 : S10000x128.Idx → EReal)
    (A0 : S100000x128.Idx → EReal) (A1 : S100000x1.Idx → EReal) (A2 : S100000x128.Idx → EReal)
    (B3 A3 : S128x128.Idx → EReal) (B4 A4 : S1x128.Idx → EReal) (B5 A5 : S128x128.Idx → EReal) (B6 A6 B7 A7 : S1x128.Idx → EReal)
    (tv : Nat)
    (h0 : ∀ (y : S10000x128.Idx) (i : S100000x128.Idx), (i 0).val = tv * 10000 + (y 0).val → (i 1).val = (y 1).val → B0 y = A0 i)
    (h1 : ∀ (y : S10000x1.Idx) (i : S100000x1.Idx), (i 0).val = tv * 10000 + (y 0).val → (i 1).val = (y 1).val → B1 y = A1 i)
    (h2 : ∀ (y : S10000x128.Idx) (i : S100000x128.Idx), (i 0).val = tv * 10000 + (y 0).val → (i 1).val = (y 1).val → B2 y = A2 i)
    (h3 : B3 = A3) (h4 : B4 = A4) (h5 : B5 = A5) (h6 : B6 = A6) (h7 : B7 = A7)
    (y : S10000x128.Idx) (i : S100000x128.Idx) (hi0 : (i 0).val = tv * 10000 + (y 0).val) (hi1 : (i 1).val = (y 1).val) :
    SageSpec.comb (n := 10000) B0 B1 B2 B3 B4 B5 B6 B7 y = SageSpec.comb (n := 100000) A0 A1 A2 A3 A4 A5 A6 A7 i := by
  obtain ⟨p, q, rfl⟩ : ∃ (p : Fin 10000) (q : Fin 128), y = ix2 p q := ⟨y 0, y 1, eq_ix2 y⟩
  obtain ⟨P, Q, rfl⟩ : ∃ (P : Fin 100000) (Q : Fin 128), i = ix2 P Q := ⟨i 0, i 1, eq_ix2 i⟩
  have hQ : Q = q := Fin.ext hi1
  subst hQ h3 h4 h5 h6 h7
  have hP : P.val = tv * 10000 + p.val := hi0
  rw [SageSpec.comb_ix2, SageSpec.comb_ix2]
  have hrow_eq : SageSpec.hrow B0 B1 B2 B3 B4 B5 p = SageSpec.hrow A0 A1 A2 B3 B4 B5 P := by
    funext r
    unfold SageSpec.hrow
    have e0 : ∀ k : Fin 128, B0 (ix2 p k) = A0 (ix2 P k) := fun k => h0 (ix2 p k) (ix2 P k) hP rfl
    have e1 : B1 (ix2 p (0 : Fin 1)) = A1 (ix2 P (0 : Fin 1)) := h1 (ix2 p (0 : Fin 1)) (ix2 P (0 : Fin 1)) hP rfl
    have e2 : ∀ k : Fin 128, B2 (ix2 p k) = A2 (ix2 P k) := fun k => h2 (ix2 p k) (ix2 P k) hP rfl
    simp only [e0, e1, e2]
  rw [hrow_eq]

section Blocks

variable (V : (c : Dev nD) → (b : Ref sig .tc) → Buf (Elt Ideal) ((c : Thread nD τ).loc b))

/-- The printed index maps, decided over the grid: at point t the three row-blocked operands and the result are at block
    (t, 0) and the five whole operands at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = t.val ∧ win0_8.index t (1 : Fin 2) = 0 ∧ True :=
  (by decide +kernel : ∀ t : Fin grid0.N, _)

/-! Block t of a row-blocked operand is rows 10000·t … 10000·t + 9999 of its array. -/

theorem iblk_rows_0 (c : Dev nD) (t : Fin cfg0.N) (y : S10000x128.Idx) (i : S100000x128.Idx)
    (h0 : (i 0).val = t.val * 10000 + (y 0).val) (h1 : (i 1).val = (y 1).val) :
    (iblk0 V c 0 t : Vec Ideal S10000x128 .f32) y = (V c (Pipeline.arrRef spec0 0) : S100000x128.Idx → EReal) i := by
  have e := idx_facts t
  have e0 : win0_0.index t (0 : Fin 2) = t.val := e.1
  have e1 : win0_0.index t (1 : Fin 2) = 0 := e.2.1
  unfold iblk0
  rw [View.read_apply]
  refine congrArg (V c (Pipeline.arrRef spec0 0) : S100000x128.Idx → EReal) (funext fun a => Fin.ext ?_)
  match a with
  | ⟨0, _⟩ => show win0_0.index t (0 : Fin 2) * 10000 + 1 * (y 0).val = (i 0).val; rw [e0, h0]; omega
  | ⟨1, _⟩ => show win0_0.index t (1 : Fin 2) * 128 + 1 * (y 1).val = (i 1).val; rw [e1, h1]; omega

theorem iblk_rows_1 (c : Dev nD) (t : Fin cfg0.N) (y : S10000x1.Idx) (i : S100000x1.Idx)
    (h0 : (i 0).val = t.val * 10000 + (y 0).val) (h1 : (i 1).val = (y 1).val) :
    (iblk0 V c 1 t : Vec Ideal S10000x1 .f32) y = (V c (Pipeline.arrRef spec0 1) : S100000x1.Idx → EReal) i := by
  have e := idx_facts t
  have e0 : win0_1.index t (0 : Fin 2) = t.val := e.2.2.1
  have e1 : win0_1.index t (1 : Fin 2) = 0 := e.2.2.2.1
  unfold iblk0
  rw [View.read_apply]
  refine congrArg (V c (Pipeline.arrRef spec0 1) : S100000x1.Idx → EReal) (funext fun a => Fin.ext ?_)
  match a with
  | ⟨0, _⟩ => show win0_1.index t (0 : Fin 2) * 10000 + 1 * (y 0).val = (i 0).val; rw [e0, h0]; omega
  | ⟨1, _⟩ => show win0_1.index t (1 : Fin 2) * 1 + 1 * (y 1).val = (i 1).val; rw [e1, h1]; omega

theorem iblk_rows_2 (c : Dev nD) (t : Fin cfg0.N) (y : S10000x128.Idx) (i : S100000x128.Idx)
    (h0 : (i 0).val = t.val * 10000 + (y 0).val) (h1 : (i 1).val = (y 1).val) :
    (iblk0 V c 2 t : Vec Ideal S10000x128 .f32) y = (V c (Pipeline.arrRef spec0 2) : S100000x128.Idx → EReal) i := by
  have e := idx_facts t
  have e0 : win0_2.index t (0 : Fin 2) = t.val := e.2.2.2.2.1
  have e1 : win0_2.index t (1 : Fin 2) = 0 := e.2.2.2.2.2.1
  unfold iblk0
  rw [View.read_apply]
  refine congrArg (V c (Pipeline.arrRef spec0 2) : S100000x128.Idx → EReal) (funext fun a => Fin.ext ?_)
  match a with
  | ⟨0, _⟩ => show win0_2.index t (0 : Fin 2) * 10000 + 1 * (y 0).val = (i 0).val; rw [e0, h0]; omega
  | ⟨1, _⟩ => show win0_2.index t (1 : Fin 2) * 128 + 1 * (y 1).val = (i 1).val; rw [e1, h1]; omega

/-! The block of an operand read whole is its array, at every point. -/

theorem iblk_whole_3 (c : Dev nD) (t : Fin cfg0.N) :
    (iblk0 V c 3 t : Vec Ideal S128x128 .f32) = (V c (Pipeline.arrRef spec0 3) : S128x128.Idx → EReal) := by
  have e := idx_facts t
  have e0 : win0_3.index t (0 : Fin 2) = 0 := e.2.2.2.2.2.2.1
  have e1 : win0_3.index t (1 : Fin 2) = 0 := e.2.2.2.2.2.2.2.1
  funext y
  unfold iblk0
  rw [View.read_apply]
  refine congrArg (V c (Pipeline.arrRef spec0 3) : S128x128.Idx → EReal) (funext fun a => Fin.ext ?_)
  match a with
  | ⟨0, _⟩ => show win0_3.index t (0 : Fin 2) * 128 + 1 * (y 0).val = (y 0).val; rw [e0]; omega
  | ⟨1, _⟩ => show win0_3.index t (1 : Fin 2) * 128 + 1 * (y 1).val = (y 1).val; rw [e1]; omega

theorem iblk_whole_4 (c : Dev nD) (t : Fin cfg0.N) :
    (iblk0 V c 4 t : Vec Ideal S1x128 .f32) = (V c (Pipeline.arrRef spec0 4) : S1x128.Idx → EReal) := by
  have e := idx_facts t
  have e0 : win0_4.index t (0 : Fin 2) = 0 := e.2.2.2.2.2.2.2.2.1
  have e1 : win0_4.index t (1 : Fin 2) = 0 := e.2.2.2.2.2.2.2.2.2.1
  funext y
  unfold iblk0
  rw [View.read_apply]
  refine congrArg (V c (Pipeline.arrRef spec0 4) : S1x128.Idx → EReal) (funext fun a => Fin.ext ?_)
  match a with
  | ⟨0, _⟩ => show win0_4.index t (0 : Fin 2) * 1 + 1 * (y 0).val = (y 0).val; rw [e0]; omega
  | ⟨1, _⟩ => show win0_4.index t (1 : Fin 2) * 128 + 1 * (y 1).val = (y 1).val; rw [e1]; omega

theorem iblk_whole_5 (c : Dev nD) (t : Fin cfg0.N) :
    (iblk0 V c 5 t : Vec Ideal S128x128 .f32) = (V c (Pipeline.arrRef spec0 5) : S128x128.Idx → EReal) := by
  have e := idx_facts t
  have e0 : win0_5.index t (0 : Fin 2) = 0 := e.2.2.2.2.2.2.2.2.2.2.1
  have e1 : win0_5.index t (1 : Fin 2) = 0 := e.2.2.2.2.2.2.2.2.2.2.2.1
  funext y
  unfold iblk0
  rw [View.read_apply]
  refine congrArg (V c (Pipeline.arrRef spec0 5) : S128x128.Idx → EReal) (funext fun a => Fin.ext ?_)
  match a with
  | ⟨0, _⟩ => show win0_5.index t (0 : Fin 2) * 128 + 1 * (y 0).val = (y 0).val; rw [e0]; omega
  | ⟨1, _⟩ => show win0_5.index t (1 : Fin 2) * 128 + 1 * (y 1).val = (y 1).val; rw [e1]; omega

theorem iblk_whole_6 (c : Dev nD) (t : Fin cfg0.N) :
    (iblk0 V c 6 t : Vec Ideal S1x128 .f32) = (V c (Pipeline.arrRef spec0 6) : S1x128.Idx → EReal) := by
  have e := idx_facts t
  have e0 : win0_6.index t (0 : Fin 2) = 0 := e.2.2.2.2.2.2.2.2.2.2.2.2.1
  have e1 : win0_6.index t (1 : Fin 2) = 0 := e.2.2.2.2.2.2.2.2.2.2.2.2.2.1
  funext y
  unfold iblk0
  rw [View.read_apply]
  refine congrArg (V c (Pipeline.arrRef spec0 6) : S1x128.Idx → EReal) (funext fun a => Fin.ext ?_)
  match a with
  | ⟨0, _⟩ => show win0_6.index t (0 : Fin 2) * 1 + 1 * (y 0).val = (y 0).val; rw [e0]; omega
  | ⟨1, _⟩ => show win0_6.index t (1 : Fin 2) * 128 + 1 * (y 1).val = (y 1).val; rw [e1]; omega

theorem iblk_whole_7 (c : Dev nD) (t : Fin cfg0.N) :
    (iblk0 V c 7 t : Vec Ideal S1x128 .f32) = (V c (Pipeline.arrRef spec0 7) : S1x128.Idx → EReal) := by
  have e := idx_facts t
  have e0 : win0_7.index t (0 : Fin 2) = 0 := e.2.2.2.2.2.2.2.2.2.2.2.2.2.2.1
  have e1 : win0_7.index t (1 : Fin 2) = 0 := e.2.2.2.2.2.2.2.2.2.2.2.2.2.2.2.1
  funext y
  unfold iblk0
  rw [View.read_apply]
  refine congrArg (V c (Pipeline.arrRef spec0 7) : S1x128.Idx → EReal) (funext fun a => Fin.ext ?_)
  match a with
  | ⟨0, _⟩ => show win0_7.index t (0 : Fin 2) * 1 + 1 * (y 0).val = (y 0).val; rw [e0]; omega
  | ⟨1, _⟩ => show win0_7.index t (1 : Fin 2) * 128 + 1 * (y 1).val = (y 1).val; rw [e1]; omega

/-- WHAT POINT t WRITES BACK is block t of the layer of the arrays the region found: rows 10000·t … of the result depend on
    the same rows of the three row-blocked operands, which are what the point's input blocks hold. -/
theorem flushed_eq (c : Dev nD) (t : Fin cfg0.N) :
    (dat0 (F := Ideal) V c).flushed 8 t = ((cfg0.win 8).blk t).view.read (Elt Ideal)
      (SageSpec.comb (n := 100000) (V c (Pipeline.arrRef spec0 0)) (V c (Pipeline.arrRef spec0 1)) (V c (Pipeline.arrRef spec0 2))
        (V c (Pipeline.arrRef spec0 3)) (V c (Pipeline.arrRef spec0 4)) (V c (Pipeline.arrRef spec0 5))
        (V c (Pipeline.arrRef spec0 6)) (V c (Pipeline.arrRef spec0 7))) := by
  show (cfg0.win 8).cut (grid0.coords t) ((dat0 V c).after 8 t) = _
  rw [after0_8]
  rw [out_eq (iblk0 V c 0 t) (iblk0 V c 1 t) (iblk0 V c 2 t) (iblk0 V c 3 t) (iblk0 V c 4 t) (iblk0 V c 5 t) (iblk0 V c 6 t) (iblk0 V c 7 t)]
  have e := idx_facts t
  have e0 : win0_8.index t (0 : Fin 2) = t.val := e.2.2.2.2.2.2.2.2.2.2.2.2.2.2.2.2.1
  have e1 : win0_8.index t (1 : Fin 2) = 0 := e.2.2.2.2.2.2.2.2.2.2.2.2.2.2.2.2.2.1
  funext j
  rw [View.read_apply]
  refine point_eq (iblk0 V c 0 t) (iblk0 V c 1 t) (iblk0 V c 2 t)
    (V c (Pipeline.arrRef spec0 0)) (V c (Pipeline.arrRef spec0 1)) (V c (Pipeline.arrRef spec0 2))
    (iblk0 V c 3 t) (V c (Pipeline.arrRef spec0 3)) (iblk0 V c 4 t) (V c (Pipeline.arrRef spec0 4))
    (iblk0 V c 5 t) (V c (Pipeline.arrRef spec0 5)) (iblk0 V c 6 t) (V c (Pipeline.arrRef spec0 6))
    (iblk0 V c 7 t) (V c (Pipeline.arrRef spec0 7)) t.val
    (iblk_rows_0 V c t) (iblk_rows_1 V c t) (iblk_rows_2 V c t)
    (iblk_whole_3 V c t) (iblk_whole_4 V c t) (iblk_whole_5 V c t) (iblk_whole_6 V c t) (iblk_whole_7 V c t)
    ((cfg0.win 8).xinj (grid0.coords t) j) (((cfg0.win 8).blk t).view.emb j) ?_ ?_
  · show win0_8.index t (0 : Fin 2) * 10000 + 1 * (j 0).val = t.val * 10000 + (j 0).val
    rw [e0]; omega
  · show win0_8.index t (1 : Fin 2) * 128 + 1 * (j 1).val = (j 1).val
    rw [e1]; omega

/-- Every row of the result is in some point's block: row r in the block of point r / 10000. -/
theorem cover (i : S100000x128.Idx) :
    ∃ t : Fin cfg0.N, (cfg0.win 8).flush t = true ∧ i ∈ ((cfg0.win 8).blk t).view.set := by
  have hN : grid0.N = 10 := N_0
  have hi0 : (i 0).val < 100000 := (i 0).isLt
  have hi1 : (i 1).val < 128 := (i 1).isLt
  have ht : (i 0).val / 10000 < grid0.N := by rw [hN]; omega
  have e := idx_facts ⟨(i 0).val / 10000, ht⟩
  have e0 : win0_8.index ⟨(i 0).val / 10000, ht⟩ (0 : Fin 2) = (i 0).val / 10000 := e.2.2.2.2.2.2.2.2.2.2.2.2.2.2.2.2.1
  have e1 : win0_8.index ⟨(i 0).val / 10000, ht⟩ (1 : Fin 2) = 0 := e.2.2.2.2.2.2.2.2.2.2.2.2.2.2.2.2.2.1
  refine ⟨⟨(i 0).val / 10000, ht⟩, flush0_8 _, ?_⟩
  show i ∈ ((View.whole main_v79).slice (win0_8.rect ⟨(i 0).val / 10000, ht⟩)).set
  rw [View.set_slice_whole, Rect.mem_set_unit]
  intro a
  match a with
  | ⟨0, _⟩ =>
    show win0_8.index ⟨(i 0).val / 10000, ht⟩ (0 : Fin 2) * 10000 ≤ (i 0).val ∧ (i 0).val < win0_8.index ⟨(i 0).val / 10000, ht⟩ (0 : Fin 2) * 10000 + 10000
    rw [e0]; omega
  | ⟨1, _⟩ =>
    show win0_8.index ⟨(i 0).val / 10000, ht⟩ (1 : Fin 2) * 128 ≤ (i 1).val ∧ (i 1).val < win0_8.index ⟨(i 0).val / 10000, ht⟩ (1 : Fin 2) * 128 + 128
    rw [e1]; omega

end Blocks

end R0

/-- THE RESULT ARRAY of region 0 after its run, from the arrays the region found: the layer of the specification applied to
    the summed-neighbour array, the reciprocal-count column, the node type's own features, the two weight matrices, the bias and
    the two normalisation vectors. Row r of the result depends on row r of the first three and on the whole of the others. -/
theorem region0_value (V : (c : Dev nD) → (b : Ref sig .tc) → Buf (Elt Ideal) ((c : Thread nD τ).loc b)) (c : Dev nD) :
    (dat0 (F := Ideal) V c).arrAt 8 cfg0.N
      = SageSpec.comb (n := 100000) (V c (Pipeline.arrRef spec0 0)) (V c (Pipeline.arrRef spec0 1)) (V c (Pipeline.arrRef spec0 2))
        (V c (Pipeline.arrRef spec0 3)) (V c (Pipeline.arrRef spec0 4)) (V c (Pipeline.arrRef spec0 5))
        (V c (Pipeline.arrRef spec0 6)) (V c (Pipeline.arrRef spec0 7)) :=
  (dat0 (F := Ideal) V c).arrAt_eq_of_cover 8 _ (fun t _ => R0.flushed_eq V c t) R0.cover

end Cert.KernelIdeal.RegionValue

end
-- ==== Proof.RegionValue1.lean ====
/-
  Region 1 of the network: one layer (see the specification module) applied to one node type's arrays.

  The region works on blocks of 10000 consecutive rows. At a point of its grid it reads block t of the summed-neighbour array,
  of the reciprocal-count column and of the node's own features, reads the two weight matrices, the bias and the two
  normalisation vectors whole, and writes block t of the result. A row of the result depends only on the same row of the
  three row-blocked operands, so the block a point writes is the block of the layer applied to the whole arrays, and the ten
  blocks tile the 100000 rows: the result array ends holding the layer of the arrays the region found.
-/
import proofs.«134971_j26482768347335_2_alg».proof.Proof.Gen.KernelIdeal.Frame
import proofs.«134971_j26482768347335_2_alg».proof.Proof.SageSpec
import proofs.«134971_j26482768347335_2_alg».proof.Proof.LibPlainDot
import proofs.«134971_j26482768347335_2_alg».proof.Proof.LibKeepdims
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.ShloMosaic.ValueIdx Idealize.SL.Sem
open Idealize.ShloMosaic.Pipeline (Dat)

namespace Cert.KernelIdeal.RegionValue

open Cert.KernelIdeal Cert.KernelIdeal.Gen

namespace R1

/-! ## The body's arithmetic at an index -/

theorem hz : (![0, 0] : Fin 2 → Nat) = fun _ => 0 := funext fun a => by fin_cases a <;> rfl

/-- The body's two matrix products are plain ones: the left operand's lane axis against the right operand's row axis. -/
theorem plain : PlainDot.IsPlain (M := 10000) (K := 128) (N := 128) dot_S10000x128_S128x128_S10000x128_1_0_0_1_n_n where
  rank := rfl
  size := rfl
  lhs0 := fun i q => by
    unfold DotDims.lhsIdx
    rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
    rfl
  lhs1 := fun i q => dot_S10000x128_S128x128_S10000x128_1_0_0_1_n_n.lhsIdx_val_of_single rfl i q
  rhs0 := fun i q => dot_S10000x128_S128x128_S10000x128_1_0_0_1_n_n.rhsIdx_val_of_single rfl i q
  rhs1 := fun i q => by
    unfold DotDims.rhsIdx
    rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
    rfl

/-- A sum along the 128 lanes with the axis kept, read at row p: the sum over the lanes of row p. -/
theorem rowSum_apply (v : FVec Ideal S10000x128 .f32) (hφ : FKind.Formats .f32) (hacc : (0x00000000#32 : BitVec 32) = 0x00000000#32)
    (p : Fin 10000) (u : Fin 1) :
    shapeCast S10000x1 (multiReduction (F := Ideal) .add [1] S10000 v 0x00000000#32 reduces_S10000x128_S10000 hφ hacc) shapeCasts_S10000_S10000x1 (ix2 p u)
      = ∑ r : Fin 128, v (ix2 p r) := by
  refine (Keepdims.shapeCast_a_a1_apply _ shapeCasts_S10000_S10000x1 p u).trans ?_
  refine (Ideal.multiReduction_add_single v 0x00000000#32 reduces_S10000x128_S10000 hφ hacc (ix1 p)).trans ?_
  refine Finset.sum_congr rfl fun r _ => congrArg v ?_
  funext a
  apply Fin.ext
  match a with
  | ⟨0, _⟩ => rfl
  | ⟨1, _⟩ => rfl

/-- The activation before normalisation, as the body forms it from its loaded blocks. -/
def pre (x0 : Vec Ideal S10000x128 .f32) (x1 : Vec Ideal S10000x1 .f32) (x2 : Vec Ideal S10000x128 .f32) (x3 : Vec Ideal S128x128 .f32)
    (x4 : Vec Ideal S1x128 .f32) (x5 : Vec Ideal S128x128 .f32) : FVec Ideal S10000x128 .f32 :=
  have v1 : FVec Ideal S10000x128 .f32 := shapeCast S10000x128 x0 shapeCasts_S10000x128_S10000x128
  have v3 : FVec Ideal S10000x1 .f32 := shapeCast S10000x1 x1 shapeCasts_S10000x1_S10000x1
  have v5 : FVec Ideal S10000x128 .f32 := broadcastTo S10000x128 v3 broadcasts_S10000x1_S10000x128
  have v6 : FVec Ideal S10000x128 .f32 := mulf v1 v5
  have v8 : FVec Ideal S128x128 .f32 := shapeCast S128x128 x3 shapeCasts_S128x128_S128x128
  have cst : FVec Ideal S10000x128 .f32 := constant (F := Ideal) S10000x128 .f32 0x00000000#32
  have v9 : FVec Ideal S10000x128 .f32 := FloatOps.matmul (F := Ideal) dot_S10000x128_S128x128_S10000x128_1_0_0_1_n_n (some .fp32) v6 v8 cst
  have v11 : FVec Ideal S1x128 .f32 := shapeCast S1x128 x4 shapeCasts_S1x128_S1x128
  have v12 : FVec Ideal S10000x128 .f32 := broadcastTo S10000x128 v11 broadcasts_S1x128_S10000x128
  have v13 : FVec Ideal S10000x128 .f32 := addf v9 v12
  have v15 : FVec Ideal S128x128 .f32 := shapeCast S128x128 x5 shapeCasts_S128x128_S128x128
  have v4 : FVec Ideal S10000x128 .f32 := x2
  have v16 : FVec Ideal S10000x128 .f32 := FloatOps.matmul (F := Ideal) dot_S10000x128_S128x128_S10000x128_1_0_0_1_n_n (some .fp32) v4 v15 cst
  addf v13 v16

/-- At row p and channel r it is the specification's activation: the neighbour sum scaled by the reciprocal count, times the
    left weights, plus the bias, plus the own features times the right weights. -/
theorem pre_apply (x0 : Vec Ideal S10000x128 .f32) (x1 : Vec Ideal S10000x1 .f32) (x2 : Vec Ideal S10000x128 .f32) (x3 : Vec Ideal S128x128 .f32)
    (x4 : Vec Ideal S1x128 .f32) (x5 : Vec Ideal S128x128 .f32) (p : Fin 10000) (r : Fin 128) :
    pre x0 x1 x2 x3 x4 x5 (ix2 p r) = SageSpec.hrow x0 x1 x2 x3 x4 x5 p r := by
  unfold pre SageSpec.hrow
  simp only [shapeCast_self]
  rw [addf_apply, addf_apply, PlainDot.matmul_zero_apply _ plain, PlainDot.matmul_zero_apply _ plain, broadcastTo_1b_ab_apply]
  simp only [mulf_apply, Keepdims.broadcastTo_a1_ab_apply]

/-- The column of row means of an activation array, as the body forms it: the sum along the lanes, the axis kept, over 128. -/
def meanCol (g : FVec Ideal S10000x128 .f32) : FVec Ideal S10000x1 .f32 :=
  divf (shapeCast S10000x1 (multiReduction (F := Ideal) .add [1] S10000 g 0x00000000#32 reduces_S10000x128_S10000 (.inl rfl) rfl) shapeCasts_S10000_S10000x1)
    (broadcast S10000x1 (Scalar.ofBits .f32 0x43000000#32))

/-- An activation array with each row's mean subtracted. -/
def centred (h : FVec Ideal S10000x128 .f32) : FVec Ideal S10000x128 .f32 :=
  subf h (broadcastTo S10000x128 (meanCol h) broadcasts_S10000x1_S10000x128)

/-- The normalisation of the rows of an activation array, as the body forms it: subtract the row's mean, multiply by the
    reciprocal square root of the row's shifted variance (the mean of the squares of the centred row, plus the shift). -/
def normOf (h : FVec Ideal S10000x128 .f32) : FVec Ideal S10000x128 .f32 :=
  mulf (centred h)
    (broadcastTo S10000x128
      (rsqrt (addf (meanCol (mulf (centred h) (centred h))) (broadcast S10000x1 (Scalar.ofBits .f32 0x3727C5AC#32))))
      broadcasts_S10000x1_S10000x128)

/-- The body's normalised activation is that normalisation of the activation. -/
theorem pay2_eq (x0 : Vec Ideal S10000x128 .f32) (x1 : Vec Ideal S10000x1 .f32) (x2 : Vec Ideal S10000x128 .f32) (x3 : Vec Ideal S128x128 .f32)
    (x4 : Vec Ideal S1x128 .f32) (x5 : Vec Ideal S128x128 .f32) :
    k1_pay2 (F := Ideal) x0 x1 x2 x3 x4 x5 = normOf (pre x0 x1 x2 x3 x4 x5) := rfl

theorem rsqrt_apply {s : Shape} (x : FVec Ideal s .f32) (i : s.Idx) : rsqrt x i = Ideal.rsqrt (x i) := rfl

/-- The mean column at row p is the mean of row p. -/
theorem meanCol_apply (g : FVec Ideal S10000x128 .f32) (p : Fin 10000) (u : Fin 1) :
    meanCol g (ix2 p u) = SageSpec.rowMean (fun r => g (ix2 p r)) := by
  unfold meanCol
  show Ideal.div _ (Ideal.ofBits .f32 0x43000000#32) = _
  rw [rowSum_apply]
  rfl

/-- The centred array at row p and channel q. -/
theorem centred_apply (h : FVec Ideal S10000x128 .f32) (p : Fin 10000) (q : Fin 128) :
    centred h (ix2 p q) = h (ix2 p q) - SageSpec.rowMean (fun r => h (ix2 p r)) := by
  unfold centred
  rw [subf_apply, Keepdims.broadcastTo_a1_ab_apply, meanCol_apply]

/-- The normalisation at row p and channel q, in terms of row p alone. -/
theorem normOf_apply (h : FVec Ideal S10000x128 .f32) (p : Fin 10000) (q : Fin 128) :
    normOf h (ix2 p q) = (h (ix2 p q) - SageSpec.rowMean (fun r => h (ix2 p r)))
      * Ideal.rsqrt (Ideal.div (∑ r : Fin 128, (h (ix2 p r) - SageSpec.rowMean (fun r => h (ix2 p r))) * (h (ix2 p r) - SageSpec.rowMean (fun r => h (ix2 p r))))
          SageSpec.c128 + SageSpec.epsv) := by
  unfold normOf
  rw [mulf_apply, centred_apply, Keepdims.broadcastTo_a1_ab_apply, rsqrt_apply, addf_apply, broadcast_apply, meanCol_apply]
  simp only [mulf_apply, centred_apply]
  rfl

/-- The last step of the body at row p and channel q: scale, shift, clamp below at zero. -/
theorem pay1_apply (v35 : FVec Ideal S10000x128 .f32) (v37 : FVec Ideal S1x128 .f32) (v40 : Vec Ideal S1x128 .f32) (p : Fin 10000) (q : Fin 128) :
    k1_pay1 (F := Ideal) v35 v37 v40 (ix2 p q) = max (v35 (ix2 p q) * v37 (ix2 (0 : Fin 1) q) + v40 (ix2 (0 : Fin 1) q)) SageSpec.zerov := by
  unfold k1_pay1
  rw [maximumf_apply, addf_apply, mulf_apply, shapeCast_self, broadcastTo_1b_ab_apply, broadcastTo_1b_ab_apply]
  rfl

theorem pay3_eq (v36 : Vec Ideal S1x128 .f32) : k1_pay3 (F := Ideal) v36 = v36 := by
  unfold k1_pay3
  exact shapeCast_self _ _

/-- WHAT THE BODY LEAVES in the output block, from the eight input blocks: the layer applied to the blocks. -/
theorem out_eq (x0 : Vec Ideal S10000x128 .f32) (x1 : Vec Ideal S10000x1 .f32) (x2 : Vec Ideal S10000x128 .f32) (x3 : Vec Ideal S128x128 .f32)
    (x4 : Vec Ideal S1x128 .f32) (x5 : Vec Ideal S128x128 .f32) (x6 : Vec Ideal S1x128 .f32) (x7 : Vec Ideal S1x128 .f32) :
    out1_8 (F := Ideal) x0 x1 x2 x3 x4 x5 x6 x7 = SageSpec.comb (n := 10000) x0 x1 x2 x3 x4 x5 x6 x7 := by
  unfold out1_8
  rw [View.canon_unit_zero hz]
  simp only [View.ld_unit_zero (S := S10000x128) hz, View.ld_unit_zero (S := S10000x1) hz, View.ld_unit_zero (S := S128x128) hz,
    View.ld_unit_zero (S := S1x128) hz]
  funext j
  obtain ⟨p, q, rfl⟩ : ∃ (p : Fin 10000) (q : Fin 128), j = ix2 p q := ⟨j 0, j 1, eq_ix2 j⟩
  rw [pay1_apply, pay2_eq, pay3_eq, normOf_apply, SageSpec.comb_ix2]
  unfold SageSpec.lnrelu
  simp only [pre_apply]

/-! ## From blocks to the array -/

/-- The layer acts row by row: if the three row-blocked operands of a block are rows tv·10000 … of whole arrays, the layer of
    the block at row y is the layer of the whole arrays at row tv·10000 + y. -/
theorem point_eq (B0 : S10000x128.Idx → EReal) (B1 : S10000x1.Idx → EReal) (B2 : S10000x128.Idx → EReal)
    (A0 : S100000x128.Idx → EReal) (A1 : S100000x1.Idx → EReal) (A2 : S100000x128.Idx → EReal)
    (B3 A3 : S128x128.Idx → EReal) (B4 A4 : S1x128.Idx → EReal) (B5 A5 : S128x128.Idx → EReal) (B6 A6 B7 A7 : S1x128.Idx → EReal)
    (tv : Nat)
    (h0 : ∀ (y : S10000x128.Idx) (i : S100000x128.Idx), (i 0).val = tv * 10000 + (y 0).val → (i 1).val = (y 1).val → B0 y = A0 i)
    (h1 : ∀ (y : S10000x1.Idx) (i : S100000x1.Idx), (i 0).val = tv * 10000 + (y 0).val → (i 1).val = (y 1).val → B1 y = A1 i)
    (h2 : ∀ (y : S10000x128.Idx) (i : S100000x128.Idx), (i 0).val = tv * 10000 + (y 0).val → (i 1).val = (y 1).val → B2 y = A2 i)
    (h3 : B3 = A3) (h4 : B4 = A4) (h5 : B5 = A5) (h6 : B6 = A6) (h7 : B7 = A7)
    (y : S10000x128.Idx) (i : S100000x128.Idx) (hi0 : (i 0).val = tv * 10000 + (y 0).val) (hi1 : (i 1).val = (y 1).val) :
    SageSpec.comb (n := 10000) B0 B1 B2 B3 B4 B5 B6 B7 y = SageSpec.comb (n := 100000) A0 A1 A2 A3 A4 A5 A6 A7 i := by
  obtain ⟨p, q, rfl⟩ : ∃ (p : Fin 10000) (q : Fin 128), y = ix2 p q := ⟨y 0, y 1, eq_ix2 y⟩
  obtain ⟨P, Q, rfl⟩ : ∃ (P : Fin 100000) (Q : Fin 128), i = ix2 P Q := ⟨i 0, i 1, eq_ix2 i⟩
  have hQ : Q = q := Fin.ext hi1
  subst hQ h3 h4 h5 h6 h7
  have hP : P.val = tv * 10000 + p.val := hi0
  rw [SageSpec.comb_ix2, SageSpec.comb_ix2]
  have hrow_eq : SageSpec.hrow B0 B1 B2 B3 B4 B5 p = SageSpec.hrow A0 A1 A2 B3 B4 B5 P := by
    funext r
    unfold SageSpec.hrow
    have e0 : ∀ k : Fin 128, B0 (ix2 p k) = A0 (ix2 P k) := fun k => h0 (ix2 p k) (ix2 P k) hP rfl
    have e1 : B1 (ix2 p (0 : Fin 1)) = A1 (ix2 P (0 : Fin 1)) := h1 (ix2 p (0 : Fin 1)) (ix2 P (0 : Fin 1)) hP rfl
    have e2 : ∀ k : Fin 128, B2 (ix2 p k) = A2 (ix2 P k) := fun k => h2 (ix2 p k) (ix2 P k) hP rfl
    simp only [e0, e1, e2]
  rw [hrow_eq]

section Blocks

variable (V : (c : Dev nD) → (b : Ref sig .tc) → Buf (Elt Ideal) ((c : Thread nD τ).loc b))

/-- The printed index maps, decided over the grid: at point t the three row-blocked operands and the result are at block
    (t, 0) and the five whole operands at block (0, 0). -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = t.val ∧ win1_8.index t (1 : Fin 2) = 0 ∧ True :=
  (by decide +kernel : ∀ t : Fin grid1.N, _)

/-! Block t of a row-blocked operand is rows 10000·t … 10000·t + 9999 of its array. -/

theorem iblk_rows_0 (c : Dev nD) (t : Fin cfg1.N) (y : S10000x128.Idx) (i : S100000x128.Idx)
    (h0 : (i 0).val = t.val * 10000 + (y 0).val) (h1 : (i 1).val = (y 1).val) :
    (iblk1 V c 0 t : Vec Ideal S10000x128 .f32) y = (V c (Pipeline.arrRef spec1 0) : S100000x128.Idx → EReal) i := by
  have e := idx_facts t
  have e0 : win1_0.index t (0 : Fin 2) = t.val := e.1
  have e1 : win1_0.index t (1 : Fin 2) = 0 := e.2.1
  unfold iblk1
  rw [View.read_apply]
  refine congrArg (V c (Pipeline.arrRef spec1 0) : S100000x128.Idx → EReal) (funext fun a => Fin.ext ?_)
  match a with
  | ⟨0, _⟩ => show win1_0.index t (0 : Fin 2) * 10000 + 1 * (y 0).val = (i 0).val; rw [e0, h0]; omega
  | ⟨1, _⟩ => show win1_0.index t (1 : Fin 2) * 128 + 1 * (y 1).val = (i 1).val; rw [e1, h1]; omega

theorem iblk_rows_1 (c : Dev nD) (t : Fin cfg1.N) (y : S10000x1.Idx) (i : S100000x1.Idx)
    (h0 : (i 0).val = t.val * 10000 + (y 0).val) (h1 : (i 1).val = (y 1).val) :
    (iblk1 V c 1 t : Vec Ideal S10000x1 .f32) y = (V c (Pipeline.arrRef spec1 1) : S100000x1.Idx → EReal) i := by
  have e := idx_facts t
  have e0 : win1_1.index t (0 : Fin 2) = t.val := e.2.2.1
  have e1 : win1_1.index t (1 : Fin 2) = 0 := e.2.2.2.1
  unfold iblk1
  rw [View.read_apply]
  refine congrArg (V c (Pipeline.arrRef spec1 1) : S100000x1.Idx → EReal) (funext fun a => Fin.ext ?_)
  match a with
  | ⟨0, _⟩ => show win1_1.index t (0 : Fin 2) * 10000 + 1 * (y 0).val = (i 0).val; rw [e0, h0]; omega
  | ⟨1, _⟩ => show win1_1.index t (1 : Fin 2) * 1 + 1 * (y 1).val = (i 1).val; rw [e1, h1]; omega

theorem iblk_rows_2 (c : Dev nD) (t : Fin cfg1.N) (y : S10000x128.Idx) (i : S100000x128.Idx)
    (h0 : (i 0).val = t.val * 10000 + (y 0).val) (h1 : (i 1).val = (y 1).val) :
    (iblk1 V c 2 t : Vec Ideal S10000x128 .f32) y = (V c (Pipeline.arrRef spec1 2) : S100000x128.Idx → EReal) i := by
  have e := idx_facts t
  have e0 : win1_2.index t (0 : Fin 2) = t.val := e.2.2.2.2.1
  have e1 : win1_2.index t (1 : Fin 2) = 0 := e.2.2.2.2.2.1
  unfold iblk1
  rw [View.read_apply]
  refine congrArg (V c (Pipeline.arrRef spec1 2) : S100000x128.Idx → EReal) (funext fun a => Fin.ext ?_)
  match a with
  | ⟨0, _⟩ => show win1_2.index t (0 : Fin 2) * 10000 + 1 * (y 0).val = (i 0).val; rw [e0, h0]; omega
  | ⟨1, _⟩ => show win1_2.index t (1 : Fin 2) * 128 + 1 * (y 1).val = (i 1).val; rw [e1, h1]; omega

/-! The block of an operand read whole is its array, at every point. -/

theorem iblk_whole_3 (c : Dev nD) (t : Fin cfg1.N) :
    (iblk1 V c 3 t : Vec Ideal S128x128 .f32) = (V c (Pipeline.arrRef spec1 3) : S128x128.Idx → EReal) := by
  have e := idx_facts t
  have e0 : win1_3.index t (0 : Fin 2) = 0 := e.2.2.2.2.2.2.1
  have e1 : win1_3.index t (1 : Fin 2) = 0 := e.2.2.2.2.2.2.2.1
  funext y
  unfold iblk1
  rw [View.read_apply]
  refine congrArg (V c (Pipeline.arrRef spec1 3) : S128x128.Idx → EReal) (funext fun a => Fin.ext ?_)
  match a with
  | ⟨0, _⟩ => show win1_3.index t (0 : Fin 2) * 128 + 1 * (y 0).val = (y 0).val; rw [e0]; omega
  | ⟨1, _⟩ => show win1_3.index t (1 : Fin 2) * 128 + 1 * (y 1).val = (y 1).val; rw [e1]; omega

theorem iblk_whole_4 (c : Dev nD) (t : Fin cfg1.N) :
    (iblk1 V c 4 t : Vec Ideal S1x128 .f32) = (V c (Pipeline.arrRef spec1 4) : S1x128.Idx → EReal) := by
  have e := idx_facts t
  have e0 : win1_4.index t (0 : Fin 2) = 0 := e.2.2.2.2.2.2.2.2.1
  have e1 : win1_4.index t (1 : Fin 2) = 0 := e.2.2.2.2.2.2.2.2.2.1
  funext y
  unfold iblk1
  rw [View.read_apply]
  refine congrArg (V c (Pipeline.arrRef spec1 4) : S1x128.Idx → EReal) (funext fun a => Fin.ext ?_)
  match a with
  | ⟨0, _⟩ => show win1_4.index t (0 : Fin 2) * 1 + 1 * (y 0).val = (y 0).val; rw [e0]; omega
  | ⟨1, _⟩ => show win1_4.index t (1 : Fin 2) * 128 + 1 * (y 1).val = (y 1).val; rw [e1]; omega

theorem iblk_whole_5 (c : Dev nD) (t : Fin cfg1.N) :
    (iblk1 V c 5 t : Vec Ideal S128x128 .f32) = (V c (Pipeline.arrRef spec1 5) : S128x128.Idx → EReal) := by
  have e := idx_facts t
  have e0 : win1_5.index t (0 : Fin 2) = 0 := e.2.2.2.2.2.2.2.2.2.2.1
  have e1 : win1_5.index t (1 : Fin 2) = 0 := e.2.2.2.2.2.2.2.2.2.2.2.1
  funext y
  unfold iblk1
  rw [View.read_apply]
  refine congrArg (V c (Pipeline.arrRef spec1 5) : S128x128.Idx → EReal) (funext fun a => Fin.ext ?_)
  match a with
  | ⟨0, _⟩ => show win1_5.index t (0 : Fin 2) * 128 + 1 * (y 0).val = (y 0).val; rw [e0]; omega
  | ⟨1, _⟩ => show win1_5.index t (1 : Fin 2) * 128 + 1 * (y 1).val = (y 1).val; rw [e1]; omega

theorem iblk_whole_6 (c : Dev nD) (t : Fin cfg1.N) :
    (iblk1 V c 6 t : Vec Ideal S1x128 .f32) = (V c (Pipeline.arrRef spec1 6) : S1x128.Idx → EReal) := by
  have e := idx_facts t
  have e0 : win1_6.index t (0 : Fin 2) = 0 := e.2.2.2.2.2.2.2.2.2.2.2.2.1
  have e1 : win1_6.index t (1 : Fin 2) = 0 := e.2.2.2.2.2.2.2.2.2.2.2.2.2.1
  funext y
  unfold iblk1
  rw [View.read_apply]
  refine congrArg (V c (Pipeline.arrRef spec1 6) : S1x128.Idx → EReal) (funext fun a => Fin.ext ?_)
  match a with
  | ⟨0, _⟩ => show win1_6.index t (0 : Fin 2) * 1 + 1 * (y 0).val = (y 0).val; rw [e0]; omega
  | ⟨1, _⟩ => show win1_6.index t (1 : Fin 2) * 128 + 1 * (y 1).val = (y 1).val; rw [e1]; omega

theorem iblk_whole_7 (c : Dev nD) (t : Fin cfg1.N) :
    (iblk1 V c 7 t : Vec Ideal S1x128 .f32) = (V c (Pipeline.arrRef spec1 7) : S1x128.Idx → EReal) := by
  have e := idx_facts t
  have e0 : win1_7.index t (0 : Fin 2) = 0 := e.2.2.2.2.2.2.2.2.2.2.2.2.2.2.1
  have e1 : win1_7.index t (1 : Fin 2) = 0 := e.2.2.2.2.2.2.2.2.2.2.2.2.2.2.2.1
  funext y
  unfold iblk1
  rw [View.read_apply]
  refine congrArg (V c (Pipeline.arrRef spec1 7) : S1x128.Idx → EReal) (funext fun a => Fin.ext ?_)
  match a with
  | ⟨0, _⟩ => show win1_7.index t (0 : Fin 2) * 1 + 1 * (y 0).val = (y 0).val; rw [e0]; omega
  | ⟨1, _⟩ => show win1_7.index t (1 : Fin 2) * 128 + 1 * (y 1).val = (y 1).val; rw [e1]; omega

/-- WHAT POINT t WRITES BACK is block t of the layer of the arrays the region found: rows 10000·t … of the result depend on
    the same rows of the three row-blocked operands, which are what the point's input blocks hold. -/
theorem flushed_eq (c : Dev nD) (t : Fin cfg1.N) :
    (dat1 (F := Ideal) V c).flushed 8 t = ((cfg1.win 8).blk t).view.read (Elt Ideal)
      (SageSpec.comb (n := 100000) (V c (Pipeline.arrRef spec1 0)) (V c (Pipeline.arrRef spec1 1)) (V c (Pipeline.arrRef spec1 2))
        (V c (Pipeline.arrRef spec1 3)) (V c (Pipeline.arrRef spec1 4)) (V c (Pipeline.arrRef spec1 5))
        (V c (Pipeline.arrRef spec1 6)) (V c (Pipeline.arrRef spec1 7))) := by
  show (cfg1.win 8).cut (grid1.coords t) ((dat1 V c).after 8 t) = _
  rw [after1_8]
  rw [out_eq (iblk1 V c 0 t) (iblk1 V c 1 t) (iblk1 V c 2 t) (iblk1 V c 3 t) (iblk1 V c 4 t) (iblk1 V c 5 t) (iblk1 V c 6 t) (iblk1 V c 7 t)]
  have e := idx_facts t
  have e0 : win1_8.index t (0 : Fin 2) = t.val := e.2.2.2.2.2.2.2.2.2.2.2.2.2.2.2.2.1
  have e1 : win1_8.index t (1 : Fin 2) = 0 := e.2.2.2.2.2.2.2.2.2.2.2.2.2.2.2.2.2.1
  funext j
  rw [View.read_apply]
  refine point_eq (iblk1 V c 0 t) (iblk1 V c 1 t) (iblk1 V c 2 t)
    (V c (Pipeline.arrRef spec1 0)) (V c (Pipeline.arrRef spec1 1)) (V c (Pipeline.arrRef spec1 2))
    (iblk1 V c 3 t) (V c (Pipeline.arrRef spec1 3)) (iblk1 V c 4 t) (V c (Pipeline.arrRef spec1 4))
    (iblk1 V c 5 t) (V c (Pipeline.arrRef spec1 5)) (iblk1 V c 6 t) (V c (Pipeline.arrRef spec1 6))
    (iblk1 V c 7 t) (V c (Pipeline.arrRef spec1 7)) t.val
    (iblk_rows_0 V c t) (iblk_rows_1 V c t) (iblk_rows_2 V c t)
    (iblk_whole_3 V c t) (iblk_whole_4 V c t) (iblk_whole_5 V c t) (iblk_whole_6 V c t) (iblk_whole_7 V c t)
    ((cfg1.win 8).xinj (grid1.coords t) j) (((cfg1.win 8).blk t).view.emb j) ?_ ?_
  · show win1_8.index t (0 : Fin 2) * 10000 + 1 * (j 0).val = t.val * 10000 + (j 0).val
    rw [e0]; omega
  · show win1_8.index t (1 : Fin 2) * 128 + 1 * (j 1).val = (j 1).val
    rw [e1]; omega

/-- Every row of the result is in some point's block: row r in the block of point r / 10000. -/
theorem cover (i : S100000x128.Idx) :
    ∃ t : Fin cfg1.N, (cfg1.win 8).flush t = true ∧ i ∈ ((cfg1.win 8).blk t).view.set := by
  have hN : grid1.N = 10 := N_1
  have hi0 : (i 0).val < 100000 := (i 0).isLt
  have hi1 : (i 1).val < 128 := (i 1).isLt
  have ht : (i 0).val / 10000 < grid1.N := by rw [hN]; omega
  have e := idx_facts ⟨(i 0).val / 10000, ht⟩
  have e0 : win1_8.index ⟨(i 0).val / 10000, ht⟩ (0 : Fin 2) = (i 0).val / 10000 := e.2.2.2.2.2.2.2.2.2.2.2.2.2.2.2.2.1
  have e1 : win1_8.index ⟨(i 0).val / 10000, ht⟩ (1 : Fin 2) = 0 := e.2.2.2.2.2.2.2.2.2.2.2.2.2.2.2.2.2.1
  refine ⟨⟨(i 0).val / 10000, ht⟩, flush1_8 _, ?_⟩
  show i ∈ ((View.whole main_v95).slice (win1_8.rect ⟨(i 0).val / 10000, ht⟩)).set
  rw [View.set_slice_whole, Rect.mem_set_unit]
  intro a
  match a with
  | ⟨0, _⟩ =>
    show win1_8.index ⟨(i 0).val / 10000, ht⟩ (0 : Fin 2) * 10000 ≤ (i 0).val ∧ (i 0).val < win1_8.index ⟨(i 0).val / 10000, ht⟩ (0 : Fin 2) * 10000 + 10000
    rw [e0]; omega
  | ⟨1, _⟩ =>
    show win1_8.index ⟨(i 0).val / 10000, ht⟩ (1 : Fin 2) * 128 ≤ (i 1).val ∧ (i 1).val < win1_8.index ⟨(i 0).val / 10000, ht⟩ (1 : Fin 2) * 128 + 128
    rw [e1]; omega

end Blocks

end R1

/-- THE RESULT ARRAY of region 1 after its run, from the arrays the region found: the layer of the specification applied to
    the summed-neighbour array, the reciprocal-count column, the node type's own features, the two weight matrices, the bias and
    the two normalisation vectors. Row r of the result depends on row r of the first three and on the whole of the others. -/
theorem region1_value (V : (c : Dev nD) → (b : Ref sig .tc) → Buf (Elt Ideal) ((c : Thread nD τ).loc b)) (c : Dev nD) :
    (dat1 (F := Ideal) V c).arrAt 8 cfg1.N
      = SageSpec.comb (n := 100000) (V c (Pipeline.arrRef spec1 0)) (V c (Pipeline.arrRef spec1 1)) (V c (Pipeline.arrRef spec1 2))
        (V c (Pipeline.arrRef spec1 3)) (V c (Pipeline.arrRef spec1 4)) (V c (Pipeline.arrRef spec1 5))
        (V c (Pipeline.arrRef spec1 6)) (V c (Pipeline.arrRef spec1 7)) :=
  (dat1 (F := Ideal) V c).arrAt_eq_of_cover 8 _ (fun t _ => R1.flushed_eq V c t) R1.cover

end Cert.KernelIdeal.RegionValue

end
-- ==== Proof.RegionValue2.lean ====
/-
  Region 2 of the network: one layer (see the specification module) applied to one node type's arrays.

  The region works on blocks of 10000 consecutive rows. At a point of its grid it reads block t of the summed-neighbour array,
  of the reciprocal-count column and of the node's own features, reads the two weight matrices, the bias and the two
  normalisation vectors whole, and writes block t of the result. A row of the result depends only on the same row of the
  three row-blocked operands, so the block a point writes is the block of the layer applied to the whole arrays, and the ten
  blocks tile the 100000 rows: the result array ends holding the layer of the arrays the region found.
-/
import proofs.«134971_j26482768347335_2_alg».proof.Proof.Gen.KernelIdeal.Frame
import proofs.«134971_j26482768347335_2_alg».proof.Proof.SageSpec
import proofs.«134971_j26482768347335_2_alg».proof.Proof.LibPlainDot
import proofs.«134971_j26482768347335_2_alg».proof.Proof.LibKeepdims
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.ShloMosaic.ValueIdx Idealize.SL.Sem
open Idealize.ShloMosaic.Pipeline (Dat)

namespace Cert.KernelIdeal.RegionValue

open Cert.KernelIdeal Cert.KernelIdeal.Gen

namespace R2

/-! ## The body's arithmetic at an index -/

theorem hz : (![0, 0] : Fin 2 → Nat) = fun _ => 0 := funext fun a => by fin_cases a <;> rfl

/-- The body's two matrix products are plain ones: the left operand's lane axis against the right operand's row axis. -/
theorem plain : PlainDot.IsPlain (M := 10000) (K := 128) (N := 128) dot_S10000x128_S128x128_S10000x128_1_0_0_1_n_n where
  rank := rfl
  size := rfl
  lhs0 := fun i q => by
    unfold DotDims.lhsIdx
    rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
    rfl
  lhs1 := fun i q => dot_S10000x128_S128x128_S10000x128_1_0_0_1_n_n.lhsIdx_val_of_single rfl i q
  rhs0 := fun i q => dot_S10000x128_S128x128_S10000x128_1_0_0_1_n_n.rhsIdx_val_of_single rfl i q
  rhs1 := fun i q => by
    unfold DotDims.rhsIdx
    rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
    rfl

/-- A sum along the 128 lanes with the axis kept, read at row p: the sum over the lanes of row p. -/
theorem rowSum_apply (v : FVec Ideal S10000x128 .f32) (hφ : FKind.Formats .f32) (hacc : (0x00000000#32 : BitVec 32) = 0x00000000#32)
    (p : Fin 10000) (u : Fin 1) :
    shapeCast S10000x1 (multiReduction (F := Ideal) .add [1] S10000 v 0x00000000#32 reduces_S10000x128_S10000 hφ hacc) shapeCasts_S10000_S10000x1 (ix2 p u)
      = ∑ r : Fin 128, v (ix2 p r) := by
  refine (Keepdims.shapeCast_a_a1_apply _ shapeCasts_S10000_S10000x1 p u).trans ?_
  refine (Ideal.multiReduction_add_single v 0x00000000#32 reduces_S10000x128_S10000 hφ hacc (ix1 p)).trans ?_
  refine Finset.sum_congr rfl fun r _ => congrArg v ?_
  funext a
  apply Fin.ext
  match a with
  | ⟨0, _⟩ => rfl
  | ⟨1, _⟩ => rfl

/-- The activation before normalisation, as the body forms it from its loaded blocks. -/
def pre (x0 : Vec Ideal S10000x128 .f32) (x1 : Vec Ideal S10000x1 .f32) (x2 : Vec Ideal S10000x128 .f32) (x3 : Vec Ideal S128x128 .f32)
    (x4 : Vec Ideal S1x128 .f32) (x5 : Vec Ideal S128x128 .f32) : FVec Ideal S10000x128 .f32 :=
  have v1 : FVec Ideal S10000x128 .f32 := shapeCast S10000x128 x0 shapeCasts_S10000x128_S10000x128
  have v3 : FVec Ideal S10000x1 .f32 := shapeCast S10000x1 x1 shapeCasts_S10000x1_S10000x1
  have v5 : FVec Ideal S10000x128 .f32 := broadcastTo S10000x128 v3 broadcasts_S10000x1_S10000x128
  have v6 : FVec Ideal S10000x128 .f32 := mulf v1 v5
  have v8 : FVec Ideal S128x128 .f32 := shapeCast S128x128 x3 shapeCasts_S128x128_S128x128
  have cst : FVec Ideal S10000x128 .f32 := constant (F := Ideal) S10000x128 .f32 0x00000000#32
  have v9 : FVec Ideal S10000x128 .f32 := FloatOps.matmul (F := Ideal) dot_S10000x128_S128x128_S10000x128_1_0_0_1_n_n (some .fp32) v6 v8 cst
  have v11 : FVec Ideal S1x128 .f32 := shapeCast S1x128 x4 shapeCasts_S1x128_S1x128
  have v12 : FVec Ideal S10000x128 .f32 := broadcastTo S10000x128 v11 broadcasts_S1x128_S10000x128
  have v13 : FVec Ideal S10000x128 .f32 := addf v9 v12
  have v15 : FVec Ideal S128x128 .f32 := shapeCast S128x128 x5 shapeCasts_S128x128_S128x128
  have v4 : FVec Ideal S10000x128 .f32 := shapeCast S10000x128 x2 shapeCasts_S10000x128_S10000x128
  have v16 : FVec Ideal S10000x128 .f32 := FloatOps.matmul (F := Ideal) dot_S10000x128_S128x128_S10000x128_1_0_0_1_n_n (some .fp32) v4 v15 cst
  addf v13 v16

/-- At row p and channel r it is the specification's activation: the neighbour sum scaled by the reciprocal count, times the
    left weights, plus the bias, plus the own features times the right weights. -/
theorem pre_apply (x0 : Vec Ideal S10000x128 .f32) (x1 : Vec Ideal S10000x1 .f32) (x2 : Vec Ideal S10000x128 .f32) (x3 : Vec Ideal S128x128 .f32)
    (x4 : Vec Ideal S1x128 .f32) (x5 : Vec Ideal S128x128 .f32) (p : Fin 10000) (r : Fin 128) :
    pre x0 x1 x2 x3 x4 x5 (ix2 p r) = SageSpec.hrow x0 x1 x2 x3 x4 x5 p r := by
  unfold pre SageSpec.hrow
  simp only [shapeCast_self]
  rw [addf_apply, addf_apply, PlainDot.matmul_zero_apply _ plain, PlainDot.matmul_zero_apply _ plain, broadcastTo_1b_ab_apply]
  simp only [mulf_apply, Keepdims.broadcastTo_a1_ab_apply]

/-- The column of row means of an activation array, as the body forms it: the sum along the lanes, the axis kept, over 128. -/
def meanCol (g : FVec Ideal S10000x128 .f32) : FVec Ideal S10000x1 .f32 :=
  divf (shapeCast S10000x1 (multiReduction (F := Ideal) .add [1] S10000 g 0x00000000#32 reduces_S10000x128_S10000 (.inl rfl) rfl) shapeCasts_S10000_S10000x1)
    (broadcast S10000x1 (Scalar.ofBits .f32 0x43000000#32))

/-- An activation array with each row's mean subtracted. -/
def centred (h : FVec Ideal S10000x128 .f32) : FVec Ideal S10000x128 .f32 :=
  subf h (broadcastTo S10000x128 (meanCol h) broadcasts_S10000x1_S10000x128)

/-- The normalisation of the rows of an activation array, as the body forms it: subtract the row's mean, multiply by the
    reciprocal square root of the row's shifted variance (the mean of the squares of the centred row, plus the shift). -/
def normOf (h : FVec Ideal S10000x128 .f32) : FVec Ideal S10000x128 .f32 :=
  mulf (centred h)
    (broadcastTo S10000x128
      (rsqrt (addf (meanCol (mulf (centred h) (centred h))) (broadcast S10000x1 (Scalar.ofBits .f32 0x3727C5AC#32))))
      broadcasts_S10000x1_S10000x128)

/-- The body's normalised activation is that normalisation of the activation. -/
theorem pay2_eq (x0 : Vec Ideal S10000x128 .f32) (x1 : Vec Ideal S10000x1 .f32) (x2 : Vec Ideal S10000x128 .f32) (x3 : Vec Ideal S128x128 .f32)
    (x4 : Vec Ideal S1x128 .f32) (x5 : Vec Ideal S128x128 .f32) :
    k2_pay2 (F := Ideal) x0 x1 x2 x3 x4 x5 = normOf (pre x0 x1 x2 x3 x4 x5) := rfl

theorem rsqrt_apply {s : Shape} (x : FVec Ideal s .f32) (i : s.Idx) : rsqrt x i = Ideal.rsqrt (x i) := rfl

/-- The mean column at row p is the mean of row p. -/
theorem meanCol_apply (g : FVec Ideal S10000x128 .f32) (p : Fin 10000) (u : Fin 1) :
    meanCol g (ix2 p u) = SageSpec.rowMean (fun r => g (ix2 p r)) := by
  unfold meanCol
  show Ideal.div _ (Ideal.ofBits .f32 0x43000000#32) = _
  rw [rowSum_apply]
  rfl

/-- The centred array at row p and channel q. -/
theorem centred_apply (h : FVec Ideal S10000x128 .f32) (p : Fin 10000) (q : Fin 128) :
    centred h (ix2 p q) = h (ix2 p q) - SageSpec.rowMean (fun r => h (ix2 p r)) := by
  unfold centred
  rw [subf_apply, Keepdims.broadcastTo_a1_ab_apply, meanCol_apply]

/-- The normalisation at row p and channel q, in terms of row p alone. -/
theorem normOf_apply (h : FVec Ideal S10000x128 .f32) (p : Fin 10000) (q : Fin 128) :
    normOf h (ix2 p q) = (h (ix2 p q) - SageSpec.rowMean (fun r => h (ix2 p r)))
      * Ideal.rsqrt (Ideal.div (∑ r : Fin 128, (h (ix2 p r) - SageSpec.rowMean (fun r => h (ix2 p r))) * (h (ix2 p r) - SageSpec.rowMean (fun r => h (ix2 p r))))
          SageSpec.c128 + SageSpec.epsv) := by
  unfold normOf
  rw [mulf_apply, centred_apply, Keepdims.broadcastTo_a1_ab_apply, rsqrt_apply, addf_apply, broadcast_apply, meanCol_apply]
  simp only [mulf_apply, centred_apply]
  rfl

/-- The last step of the body at row p and channel q: scale, shift, clamp below at zero. -/
theorem pay1_apply (v35 : FVec Ideal S10000x128 .f32) (v37 : Vec Ideal S1x128 .f32) (v40 : Vec Ideal S1x128 .f32) (p : Fin 10000) (q : Fin 128) :
    k2_pay1 (F := Ideal) v35 v37 v40 (ix2 p q) = max (v35 (ix2 p q) * v37 (ix2 (0 : Fin 1) q) + v40 (ix2 (0 : Fin 1) q)) SageSpec.zerov := by
  unfold k2_pay1
  simp only [shapeCast_self]
  rw [maximumf_apply, addf_apply, mulf_apply, broadcastTo_1b_ab_apply, broadcastTo_1b_ab_apply]
  rfl

/-- WHAT THE BODY LEAVES in the output block, from the eight input blocks: the layer applied to the blocks. -/
theorem out_eq (x0 : Vec Ideal S10000x128 .f32) (x1 : Vec Ideal S10000x1 .f32) (x2 : Vec Ideal S10000x128 .f32) (x3 : Vec Ideal S128x128 .f32)
    (x4 : Vec Ideal S1x128 .f32) (x5 : Vec Ideal S128x128 .f32) (x6 : Vec Ideal S1x128 .f32) (x7 : Vec Ideal S1x128 .f32) :
    out2_8 (F := Ideal) x0 x1 x2 x3 x4 x5 x6 x7 = SageSpec.comb (n := 10000) x0 x1 x2 x3 x4 x5 x6 x7 := by
  unfold out2_8
  rw [View.canon_unit_zero hz]
  simp only [View.ld_unit_zero (S := S10000x128) hz, View.ld_unit_zero (S := S10000x1) hz, View.ld_unit_zero (S := S128x128) hz,
    View.ld_unit_zero (S := S1x128) hz]
  funext j
  obtain ⟨p, q, rfl⟩ : ∃ (p : Fin 10000) (q : Fin 128), j = ix2 p q := ⟨j 0, j 1, eq_ix2 j⟩
  rw [pay1_apply, pay2_eq, normOf_apply, SageSpec.comb_ix2]
  unfold SageSpec.lnrelu
  simp only [pre_apply]

/-! ## From blocks to the array -/

/-- The layer acts row by row: if the three row-blocked operands of a block are rows tv·10000 … of whole arrays, the layer of
    the block at row y is the layer of the whole arrays at row tv·10000 + y. -/
theorem point_eq (B0 : S10000x128.Idx → EReal) (B1 : S10000x1.Idx → EReal) (B2 : S10000x128.Idx → EReal)
    (A0 : S100000x128.Idx → EReal) (A1 : S100000x1.Idx → EReal) (A2 : S100000x128.Idx → EReal)
    (B3 A3 : S128x128.Idx → EReal) (B4 A4 : S1x128.Idx → EReal) (B5 A5 : S128x128.Idx → EReal) (B6 A6 B7 A7 : S1x128.Idx → EReal)
    (tv : Nat)
    (h0 : ∀ (y : S10000x128.Idx) (i : S100000x128.Idx), (i 0).val = tv * 10000 + (y 0).val → (i 1).val = (y 1).val → B0 y = A0 i)
    (h1 : ∀ (y : S10000x1.Idx) (i : S100000x1.Idx), (i 0).val = tv * 10000 + (y 0).val → (i 1).val = (y 1).val → B1 y = A1 i)
    (h2 : ∀ (y : S10000x128.Idx) (i : S100000x128.Idx), (i 0).val = tv * 10000 + (y 0).val → (i 1).val = (y 1).val → B2 y = A2 i)
    (h3 : B3 = A3) (h4 : B4 = A4) (h5 : B5 = A5) (h6 : B6 = A6) (h7 : B7 = A7)
    (y : S10000x128.Idx) (i : S100000x128.Idx) (hi0 : (i 0).val = tv * 10000 + (y 0).val) (hi1 : (i 1).val = (y 1).val) :
    SageSpec.comb (n := 10000) B0 B1 B2 B3 B4 B5 B6 B7 y = SageSpec.comb (n := 100000) A0 A1 A2 A3 A4 A5 A6 A7 i := by
  obtain ⟨p, q, rfl⟩ : ∃ (p : Fin 10000) (q : Fin 128), y = ix2 p q := ⟨y 0, y 1, eq_ix2 y⟩
  obtain ⟨P, Q, rfl⟩ : ∃ (P : Fin 100000) (Q : Fin 128), i = ix2 P Q := ⟨i 0, i 1, eq_ix2 i⟩
  have hQ : Q = q := Fin.ext hi1
  subst hQ h3 h4 h5 h6 h7
  have hP : P.val = tv * 10000 + p.val := hi0
  rw [SageSpec.comb_ix2, SageSpec.comb_ix2]
  have hrow_eq : SageSpec.hrow B0 B1 B2 B3 B4 B5 p = SageSpec.hrow A0 A1 A2 B3 B4 B5 P := by
    funext r
    unfold SageSpec.hrow
    have e0 : ∀ k : Fin 128, B0 (ix2 p k) = A0 (ix2 P k) := fun k => h0 (ix2 p k) (ix2 P k) hP rfl
    have e1 : B1 (ix2 p (0 : Fin 1)) = A1 (ix2 P (0 : Fin 1)) := h1 (ix2 p (0 : Fin 1)) (ix2 P (0 : Fin 1)) hP rfl
    have e2 : ∀ k : Fin 128, B2 (ix2 p k) = A2 (ix2 P k) := fun k => h2 (ix2 p k) (ix2 P k) hP rfl
    simp only [e0, e1, e2]
  rw [hrow_eq]

section Blocks

variable (V : (c : Dev nD) → (b : Ref sig .tc) → Buf (Elt Ideal) ((c : Thread nD τ).loc b))

/-- The printed index maps, decided over the grid: at point t the three row-blocked operands and the result are at block
    (t, 0) and the five whole operands at block (0, 0). -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = 0 ∧ win2_7.index t (1 : Fin 2) = 0
    ∧ win2_8.index t (0 : Fin 2) = t.val ∧ win2_8.index t (1 : Fin 2) = 0 ∧ True :=
  (by decide +kernel : ∀ t : Fin grid2.N, _)

/-! Block t of a row-blocked operand is rows 10000·t … 10000·t + 9999 of its array. -/

theorem iblk_rows_0 (c : Dev nD) (t : Fin cfg2.N) (y : S10000x128.Idx) (i : S100000x128.Idx)
    (h0 : (i 0).val = t.val * 10000 + (y 0).val) (h1 : (i 1).val = (y 1).val) :
    (iblk2 V c 0 t : Vec Ideal S10000x128 .f32) y = (V c (Pipeline.arrRef spec2 0) : S100000x128.Idx → EReal) i := by
  have e := idx_facts t
  have e0 : win2_0.index t (0 : Fin 2) = t.val := e.1
  have e1 : win2_0.index t (1 : Fin 2) = 0 := e.2.1
  unfold iblk2
  rw [View.read_apply]
  refine congrArg (V c (Pipeline.arrRef spec2 0) : S100000x128.Idx → EReal) (funext fun a => Fin.ext ?_)
  match a with
  | ⟨0, _⟩ => show win2_0.index t (0 : Fin 2) * 10000 + 1 * (y 0).val = (i 0).val; rw [e0, h0]; omega
  | ⟨1, _⟩ => show win2_0.index t (1 : Fin 2) * 128 + 1 * (y 1).val = (i 1).val; rw [e1, h1]; omega

theorem iblk_rows_1 (c : Dev nD) (t : Fin cfg2.N) (y : S10000x1.Idx) (i : S100000x1.Idx)
    (h0 : (i 0).val = t.val * 10000 + (y 0).val) (h1 : (i 1).val = (y 1).val) :
    (iblk2 V c 1 t : Vec Ideal S10000x1 .f32) y = (V c (Pipeline.arrRef spec2 1) : S100000x1.Idx → EReal) i := by
  have e := idx_facts t
  have e0 : win2_1.index t (0 : Fin 2) = t.val := e.2.2.1
  have e1 : win2_1.index t (1 : Fin 2) = 0 := e.2.2.2.1
  unfold iblk2
  rw [View.read_apply]
  refine congrArg (V c (Pipeline.arrRef spec2 1) : S100000x1.Idx → EReal) (funext fun a => Fin.ext ?_)
  match a with
  | ⟨0, _⟩ => show win2_1.index t (0 : Fin 2) * 10000 + 1 * (y 0).val = (i 0).val; rw [e0, h0]; omega
  | ⟨1, _⟩ => show win2_1.index t (1 : Fin 2) * 1 + 1 * (y 1).val = (i 1).val; rw [e1, h1]; omega

theorem iblk_rows_2 (c : Dev nD) (t : Fin cfg2.N) (y : S10000x128.Idx) (i : S100000x128.Idx)
    (h0 : (i 0).val = t.val * 10000 + (y 0).val) (h1 : (i 1).val = (y 1).val) :
    (iblk2 V c 2 t : Vec Ideal S10000x128 .f32) y = (V c (Pipeline.arrRef spec2 2) : S100000x128.Idx → EReal) i := by
  have e := idx_facts t
  have e0 : win2_2.index t (0 : Fin 2) = t.val := e.2.2.2.2.1
  have e1 : win2_2.index t (1 : Fin 2) = 0 := e.2.2.2.2.2.1
  unfold iblk2
  rw [View.read_apply]
  refine congrArg (V c (Pipeline.arrRef spec2 2) : S100000x128.Idx → EReal) (funext fun a => Fin.ext ?_)
  match a with
  | ⟨0, _⟩ => show win2_2.index t (0 : Fin 2) * 10000 + 1 * (y 0).val = (i 0).val; rw [e0, h0]; omega
  | ⟨1, _⟩ => show win2_2.index t (1 : Fin 2) * 128 + 1 * (y 1).val = (i 1).val; rw [e1, h1]; omega

/-! The block of an operand read whole is its array, at every point. -/

theorem iblk_whole_3 (c : Dev nD) (t : Fin cfg2.N) :
    (iblk2 V c 3 t : Vec Ideal S128x128 .f32) = (V c (Pipeline.arrRef spec2 3) : S128x128.Idx → EReal) := by
  have e := idx_facts t
  have e0 : win2_3.index t (0 : Fin 2) = 0 := e.2.2.2.2.2.2.1
  have e1 : win2_3.index t (1 : Fin 2) = 0 := e.2.2.2.2.2.2.2.1
  funext y
  unfold iblk2
  rw [View.read_apply]
  refine congrArg (V c (Pipeline.arrRef spec2 3) : S128x128.Idx → EReal) (funext fun a => Fin.ext ?_)
  match a with
  | ⟨0, _⟩ => show win2_3.index t (0 : Fin 2) * 128 + 1 * (y 0).val = (y 0).val; rw [e0]; omega
  | ⟨1, _⟩ => show win2_3.index t (1 : Fin 2) * 128 + 1 * (y 1).val = (y 1).val; rw [e1]; omega

theorem iblk_whole_4 (c : Dev nD) (t : Fin cfg2.N) :
    (iblk2 V c 4 t : Vec Ideal S1x128 .f32) = (V c (Pipeline.arrRef spec2 4) : S1x128.Idx → EReal) := by
  have e := idx_facts t
  have e0 : win2_4.index t (0 : Fin 2) = 0 := e.2.2.2.2.2.2.2.2.1
  have e1 : win2_4.index t (1 : Fin 2) = 0 := e.2.2.2.2.2.2.2.2.2.1
  funext y
  unfold iblk2
  rw [View.read_apply]
  refine congrArg (V c (Pipeline.arrRef spec2 4) : S1x128.Idx → EReal) (funext fun a => Fin.ext ?_)
  match a with
  | ⟨0, _⟩ => show win2_4.index t (0 : Fin 2) * 1 + 1 * (y 0).val = (y 0).val; rw [e0]; omega
  | ⟨1, _⟩ => show win2_4.index t (1 : Fin 2) * 128 + 1 * (y 1).val = (y 1).val; rw [e1]; omega

theorem iblk_whole_5 (c : Dev nD) (t : Fin cfg2.N) :
    (iblk2 V c 5 t : Vec Ideal S128x128 .f32) = (V c (Pipeline.arrRef spec2 5) : S128x128.Idx → EReal) := by
  have e := idx_facts t
  have e0 : win2_5.index t (0 : Fin 2) = 0 := e.2.2.2.2.2.2.2.2.2.2.1
  have e1 : win2_5.index t (1 : Fin 2) = 0 := e.2.2.2.2.2.2.2.2.2.2.2.1
  funext y
  unfold iblk2
  rw [View.read_apply]
  refine congrArg (V c (Pipeline.arrRef spec2 5) : S128x128.Idx → EReal) (funext fun a => Fin.ext ?_)
  match a with
  | ⟨0, _⟩ => show win2_5.index t (0 : Fin 2) * 128 + 1 * (y 0).val = (y 0).val; rw [e0]; omega
  | ⟨1, _⟩ => show win2_5.index t (1 : Fin 2) * 128 + 1 * (y 1).val = (y 1).val; rw [e1]; omega

theorem iblk_whole_6 (c : Dev nD) (t : Fin cfg2.N) :
    (iblk2 V c 6 t : Vec Ideal S1x128 .f32) = (V c (Pipeline.arrRef spec2 6) : S1x128.Idx → EReal) := by
  have e := idx_facts t
  have e0 : win2_6.index t (0 : Fin 2) = 0 := e.2.2.2.2.2.2.2.2.2.2.2.2.1
  have e1 : win2_6.index t (1 : Fin 2) = 0 := e.2.2.2.2.2.2.2.2.2.2.2.2.2.1
  funext y
  unfold iblk2
  rw [View.read_apply]
  refine congrArg (V c (Pipeline.arrRef spec2 6) : S1x128.Idx → EReal) (funext fun a => Fin.ext ?_)
  match a with
  | ⟨0, _⟩ => show win2_6.index t (0 : Fin 2) * 1 + 1 * (y 0).val = (y 0).val; rw [e0]; omega
  | ⟨1, _⟩ => show win2_6.index t (1 : Fin 2) * 128 + 1 * (y 1).val = (y 1).val; rw [e1]; omega

theorem iblk_whole_7 (c : Dev nD) (t : Fin cfg2.N) :
    (iblk2 V c 7 t : Vec Ideal S1x128 .f32) = (V c (Pipeline.arrRef spec2 7) : S1x128.Idx → EReal) := by
  have e := idx_facts t
  have e0 : win2_7.index t (0 : Fin 2) = 0 := e.2.2.2.2.2.2.2.2.2.2.2.2.2.2.1
  have e1 : win2_7.index t (1 : Fin 2) = 0 := e.2.2.2.2.2.2.2.2.2.2.2.2.2.2.2.1
  funext y
  unfold iblk2
  rw [View.read_apply]
  refine congrArg (V c (Pipeline.arrRef spec2 7) : S1x128.Idx → EReal) (funext fun a => Fin.ext ?_)
  match a with
  | ⟨0, _⟩ => show win2_7.index t (0 : Fin 2) * 1 + 1 * (y 0).val = (y 0).val; rw [e0]; omega
  | ⟨1, _⟩ => show win2_7.index t (1 : Fin 2) * 128 + 1 * (y 1).val = (y 1).val; rw [e1]; omega

/-- WHAT POINT t WRITES BACK is block t of the layer of the arrays the region found: rows 10000·t … of the result depend on
    the same rows of the three row-blocked operands, which are what the point's input blocks hold. -/
theorem flushed_eq (c : Dev nD) (t : Fin cfg2.N) :
    (dat2 (F := Ideal) V c).flushed 8 t = ((cfg2.win 8).blk t).view.read (Elt Ideal)
      (SageSpec.comb (n := 100000) (V c (Pipeline.arrRef spec2 0)) (V c (Pipeline.arrRef spec2 1)) (V c (Pipeline.arrRef spec2 2))
        (V c (Pipeline.arrRef spec2 3)) (V c (Pipeline.arrRef spec2 4)) (V c (Pipeline.arrRef spec2 5))
        (V c (Pipeline.arrRef spec2 6)) (V c (Pipeline.arrRef spec2 7))) := by
  show (cfg2.win 8).cut (grid2.coords t) ((dat2 V c).after 8 t) = _
  rw [after2_8]
  rw [out_eq (iblk2 V c 0 t) (iblk2 V c 1 t) (iblk2 V c 2 t) (iblk2 V c 3 t) (iblk2 V c 4 t) (iblk2 V c 5 t) (iblk2 V c 6 t) (iblk2 V c 7 t)]
  have e := idx_facts t
  have e0 : win2_8.index t (0 : Fin 2) = t.val := e.2.2.2.2.2.2.2.2.2.2.2.2.2.2.2.2.1
  have e1 : win2_8.index t (1 : Fin 2) = 0 := e.2.2.2.2.2.2.2.2.2.2.2.2.2.2.2.2.2.1
  funext j
  rw [View.read_apply]
  refine point_eq (iblk2 V c 0 t) (iblk2 V c 1 t) (iblk2 V c 2 t)
    (V c (Pipeline.arrRef spec2 0)) (V c (Pipeline.arrRef spec2 1)) (V c (Pipeline.arrRef spec2 2))
    (iblk2 V c 3 t) (V c (Pipeline.arrRef spec2 3)) (iblk2 V c 4 t) (V c (Pipeline.arrRef spec2 4))
    (iblk2 V c 5 t) (V c (Pipeline.arrRef spec2 5)) (iblk2 V c 6 t) (V c (Pipeline.arrRef spec2 6))
    (iblk2 V c 7 t) (V c (Pipeline.arrRef spec2 7)) t.val
    (iblk_rows_0 V c t) (iblk_rows_1 V c t) (iblk_rows_2 V c t)
    (iblk_whole_3 V c t) (iblk_whole_4 V c t) (iblk_whole_5 V c t) (iblk_whole_6 V c t) (iblk_whole_7 V c t)
    ((cfg2.win 8).xinj (grid2.coords t) j) (((cfg2.win 8).blk t).view.emb j) ?_ ?_
  · show win2_8.index t (0 : Fin 2) * 10000 + 1 * (j 0).val = t.val * 10000 + (j 0).val
    rw [e0]; omega
  · show win2_8.index t (1 : Fin 2) * 128 + 1 * (j 1).val = (j 1).val
    rw [e1]; omega

/-- Every row of the result is in some point's block: row r in the block of point r / 10000. -/
theorem cover (i : S100000x128.Idx) :
    ∃ t : Fin cfg2.N, (cfg2.win 8).flush t = true ∧ i ∈ ((cfg2.win 8).blk t).view.set := by
  have hN : grid2.N = 10 := N_2
  have hi0 : (i 0).val < 100000 := (i 0).isLt
  have hi1 : (i 1).val < 128 := (i 1).isLt
  have ht : (i 0).val / 10000 < grid2.N := by rw [hN]; omega
  have e := idx_facts ⟨(i 0).val / 10000, ht⟩
  have e0 : win2_8.index ⟨(i 0).val / 10000, ht⟩ (0 : Fin 2) = (i 0).val / 10000 := e.2.2.2.2.2.2.2.2.2.2.2.2.2.2.2.2.1
  have e1 : win2_8.index ⟨(i 0).val / 10000, ht⟩ (1 : Fin 2) = 0 := e.2.2.2.2.2.2.2.2.2.2.2.2.2.2.2.2.2.1
  refine ⟨⟨(i 0).val / 10000, ht⟩, flush2_8 _, ?_⟩
  show i ∈ ((View.whole main_v141).slice (win2_8.rect ⟨(i 0).val / 10000, ht⟩)).set
  rw [View.set_slice_whole, Rect.mem_set_unit]
  intro a
  match a with
  | ⟨0, _⟩ =>
    show win2_8.index ⟨(i 0).val / 10000, ht⟩ (0 : Fin 2) * 10000 ≤ (i 0).val ∧ (i 0).val < win2_8.index ⟨(i 0).val / 10000, ht⟩ (0 : Fin 2) * 10000 + 10000
    rw [e0]; omega
  | ⟨1, _⟩ =>
    show win2_8.index ⟨(i 0).val / 10000, ht⟩ (1 : Fin 2) * 128 ≤ (i 1).val ∧ (i 1).val < win2_8.index ⟨(i 0).val / 10000, ht⟩ (1 : Fin 2) * 128 + 128
    rw [e1]; omega

end Blocks

end R2

/-- THE RESULT ARRAY of region 2 after its run, from the arrays the region found: the layer of the specification applied to
    the summed-neighbour array, the reciprocal-count column, the node type's own features, the two weight matrices, the bias and
    the two normalisation vectors. Row r of the result depends on row r of the first three and on the whole of the others. -/
theorem region2_value (V : (c : Dev nD) → (b : Ref sig .tc) → Buf (Elt Ideal) ((c : Thread nD τ).loc b)) (c : Dev nD) :
    (dat2 (F := Ideal) V c).arrAt 8 cfg2.N
      = SageSpec.comb (n := 100000) (V c (Pipeline.arrRef spec2 0)) (V c (Pipeline.arrRef spec2 1)) (V c (Pipeline.arrRef spec2 2))
        (V c (Pipeline.arrRef spec2 3)) (V c (Pipeline.arrRef spec2 4)) (V c (Pipeline.arrRef spec2 5))
        (V c (Pipeline.arrRef spec2 6)) (V c (Pipeline.arrRef spec2 7)) :=
  (dat2 (F := Ideal) V c).arrAt_eq_of_cover 8 _ (fun t _ => R2.flushed_eq V c t) R2.cover

end Cert.KernelIdeal.RegionValue

end
-- ==== Proof.RegionValue3.lean ====
/-
  Region 3 of the network: one layer (see the specification module) applied to one node type's arrays.

  The region works on blocks of 10000 consecutive rows. At a point of its grid it reads block t of the summed-neighbour array,
  of the reciprocal-count column and of the node's own features, reads the two weight matrices, the bias and the two
  normalisation vectors whole, and writes block t of the result. A row of the result depends only on the same row of the
  three row-blocked operands, so the block a point writes is the block of the layer applied to the whole arrays, and the ten
  blocks tile the 100000 rows: the result array ends holding the layer of the arrays the region found.
-/
import proofs.«134971_j26482768347335_2_alg».proof.Proof.Gen.KernelIdeal.Frame
import proofs.«134971_j26482768347335_2_alg».proof.Proof.SageSpec
import proofs.«134971_j26482768347335_2_alg».proof.Proof.LibPlainDot
import proofs.«134971_j26482768347335_2_alg».proof.Proof.LibKeepdims
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.ShloMosaic.ValueIdx Idealize.SL.Sem
open Idealize.ShloMosaic.Pipeline (Dat)

namespace Cert.KernelIdeal.RegionValue

open Cert.KernelIdeal Cert.KernelIdeal.Gen

namespace R3

/-! ## The body's arithmetic at an index -/

theorem hz : (![0, 0] : Fin 2 → Nat) = fun _ => 0 := funext fun a => by fin_cases a <;> rfl

/-- The body's two matrix products are plain ones: the left operand's lane axis against the right operand's row axis. -/
theorem plain : PlainDot.IsPlain (M := 10000) (K := 128) (N := 128) dot_S10000x128_S128x128_S10000x128_1_0_0_1_n_n where
  rank := rfl
  size := rfl
  lhs0 := fun i q => by
    unfold DotDims.lhsIdx
    rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
    rfl
  lhs1 := fun i q => dot_S10000x128_S128x128_S10000x128_1_0_0_1_n_n.lhsIdx_val_of_single rfl i q
  rhs0 := fun i q => dot_S10000x128_S128x128_S10000x128_1_0_0_1_n_n.rhsIdx_val_of_single rfl i q
  rhs1 := fun i q => by
    unfold DotDims.rhsIdx
    rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
    rfl

/-- A sum along the 128 lanes with the axis kept, read at row p: the sum over the lanes of row p. -/
theorem rowSum_apply (v : FVec Ideal S10000x128 .f32) (hφ : FKind.Formats .f32) (hacc : (0x00000000#32 : BitVec 32) = 0x00000000#32)
    (p : Fin 10000) (u : Fin 1) :
    shapeCast S10000x1 (multiReduction (F := Ideal) .add [1] S10000 v 0x00000000#32 reduces_S10000x128_S10000 hφ hacc) shapeCasts_S10000_S10000x1 (ix2 p u)
      = ∑ r : Fin 128, v (ix2 p r) := by
  refine (Keepdims.shapeCast_a_a1_apply _ shapeCasts_S10000_S10000x1 p u).trans ?_
  refine (Ideal.multiReduction_add_single v 0x00000000#32 reduces_S10000x128_S10000 hφ hacc (ix1 p)).trans ?_
  refine Finset.sum_congr rfl fun r _ => congrArg v ?_
  funext a
  apply Fin.ext
  match a with
  | ⟨0, _⟩ => rfl
  | ⟨1, _⟩ => rfl

/-- The activation before normalisation, as the body forms it from its loaded blocks. -/
def pre (x0 : Vec Ideal S10000x128 .f32) (x1 : Vec Ideal S10000x1 .f32) (x2 : Vec Ideal S10000x128 .f32) (x3 : Vec Ideal S128x128 .f32)
    (x4 : Vec Ideal S1x128 .f32) (x5 : Vec Ideal S128x128 .f32) : FVec Ideal S10000x128 .f32 :=
  have v1 : FVec Ideal S10000x128 .f32 := shapeCast S10000x128 x0 shapeCasts_S10000x128_S10000x128
  have v3 : FVec Ideal S10000x1 .f32 := shapeCast S10000x1 x1 shapeCasts_S10000x1_S10000x1
  have v5 : FVec Ideal S10000x128 .f32 := broadcastTo S10000x128 v3 broadcasts_S10000x1_S10000x128
  have v6 : FVec Ideal S10000x128 .f32 := mulf v1 v5
  have v8 : FVec Ideal S128x128 .f32 := shapeCast S128x128 x3 shapeCasts_S128x128_S128x128
  have cst : FVec Ideal S10000x128 .f32 := constant (F := Ideal) S10000x128 .f32 0x00000000#32
  have v9 : FVec Ideal S10000x128 .f32 := FloatOps.matmul (F := Ideal) dot_S10000x128_S128x128_S10000x128_1_0_0_1_n_n (some .fp32) v6 v8 cst
  have v11 : FVec Ideal S1x128 .f32 := shapeCast S1x128 x4 shapeCasts_S1x128_S1x128
  have v12 : FVec Ideal S10000x128 .f32 := broadcastTo S10000x128 v11 broadcasts_S1x128_S10000x128
  have v13 : FVec Ideal S10000x128 .f32 := addf v9 v12
  have v15 : FVec Ideal S128x128 .f32 := shapeCast S128x128 x5 shapeCasts_S128x128_S128x128
  have v4 : FVec Ideal S10000x128 .f32 := shapeCast S10000x128 x2 shapeCasts_S10000x128_S10000x128
  have v16 : FVec Ideal S10000x128 .f32 := FloatOps.matmul (F := Ideal) dot_S10000x128_S128x128_S10000x128_1_0_0_1_n_n (some .fp32) v4 v15 cst
  addf v13 v16

/-- At row p and channel r it is the specification's activation: the neighbour sum scaled by the reciprocal count, times the
    left weights, plus the bias, plus the own features times the right weights. -/
theorem pre_apply (x0 : Vec Ideal S10000x128 .f32) (x1 : Vec Ideal S10000x1 .f32) (x2 : Vec Ideal S10000x128 .f32) (x3 : Vec Ideal S128x128 .f32)
    (x4 : Vec Ideal S1x128 .f32) (x5 : Vec Ideal S128x128 .f32) (p : Fin 10000) (r : Fin 128) :
    pre x0 x1 x2 x3 x4 x5 (ix2 p r) = SageSpec.hrow x0 x1 x2 x3 x4 x5 p r := by
  unfold pre SageSpec.hrow
  simp only [shapeCast_self]
  rw [addf_apply, addf_apply, PlainDot.matmul_zero_apply _ plain, PlainDot.matmul_zero_apply _ plain, broadcastTo_1b_ab_apply]
  simp only [mulf_apply, Keepdims.broadcastTo_a1_ab_apply]

/-- The column of row means of an activation array, as the body forms it: the sum along the lanes, the axis kept, over 128. -/
def meanCol (g : FVec Ideal S10000x128 .f32) : FVec Ideal S10000x1 .f32 :=
  divf (shapeCast S10000x1 (multiReduction (F := Ideal) .add [1] S10000 g 0x00000000#32 reduces_S10000x128_S10000 (.inl rfl) rfl) shapeCasts_S10000_S10000x1)
    (broadcast S10000x1 (Scalar.ofBits .f32 0x43000000#32))

/-- An activation array with each row's mean subtracted. -/
def centred (h : FVec Ideal S10000x128 .f32) : FVec Ideal S10000x128 .f32 :=
  subf h (broadcastTo S10000x128 (meanCol h) broadcasts_S10000x1_S10000x128)

/-- The normalisation of the rows of an activation array, as the body forms it: subtract the row's mean, multiply by the
    reciprocal square root of the row's shifted variance (the mean of the squares of the centred row, plus the shift). -/
def normOf (h : FVec Ideal S10000x128 .f32) : FVec Ideal S10000x128 .f32 :=
  mulf (centred h)
    (broadcastTo S10000x128
      (rsqrt (addf (meanCol (mulf (centred h) (centred h))) (broadcast S10000x1 (Scalar.ofBits .f32 0x3727C5AC#32))))
      broadcasts_S10000x1_S10000x128)

/-- The body's normalised activation is that normalisation of the activation. -/
theorem pay2_eq (x0 : Vec Ideal S10000x128 .f32) (x1 : Vec Ideal S10000x1 .f32) (x2 : Vec Ideal S10000x128 .f32) (x3 : Vec Ideal S128x128 .f32)
    (x4 : Vec Ideal S1x128 .f32) (x5 : Vec Ideal S128x128 .f32) :
    k3_pay2 (F := Ideal) x0 x1 x2 x3 x4 x5 = normOf (pre x0 x1 x2 x3 x4 x5) := rfl

theorem rsqrt_apply {s : Shape} (x : FVec Ideal s .f32) (i : s.Idx) : rsqrt x i = Ideal.rsqrt (x i) := rfl

/-- The mean column at row p is the mean of row p. -/
theorem meanCol_apply (g : FVec Ideal S10000x128 .f32) (p : Fin 10000) (u : Fin 1) :
    meanCol g (ix2 p u) = SageSpec.rowMean (fun r => g (ix2 p r)) := by
  unfold meanCol
  show Ideal.div _ (Ideal.ofBits .f32 0x43000000#32) = _
  rw [rowSum_apply]
  rfl

/-- The centred array at row p and channel q. -/
theorem centred_apply (h : FVec Ideal S10000x128 .f32) (p : Fin 10000) (q : Fin 128) :
    centred h (ix2 p q) = h (ix2 p q) - SageSpec.rowMean (fun r => h (ix2 p r)) := by
  unfold centred
  rw [subf_apply, Keepdims.broadcastTo_a1_ab_apply, meanCol_apply]

/-- The normalisation at row p and channel q, in terms of row p alone. -/
theorem normOf_apply (h : FVec Ideal S10000x128 .f32) (p : Fin 10000) (q : Fin 128) :
    normOf h (ix2 p q) = (h (ix2 p q) - SageSpec.rowMean (fun r => h (ix2 p r)))
      * Ideal.rsqrt (Ideal.div (∑ r : Fin 128, (h (ix2 p r) - SageSpec.rowMean (fun r => h (ix2 p r))) * (h (ix2 p r) - SageSpec.rowMean (fun r => h (ix2 p r))))
          SageSpec.c128 + SageSpec.epsv) := by
  unfold normOf
  rw [mulf_apply, centred_apply, Keepdims.broadcastTo_a1_ab_apply, rsqrt_apply, addf_apply, broadcast_apply, meanCol_apply]
  simp only [mulf_apply, centred_apply]
  rfl

/-- The last step of the body at row p and channel q: scale, shift, clamp below at zero. -/
theorem pay1_apply (v35 : FVec Ideal S10000x128 .f32) (v37 : Vec Ideal S1x128 .f32) (v40 : Vec Ideal S1x128 .f32) (p : Fin 10000) (q : Fin 128) :
    k3_pay1 (F := Ideal) v35 v37 v40 (ix2 p q) = max (v35 (ix2 p q) * v37 (ix2 (0 : Fin 1) q) + v40 (ix2 (0 : Fin 1) q)) SageSpec.zerov := by
  unfold k3_pay1
  simp only [shapeCast_self]
  rw [maximumf_apply, addf_apply, mulf_apply, broadcastTo_1b_ab_apply, broadcastTo_1b_ab_apply]
  rfl

/-- WHAT THE BODY LEAVES in the output block, from the eight input blocks: the layer applied to the blocks. -/
theorem out_eq (x0 : Vec Ideal S10000x128 .f32) (x1 : Vec Ideal S10000x1 .f32) (x2 : Vec Ideal S10000x128 .f32) (x3 : Vec Ideal S128x128 .f32)
    (x4 : Vec Ideal S1x128 .f32) (x5 : Vec Ideal S128x128 .f32) (x6 : Vec Ideal S1x128 .f32) (x7 : Vec Ideal S1x128 .f32) :
    out3_8 (F := Ideal) x0 x1 x2 x3 x4 x5 x6 x7 = SageSpec.comb (n := 10000) x0 x1 x2 x3 x4 x5 x6 x7 := by
  unfold out3_8
  rw [View.canon_unit_zero hz]
  simp only [View.ld_unit_zero (S := S10000x128) hz, View.ld_unit_zero (S := S10000x1) hz, View.ld_unit_zero (S := S128x128) hz,
    View.ld_unit_zero (S := S1x128) hz]
  funext j
  obtain ⟨p, q, rfl⟩ : ∃ (p : Fin 10000) (q : Fin 128), j = ix2 p q := ⟨j 0, j 1, eq_ix2 j⟩
  rw [pay1_apply, pay2_eq, normOf_apply, SageSpec.comb_ix2]
  unfold SageSpec.lnrelu
  simp only [pre_apply]

/-! ## From blocks to the array -/

/-- The layer acts row by row: if the three row-blocked operands of a block are rows tv·10000 … of whole arrays, the layer of
    the block at row y is the layer of the whole arrays at row tv·10000 + y. -/
theorem point_eq (B0 : S10000x128.Idx → EReal) (B1 : S10000x1.Idx → EReal) (B2 : S10000x128.Idx → EReal)
    (A0 : S100000x128.Idx → EReal) (A1 : S100000x1.Idx → EReal) (A2 : S100000x128.Idx → EReal)
    (B3 A3 : S128x128.Idx → EReal) (B4 A4 : S1x128.Idx → EReal) (B5 A5 : S128x128.Idx → EReal) (B6 A6 B7 A7 : S1x128.Idx → EReal)
    (tv : Nat)
    (h0 : ∀ (y : S10000x128.Idx) (i : S100000x128.Idx), (i 0).val = tv * 10000 + (y 0).val → (i 1).val = (y 1).val → B0 y = A0 i)
    (h1 : ∀ (y : S10000x1.Idx) (i : S100000x1.Idx), (i 0).val = tv * 10000 + (y 0).val → (i 1).val = (y 1).val → B1 y = A1 i)
    (h2 : ∀ (y : S10000x128.Idx) (i : S100000x128.Idx), (i 0).val = tv * 10000 + (y 0).val → (i 1).val = (y 1).val → B2 y = A2 i)
    (h3 : B3 = A3) (h4 : B4 = A4) (h5 : B5 = A5) (h6 : B6 = A6) (h7 : B7 = A7)
    (y : S10000x128.Idx) (i : S100000x128.Idx) (hi0 : (i 0).val = tv * 10000 + (y 0).val) (hi1 : (i 1).val = (y 1).val) :
    SageSpec.comb (n := 10000) B0 B1 B2 B3 B4 B5 B6 B7 y = SageSpec.comb (n := 100000) A0 A1 A2 A3 A4 A5 A6 A7 i := by
  obtain ⟨p, q, rfl⟩ : ∃ (p : Fin 10000) (q : Fin 128), y = ix2 p q := ⟨y 0, y 1, eq_ix2 y⟩
  obtain ⟨P, Q, rfl⟩ : ∃ (P : Fin 100000) (Q : Fin 128), i = ix2 P Q := ⟨i 0, i 1, eq_ix2 i⟩
  have hQ : Q = q := Fin.ext hi1
  subst hQ h3 h4 h5 h6 h7
  have hP : P.val = tv * 10000 + p.val := hi0
  rw [SageSpec.comb_ix2, SageSpec.comb_ix2]
  have hrow_eq : SageSpec.hrow B0 B1 B2 B3 B4 B5 p = SageSpec.hrow A0 A1 A2 B3 B4 B5 P := by
    funext r
    unfold SageSpec.hrow
    have e0 : ∀ k : Fin 128, B0 (ix2 p k) = A0 (ix2 P k) := fun k => h0 (ix2 p k) (ix2 P k) hP rfl
    have e1 : B1 (ix2 p (0 : Fin 1)) = A1 (ix2 P (0 : Fin 1)) := h1 (ix2 p (0 : Fin 1)) (ix2 P (0 : Fin 1)) hP rfl
    have e2 : ∀ k : Fin 128, B2 (ix2 p k) = A2 (ix2 P k) := fun k => h2 (ix2 p k) (ix2 P k) hP rfl
    simp only [e0, e1, e2]
  rw [hrow_eq]

section Blocks

variable (V : (c : Dev nD) → (b : Ref sig .tc) → Buf (Elt Ideal) ((c : Thread nD τ).loc b))

/-- The printed index maps, decided over the grid: at point t the three row-blocked operands and the result are at block
    (t, 0) and the five whole operands at block (0, 0). -/
theorem idx_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = 0 ∧ win3_6.index t (1 : Fin 2) = 0
    ∧ win3_7.index t (0 : Fin 2) = 0 ∧ win3_7.index t (1 : Fin 2) = 0
    ∧ win3_8.index t (0 : Fin 2) = t.val ∧ win3_8.index t (1 : Fin 2) = 0 ∧ True :=
  (by decide +kernel : ∀ t : Fin grid3.N, _)

/-! Block t of a row-blocked operand is rows 10000·t … 10000·t + 9999 of its array. -/

theorem iblk_rows_0 (c : Dev nD) (t : Fin cfg3.N) (y : S10000x128.Idx) (i : S100000x128.Idx)
    (h0 : (i 0).val = t.val * 10000 + (y 0).val) (h1 : (i 1).val = (y 1).val) :
    (iblk3 V c 0 t : Vec Ideal S10000x128 .f32) y = (V c (Pipeline.arrRef spec3 0) : S100000x128.Idx → EReal) i := by
  have e := idx_facts t
  have e0 : win3_0.index t (0 : Fin 2) = t.val := e.1
  have e1 : win3_0.index t (1 : Fin 2) = 0 := e.2.1
  unfold iblk3
  rw [View.read_apply]
  refine congrArg (V c (Pipeline.arrRef spec3 0) : S100000x128.Idx → EReal) (funext fun a => Fin.ext ?_)
  match a with
  | ⟨0, _⟩ => show win3_0.index t (0 : Fin 2) * 10000 + 1 * (y 0).val = (i 0).val; rw [e0, h0]; omega
  | ⟨1, _⟩ => show win3_0.index t (1 : Fin 2) * 128 + 1 * (y 1).val = (i 1).val; rw [e1, h1]; omega

theorem iblk_rows_1 (c : Dev nD) (t : Fin cfg3.N) (y : S10000x1.Idx) (i : S100000x1.Idx)
    (h0 : (i 0).val = t.val * 10000 + (y 0).val) (h1 : (i 1).val = (y 1).val) :
    (iblk3 V c 1 t : Vec Ideal S10000x1 .f32) y = (V c (Pipeline.arrRef spec3 1) : S100000x1.Idx → EReal) i := by
  have e := idx_facts t
  have e0 : win3_1.index t (0 : Fin 2) = t.val := e.2.2.1
  have e1 : win3_1.index t (1 : Fin 2) = 0 := e.2.2.2.1
  unfold iblk3
  rw [View.read_apply]
  refine congrArg (V c (Pipeline.arrRef spec3 1) : S100000x1.Idx → EReal) (funext fun a => Fin.ext ?_)
  match a with
  | ⟨0, _⟩ => show win3_1.index t (0 : Fin 2) * 10000 + 1 * (y 0).val = (i 0).val; rw [e0, h0]; omega
  | ⟨1, _⟩ => show win3_1.index t (1 : Fin 2) * 1 + 1 * (y 1).val = (i 1).val; rw [e1, h1]; omega

theorem iblk_rows_2 (c : Dev nD) (t : Fin cfg3.N) (y : S10000x128.Idx) (i : S100000x128.Idx)
    (h0 : (i 0).val = t.val * 10000 + (y 0).val) (h1 : (i 1).val = (y 1).val) :
    (iblk3 V c 2 t : Vec Ideal S10000x128 .f32) y = (V c (Pipeline.arrRef spec3 2) : S100000x128.Idx → EReal) i := by
  have e := idx_facts t
  have e0 : win3_2.index t (0 : Fin 2) = t.val := e.2.2.2.2.1
  have e1 : win3_2.index t (1 : Fin 2) = 0 := e.2.2.2.2.2.1
  unfold iblk3
  rw [View.read_apply]
  refine congrArg (V c (Pipeline.arrRef spec3 2) : S100000x128.Idx → EReal) (funext fun a => Fin.ext ?_)
  match a with
  | ⟨0, _⟩ => show win3_2.index t (0 : Fin 2) * 10000 + 1 * (y 0).val = (i 0).val; rw [e0, h0]; omega
  | ⟨1, _⟩ => show win3_2.index t (1 : Fin 2) * 128 + 1 * (y 1).val = (i 1).val; rw [e1, h1]; omega

/-! The block of an operand read whole is its array, at every point. -/

theorem iblk_whole_3 (c : Dev nD) (t : Fin cfg3.N) :
    (iblk3 V c 3 t : Vec Ideal S128x128 .f32) = (V c (Pipeline.arrRef spec3 3) : S128x128.Idx → EReal) := by
  have e := idx_facts t
  have e0 : win3_3.index t (0 : Fin 2) = 0 := e.2.2.2.2.2.2.1
  have e1 : win3_3.index t (1 : Fin 2) = 0 := e.2.2.2.2.2.2.2.1
  funext y
  unfold iblk3
  rw [View.read_apply]
  refine congrArg (V c (Pipeline.arrRef spec3 3) : S128x128.Idx → EReal) (funext fun a => Fin.ext ?_)
  match a with
  | ⟨0, _⟩ => show win3_3.index t (0 : Fin 2) * 128 + 1 * (y 0).val = (y 0).val; rw [e0]; omega
  | ⟨1, _⟩ => show win3_3.index t (1 : Fin 2) * 128 + 1 * (y 1).val = (y 1).val; rw [e1]; omega

theorem iblk_whole_4 (c : Dev nD) (t : Fin cfg3.N) :
    (iblk3 V c 4 t : Vec Ideal S1x128 .f32) = (V c (Pipeline.arrRef spec3 4) : S1x128.Idx → EReal) := by
  have e := idx_facts t
  have e0 : win3_4.index t (0 : Fin 2) = 0 := e.2.2.2.2.2.2.2.2.1
  have e1 : win3_4.index t (1 : Fin 2) = 0 := e.2.2.2.2.2.2.2.2.2.1
  funext y
  unfold iblk3
  rw [View.read_apply]
  refine congrArg (V c (Pipeline.arrRef spec3 4) : S1x128.Idx → EReal) (funext fun a => Fin.ext ?_)
  match a with
  | ⟨0, _⟩ => show win3_4.index t (0 : Fin 2) * 1 + 1 * (y 0).val = (y 0).val; rw [e0]; omega
  | ⟨1, _⟩ => show win3_4.index t (1 : Fin 2) * 128 + 1 * (y 1).val = (y 1).val; rw [e1]; omega

theorem iblk_whole_5 (c : Dev nD) (t : Fin cfg3.N) :
    (iblk3 V c 5 t : Vec Ideal S128x128 .f32) = (V c (Pipeline.arrRef spec3 5) : S128x128.Idx → EReal) := by
  have e := idx_facts t
  have e0 : win3_5.index t (0 : Fin 2) = 0 := e.2.2.2.2.2.2.2.2.2.2.1
  have e1 : win3_5.index t (1 : Fin 2) = 0 := e.2.2.2.2.2.2.2.2.2.2.2.1
  funext y
  unfold iblk3
  rw [View.read_apply]
  refine congrArg (V c (Pipeline.arrRef spec3 5) : S128x128.Idx → EReal) (funext fun a => Fin.ext ?_)
  match a with
  | ⟨0, _⟩ => show win3_5.index t (0 : Fin 2) * 128 + 1 * (y 0).val = (y 0).val; rw [e0]; omega
  | ⟨1, _⟩ => show win3_5.index t (1 : Fin 2) * 128 + 1 * (y 1).val = (y 1).val; rw [e1]; omega

theorem iblk_whole_6 (c : Dev nD) (t : Fin cfg3.N) :
    (iblk3 V c 6 t : Vec Ideal S1x128 .f32) = (V c (Pipeline.arrRef spec3 6) : S1x128.Idx → EReal) := by
  have e := idx_facts t
  have e0 : win3_6.index t (0 : Fin 2) = 0 := e.2.2.2.2.2.2.2.2.2.2.2.2.1
  have e1 : win3_6.index t (1 : Fin 2) = 0 := e.2.2.2.2.2.2.2.2.2.2.2.2.2.1
  funext y
  unfold iblk3
  rw [View.read_apply]
  refine congrArg (V c (Pipeline.arrRef spec3 6) : S1x128.Idx → EReal) (funext fun a => Fin.ext ?_)
  match a with
  | ⟨0, _⟩ => show win3_6.index t (0 : Fin 2) * 1 + 1 * (y 0).val = (y 0).val; rw [e0]; omega
  | ⟨1, _⟩ => show win3_6.index t (1 : Fin 2) * 128 + 1 * (y 1).val = (y 1).val; rw [e1]; omega

theorem iblk_whole_7 (c : Dev nD) (t : Fin cfg3.N) :
    (iblk3 V c 7 t : Vec Ideal S1x128 .f32) = (V c (Pipeline.arrRef spec3 7) : S1x128.Idx → EReal) := by
  have e := idx_facts t
  have e0 : win3_7.index t (0 : Fin 2) = 0 := e.2.2.2.2.2.2.2.2.2.2.2.2.2.2.1
  have e1 : win3_7.index t (1 : Fin 2) = 0 := e.2.2.2.2.2.2.2.2.2.2.2.2.2.2.2.1
  funext y
  unfold iblk3
  rw [View.read_apply]
  refine congrArg (V c (Pipeline.arrRef spec3 7) : S1x128.Idx → EReal) (funext fun a => Fin.ext ?_)
  match a with
  | ⟨0, _⟩ => show win3_7.index t (0 : Fin 2) * 1 + 1 * (y 0).val = (y 0).val; rw [e0]; omega
  | ⟨1, _⟩ => show win3_7.index t (1 : Fin 2) * 128 + 1 * (y 1).val = (y 1).val; rw [e1]; omega

/-- WHAT POINT t WRITES BACK is block t of the layer of the arrays the region found: rows 10000·t … of the result depend on
    the same rows of the three row-blocked operands, which are what the point's input blocks hold. -/
theorem flushed_eq (c : Dev nD) (t : Fin cfg3.N) :
    (dat3 (F := Ideal) V c).flushed 8 t = ((cfg3.win 8).blk t).view.read (Elt Ideal)
      (SageSpec.comb (n := 100000) (V c (Pipeline.arrRef spec3 0)) (V c (Pipeline.arrRef spec3 1)) (V c (Pipeline.arrRef spec3 2))
        (V c (Pipeline.arrRef spec3 3)) (V c (Pipeline.arrRef spec3 4)) (V c (Pipeline.arrRef spec3 5))
        (V c (Pipeline.arrRef spec3 6)) (V c (Pipeline.arrRef spec3 7))) := by
  show (cfg3.win 8).cut (grid3.coords t) ((dat3 V c).after 8 t) = _
  rw [after3_8]
  rw [out_eq (iblk3 V c 0 t) (iblk3 V c 1 t) (iblk3 V c 2 t) (iblk3 V c 3 t) (iblk3 V c 4 t) (iblk3 V c 5 t) (iblk3 V c 6 t) (iblk3 V c 7 t)]
  have e := idx_facts t
  have e0 : win3_8.index t (0 : Fin 2) = t.val := e.2.2.2.2.2.2.2.2.2.2.2.2.2.2.2.2.1
  have e1 : win3_8.index t (1 : Fin 2) = 0 := e.2.2.2.2.2.2.2.2.2.2.2.2.2.2.2.2.2.1
  funext j
  rw [View.read_apply]
  refine point_eq (iblk3 V c 0 t) (iblk3 V c 1 t) (iblk3 V c 2 t)
    (V c (Pipeline.arrRef spec3 0)) (V c (Pipeline.arrRef spec3 1)) (V c (Pipeline.arrRef spec3 2))
    (iblk3 V c 3 t) (V c (Pipeline.arrRef spec3 3)) (iblk3 V c 4 t) (V c (Pipeline.arrRef spec3 4))
    (iblk3 V c 5 t) (V c (Pipeline.arrRef spec3 5)) (iblk3 V c 6 t) (V c (Pipeline.arrRef spec3 6))
    (iblk3 V c 7 t) (V c (Pipeline.arrRef spec3 7)) t.val
    (iblk_rows_0 V c t) (iblk_rows_1 V c t) (iblk_rows_2 V c t)
    (iblk_whole_3 V c t) (iblk_whole_4 V c t) (iblk_whole_5 V c t) (iblk_whole_6 V c t) (iblk_whole_7 V c t)
    ((cfg3.win 8).xinj (grid3.coords t) j) (((cfg3.win 8).blk t).view.emb j) ?_ ?_
  · show win3_8.index t (0 : Fin 2) * 10000 + 1 * (j 0).val = t.val * 10000 + (j 0).val
    rw [e0]; omega
  · show win3_8.index t (1 : Fin 2) * 128 + 1 * (j 1).val = (j 1).val
    rw [e1]; omega

/-- Every row of the result is in some point's block: row r in the block of point r / 10000. -/
theorem cover (i : S100000x128.Idx) :
    ∃ t : Fin cfg3.N, (cfg3.win 8).flush t = true ∧ i ∈ ((cfg3.win 8).blk t).view.set := by
  have hN : grid3.N = 10 := N_3
  have hi0 : (i 0).val < 100000 := (i 0).isLt
  have hi1 : (i 1).val < 128 := (i 1).isLt
  have ht : (i 0).val / 10000 < grid3.N := by rw [hN]; omega
  have e := idx_facts ⟨(i 0).val / 10000, ht⟩
  have e0 : win3_8.index ⟨(i 0).val / 10000, ht⟩ (0 : Fin 2) = (i 0).val / 10000 := e.2.2.2.2.2.2.2.2.2.2.2.2.2.2.2.2.1
  have e1 : win3_8.index ⟨(i 0).val / 10000, ht⟩ (1 : Fin 2) = 0 := e.2.2.2.2.2.2.2.2.2.2.2.2.2.2.2.2.2.1
  refine ⟨⟨(i 0).val / 10000, ht⟩, flush3_8 _, ?_⟩
  show i ∈ ((View.whole main_v157).slice (win3_8.rect ⟨(i 0).val / 10000, ht⟩)).set
  rw [View.set_slice_whole, Rect.mem_set_unit]
  intro a
  match a with
  | ⟨0, _⟩ =>
    show win3_8.index ⟨(i 0).val / 10000, ht⟩ (0 : Fin 2) * 10000 ≤ (i 0).val ∧ (i 0).val < win3_8.index ⟨(i 0).val / 10000, ht⟩ (0 : Fin 2) * 10000 + 10000
    rw [e0]; omega
  | ⟨1, _⟩ =>
    show win3_8.index ⟨(i 0).val / 10000, ht⟩ (1 : Fin 2) * 128 ≤ (i 1).val ∧ (i 1).val < win3_8.index ⟨(i 0).val / 10000, ht⟩ (1 : Fin 2) * 128 + 128
    rw [e1]; omega

end Blocks

end R3

/-- THE RESULT ARRAY of region 3 after its run, from the arrays the region found: the layer of the specification applied to
    the summed-neighbour array, the reciprocal-count column, the node type's own features, the two weight matrices, the bias and
    the two normalisation vectors. Row r of the result depends on row r of the first three and on the whole of the others. -/
theorem region3_value (V : (c : Dev nD) → (b : Ref sig .tc) → Buf (Elt Ideal) ((c : Thread nD τ).loc b)) (c : Dev nD) :
    (dat3 (F := Ideal) V c).arrAt 8 cfg3.N
      = SageSpec.comb (n := 100000) (V c (Pipeline.arrRef spec3 0)) (V c (Pipeline.arrRef spec3 1)) (V c (Pipeline.arrRef spec3 2))
        (V c (Pipeline.arrRef spec3 3)) (V c (Pipeline.arrRef spec3 4)) (V c (Pipeline.arrRef spec3 5))
        (V c (Pipeline.arrRef spec3 6)) (V c (Pipeline.arrRef spec3 7)) :=
  (dat3 (F := Ideal) V c).arrAt_eq_of_cover 8 _ (fun t _ => R3.flushed_eq V c t) R3.cover

end Cert.KernelIdeal.RegionValue

end
-- ==== Proof.KernelChain.lean ====
/-
  The idealized kernel's two results as closed functions of the argument arrays.

  @main is eight segments: a stretch of host operations, then a region, four times over. Walking the memory through them,
  every buffer that matters is followed from the launch to the segment that reads it: a host stretch rewrites its own result
  buffers and leaves the rest; a region rewrites its output array to the layer function `SageSpec.comb` of its eight operand
  arrays as it found them, and leaves every other buffer. The first two regions compute layer 0 for the item nodes (KI1)
  and the user nodes (KU1) from the arguments; the last two compute layer 1 (KI2, KU2) from KI1 and KU1. The results are
  KU2 and KI2.
-/
import proofs.«134971_j26482768347335_2_alg».proof.Proof.KernelRun
import proofs.«134971_j26482768347335_2_alg».proof.Proof.KernelHostDefs
import proofs.«134971_j26482768347335_2_alg».proof.Proof.StageH0a
import proofs.«134971_j26482768347335_2_alg».proof.Proof.StageH0b
import proofs.«134971_j26482768347335_2_alg».proof.Proof.StageH1
import proofs.«134971_j26482768347335_2_alg».proof.Proof.StageH2
import proofs.«134971_j26482768347335_2_alg».proof.Proof.StageH3
import proofs.«134971_j26482768347335_2_alg».proof.Proof.RegionValue0
import proofs.«134971_j26482768347335_2_alg».proof.Proof.RegionValue1
import proofs.«134971_j26482768347335_2_alg».proof.Proof.RegionValue2
import proofs.«134971_j26482768347335_2_alg».proof.Proof.RegionValue3

set_option maxRecDepth 16384

noncomputable section

namespace Cert.KernelIdeal.Stages

open Cert.KernelIdeal Cert.KernelIdeal.Gen Idealize.ShloMosaic Idealize.ShloMosaic.TcCoe Idealize.ShloMosaic.StableHlo Idealize.SL.Sem

variable (m : (ℓ : Loc nD τ sig) → Buf (Elt Ideal) ℓ) (ρ : Dev nD → PrngReg) (c : Dev nD)

/-! ### The argument arrays at launch, and the four layers -/

abbrev a0 : FVec Ideal S100000x128 .f32 := m ((c.tc : Thread nD τ).loc main_arg0)
abbrev a1 : FVec Ideal S100000x128 .f32 := m ((c.tc : Thread nD τ).loc main_arg1)
abbrev a2 : FVec Ideal S2x128x128 .f32 := m ((c.tc : Thread nD τ).loc main_arg2)
abbrev a3 : FVec Ideal S2x128 .f32 := m ((c.tc : Thread nD τ).loc main_arg3)
abbrev a4 : FVec Ideal S2x128x128 .f32 := m ((c.tc : Thread nD τ).loc main_arg4)
abbrev a5 : FVec Ideal S2x128x128 .f32 := m ((c.tc : Thread nD τ).loc main_arg5)
abbrev a6 : FVec Ideal S2x128 .f32 := m ((c.tc : Thread nD τ).loc main_arg6)
abbrev a7 : FVec Ideal S2x128x128 .f32 := m ((c.tc : Thread nD τ).loc main_arg7)
abbrev a8 : FVec Ideal S2x128 .f32 := m ((c.tc : Thread nD τ).loc main_arg8)
abbrev a9 : FVec Ideal S2x128 .f32 := m ((c.tc : Thread nD τ).loc main_arg9)
abbrev a10 : FVec Ideal S2x128 .f32 := m ((c.tc : Thread nD τ).loc main_arg10)
abbrev a11 : FVec Ideal S2x128 .f32 := m ((c.tc : Thread nD τ).loc main_arg11)
abbrev a12 : IVec S2x600000 32 := m ((c.tc : Thread nD τ).loc main_arg12)
abbrev a13 : IVec S2x600000 32 := m ((c.tc : Thread nD τ).loc main_arg13)

/-- Layer 0: the item nodes from the user features along the user→item edges; the user nodes the other way round. -/
def KI1 : FVec Ideal S100000x128 .f32 := KL (a0 m c) (a1 m c) (a12 m c) (wsl0 (a2 m c)) (wsl0 (a4 m c)) (vsl0 (a3 m c)) (vsl0 (a10 m c)) (vsl0 (a11 m c))
def KU1 : FVec Ideal S100000x128 .f32 := KL (a1 m c) (a0 m c) (a13 m c) (wsl0 (a5 m c)) (wsl0 (a7 m c)) (vsl0 (a6 m c)) (vsl0 (a8 m c)) (vsl0 (a9 m c))
/-- Layer 1, from layer 0's outputs. -/
def KI2 : FVec Ideal S100000x128 .f32 := KL (KU1 m c) (KI1 m c) (a12 m c) (wsl1 (a2 m c)) (wsl1 (a4 m c)) (vsl1 (a3 m c)) (vsl1 (a10 m c)) (vsl1 (a11 m c))
def KU2 : FVec Ideal S100000x128 .f32 := KL (KI1 m c) (KU1 m c) (a13 m c) (wsl1 (a5 m c)) (wsl1 (a7 m c)) (vsl1 (a6 m c)) (vsl1 (a8 m c)) (vsl1 (a9 m c))

/-! ### Boundary 1 -/

theorem w1_v48 : W1 m ρ c (dr main_v48) = agg (a0 m c) (row0 (a12 m c)) (norm (row1 (a12 m c))) :=
  h0_v48 (W0 m ρ c)
theorem w1_v29 : W1 m ρ c (dr main_v29) = inv (norm (row1 (a12 m c))) :=
  h0_v29 (W0 m ρ c)
theorem w1_arg1 : W1 m ρ c (dr main_arg1) = (a1 m c) :=
  h0_arg1 (W0 m ρ c)
theorem w1_v74 : W1 m ρ c (dr main_v74) = tr (wsl0 (a2 m c)) :=
  h0_v74 (W0 m ρ c)
theorem w1_v76 : W1 m ρ c (dr main_v76) = rowv (vsl0 (a3 m c)) :=
  h0_v76 (W0 m ρ c)
theorem w1_v75 : W1 m ρ c (dr main_v75) = tr (wsl0 (a4 m c)) :=
  h0_v75 (W0 m ρ c)
theorem w1_v77 : W1 m ρ c (dr main_v77) = rowv (vsl0 (a10 m c)) :=
  h0_v77 (W0 m ρ c)
theorem w1_v78 : W1 m ρ c (dr main_v78) = rowv (vsl0 (a11 m c)) :=
  h0_v78 (W0 m ρ c)
theorem w1_v63 : W1 m ρ c (dr main_v63) = agg (a1 m c) (row0 (a13 m c)) (norm (row1 (a13 m c))) :=
  h0_v63 (W0 m ρ c)
theorem w1_v33 : W1 m ρ c (dr main_v33) = inv (norm (row1 (a13 m c))) :=
  h0_v33 (W0 m ρ c)
theorem w1_arg0 : W1 m ρ c (dr main_arg0) = (a0 m c) :=
  h0_arg0 (W0 m ρ c)
theorem w1_v1 : W1 m ρ c (dr main_v1) = row0 (a12 m c) :=
  h0_v1 (W0 m ρ c)
theorem w1_v3 : W1 m ρ c (dr main_v3) = row1 (a12 m c) :=
  h0_v3 (W0 m ρ c)
theorem w1_v5 : W1 m ρ c (dr main_v5) = row0 (a13 m c) :=
  h0_v5 (W0 m ρ c)
theorem w1_v7 : W1 m ρ c (dr main_v7) = row1 (a13 m c) :=
  h0_v7 (W0 m ρ c)
theorem w1_arg2 : W1 m ρ c (dr main_arg2) = (a2 m c) :=
  h0_arg2 (W0 m ρ c)
theorem w1_arg3 : W1 m ρ c (dr main_arg3) = (a3 m c) :=
  h0_arg3 (W0 m ρ c)
theorem w1_arg4 : W1 m ρ c (dr main_arg4) = (a4 m c) :=
  h0_arg4 (W0 m ρ c)
theorem w1_arg10 : W1 m ρ c (dr main_arg10) = (a10 m c) :=
  h0_arg10 (W0 m ρ c)
theorem w1_arg11 : W1 m ρ c (dr main_arg11) = (a11 m c) :=
  h0_arg11 (W0 m ρ c)
theorem w1_arg5 : W1 m ρ c (dr main_arg5) = (a5 m c) :=
  h0_arg5 (W0 m ρ c)
theorem w1_arg6 : W1 m ρ c (dr main_arg6) = (a6 m c) :=
  h0_arg6 (W0 m ρ c)
theorem w1_arg7 : W1 m ρ c (dr main_arg7) = (a7 m c) :=
  h0_arg7 (W0 m ρ c)
theorem w1_arg8 : W1 m ρ c (dr main_arg8) = (a8 m c) :=
  h0_arg8 (W0 m ρ c)
theorem w1_arg9 : W1 m ρ c (dr main_arg9) = (a9 m c) :=
  h0_arg9 (W0 m ρ c)

/-! ### Boundary 2 -/

theorem w2_v79 : W2 m ρ c (dr main_v79) = KI1 m c :=
  (W2_arr m ρ c 8).trans ((RegionValue.region0_value (V1 m ρ) c).trans (by
    show SageSpec.comb (n := 100000) (W1 m ρ c (dr main_v48)) (W1 m ρ c (dr main_v29)) (W1 m ρ c (dr main_arg1)) (W1 m ρ c (dr main_v74)) (W1 m ρ c (dr main_v76)) (W1 m ρ c (dr main_v75)) (W1 m ρ c (dr main_v77)) (W1 m ρ c (dr main_v78)) = _
    rw [w1_v48 m ρ c, w1_v29 m ρ c, w1_arg1 m ρ c, w1_v74 m ρ c, w1_v76 m ρ c, w1_v75 m ρ c, w1_v77 m ρ c, w1_v78 m ρ c]
    rfl))
theorem w2_v63 : W2 m ρ c (dr main_v63) = agg (a1 m c) (row0 (a13 m c)) (norm (row1 (a13 m c))) :=
  (W2_of_ne m ρ c main_v63 (by decide)).trans (w1_v63 m ρ c)
theorem w2_v33 : W2 m ρ c (dr main_v33) = inv (norm (row1 (a13 m c))) :=
  (W2_of_ne m ρ c main_v33 (by decide)).trans (w1_v33 m ρ c)
theorem w2_arg0 : W2 m ρ c (dr main_arg0) = (a0 m c) :=
  (W2_of_ne m ρ c main_arg0 (by decide)).trans (w1_arg0 m ρ c)
theorem w2_v29 : W2 m ρ c (dr main_v29) = inv (norm (row1 (a12 m c))) :=
  ((W2_arr m ρ c 1).trans (((dat0 (V1 m ρ) c).arrAt_in 1 rfl _).trans (A_eq0 (V1 m ρ) c 1))).trans (w1_v29 m ρ c)
theorem w2_v1 : W2 m ρ c (dr main_v1) = row0 (a12 m c) :=
  (W2_of_ne m ρ c main_v1 (by decide)).trans (w1_v1 m ρ c)
theorem w2_v3 : W2 m ρ c (dr main_v3) = row1 (a12 m c) :=
  (W2_of_ne m ρ c main_v3 (by decide)).trans (w1_v3 m ρ c)
theorem w2_v5 : W2 m ρ c (dr main_v5) = row0 (a13 m c) :=
  (W2_of_ne m ρ c main_v5 (by decide)).trans (w1_v5 m ρ c)
theorem w2_v7 : W2 m ρ c (dr main_v7) = row1 (a13 m c) :=
  (W2_of_ne m ρ c main_v7 (by decide)).trans (w1_v7 m ρ c)
theorem w2_arg2 : W2 m ρ c (dr main_arg2) = (a2 m c) :=
  (W2_of_ne m ρ c main_arg2 (by decide)).trans (w1_arg2 m ρ c)
theorem w2_arg3 : W2 m ρ c (dr main_arg3) = (a3 m c) :=
  (W2_of_ne m ρ c main_arg3 (by decide)).trans (w1_arg3 m ρ c)
theorem w2_arg4 : W2 m ρ c (dr main_arg4) = (a4 m c) :=
  (W2_of_ne m ρ c main_arg4 (by decide)).trans (w1_arg4 m ρ c)
theorem w2_arg10 : W2 m ρ c (dr main_arg10) = (a10 m c) :=
  (W2_of_ne m ρ c main_arg10 (by decide)).trans (w1_arg10 m ρ c)
theorem w2_arg11 : W2 m ρ c (dr main_arg11) = (a11 m c) :=
  (W2_of_ne m ρ c main_arg11 (by decide)).trans (w1_arg11 m ρ c)
theorem w2_arg5 : W2 m ρ c (dr main_arg5) = (a5 m c) :=
  (W2_of_ne m ρ c main_arg5 (by decide)).trans (w1_arg5 m ρ c)
theorem w2_arg6 : W2 m ρ c (dr main_arg6) = (a6 m c) :=
  (W2_of_ne m ρ c main_arg6 (by decide)).trans (w1_arg6 m ρ c)
theorem w2_arg7 : W2 m ρ c (dr main_arg7) = (a7 m c) :=
  (W2_of_ne m ρ c main_arg7 (by decide)).trans (w1_arg7 m ρ c)
theorem w2_arg8 : W2 m ρ c (dr main_arg8) = (a8 m c) :=
  (W2_of_ne m ρ c main_arg8 (by decide)).trans (w1_arg8 m ρ c)
theorem w2_arg9 : W2 m ρ c (dr main_arg9) = (a9 m c) :=
  (W2_of_ne m ρ c main_arg9 (by decide)).trans (w1_arg9 m ρ c)

/-! ### Boundary 3 -/

theorem w3_v90 : W3 m ρ c (dr main_v90) = tr (wsl0 (a5 m c)) :=
  (h1_v90 (W2 m ρ c)).trans (by rw [w2_arg5 m ρ c])
theorem w3_v92 : W3 m ρ c (dr main_v92) = rowv (vsl0 (a6 m c)) :=
  (h1_v92 (W2 m ρ c)).trans (by rw [w2_arg6 m ρ c])
theorem w3_v91 : W3 m ρ c (dr main_v91) = tr (wsl0 (a7 m c)) :=
  (h1_v91 (W2 m ρ c)).trans (by rw [w2_arg7 m ρ c])
theorem w3_v93 : W3 m ρ c (dr main_v93) = rowv (vsl0 (a8 m c)) :=
  (h1_v93 (W2 m ρ c)).trans (by rw [w2_arg8 m ρ c])
theorem w3_v94 : W3 m ρ c (dr main_v94) = rowv (vsl0 (a9 m c)) :=
  (h1_v94 (W2 m ρ c)).trans (by rw [w2_arg9 m ρ c])
theorem w3_v63 : W3 m ρ c (dr main_v63) = agg (a1 m c) (row0 (a13 m c)) (norm (row1 (a13 m c))) :=
  (h1_v63 (W2 m ρ c)).trans (w2_v63 m ρ c)
theorem w3_v33 : W3 m ρ c (dr main_v33) = inv (norm (row1 (a13 m c))) :=
  (h1_v33 (W2 m ρ c)).trans (w2_v33 m ρ c)
theorem w3_arg0 : W3 m ρ c (dr main_arg0) = (a0 m c) :=
  (h1_arg0 (W2 m ρ c)).trans (w2_arg0 m ρ c)
theorem w3_v79 : W3 m ρ c (dr main_v79) = KI1 m c :=
  (h1_v79 (W2 m ρ c)).trans (w2_v79 m ρ c)
theorem w3_v29 : W3 m ρ c (dr main_v29) = inv (norm (row1 (a12 m c))) :=
  (h1_v29 (W2 m ρ c)).trans (w2_v29 m ρ c)
theorem w3_v1 : W3 m ρ c (dr main_v1) = row0 (a12 m c) :=
  (h1_v1 (W2 m ρ c)).trans (w2_v1 m ρ c)
theorem w3_v3 : W3 m ρ c (dr main_v3) = row1 (a12 m c) :=
  (h1_v3 (W2 m ρ c)).trans (w2_v3 m ρ c)
theorem w3_v5 : W3 m ρ c (dr main_v5) = row0 (a13 m c) :=
  (h1_v5 (W2 m ρ c)).trans (w2_v5 m ρ c)
theorem w3_v7 : W3 m ρ c (dr main_v7) = row1 (a13 m c) :=
  (h1_v7 (W2 m ρ c)).trans (w2_v7 m ρ c)
theorem w3_arg2 : W3 m ρ c (dr main_arg2) = (a2 m c) :=
  (h1_arg2 (W2 m ρ c)).trans (w2_arg2 m ρ c)
theorem w3_arg3 : W3 m ρ c (dr main_arg3) = (a3 m c) :=
  (h1_arg3 (W2 m ρ c)).trans (w2_arg3 m ρ c)
theorem w3_arg4 : W3 m ρ c (dr main_arg4) = (a4 m c) :=
  (h1_arg4 (W2 m ρ c)).trans (w2_arg4 m ρ c)
theorem w3_arg10 : W3 m ρ c (dr main_arg10) = (a10 m c) :=
  (h1_arg10 (W2 m ρ c)).trans (w2_arg10 m ρ c)
theorem w3_arg11 : W3 m ρ c (dr main_arg11) = (a11 m c) :=
  (h1_arg11 (W2 m ρ c)).trans (w2_arg11 m ρ c)
theorem w3_arg5 : W3 m ρ c (dr main_arg5) = (a5 m c) :=
  (h1_arg5 (W2 m ρ c)).trans (w2_arg5 m ρ c)
theorem w3_arg6 : W3 m ρ c (dr main_arg6) = (a6 m c) :=
  (h1_arg6 (W2 m ρ c)).trans (w2_arg6 m ρ c)
theorem w3_arg7 : W3 m ρ c (dr main_arg7) = (a7 m c) :=
  (h1_arg7 (W2 m ρ c)).trans (w2_arg7 m ρ c)
theorem w3_arg8 : W3 m ρ c (dr main_arg8) = (a8 m c) :=
  (h1_arg8 (W2 m ρ c)).trans (w2_arg8 m ρ c)
theorem w3_arg9 : W3 m ρ c (dr main_arg9) = (a9 m c) :=
  (h1_arg9 (W2 m ρ c)).trans (w2_arg9 m ρ c)

/-! ### Boundary 4 -/

theorem w4_v95 : W4 m ρ c (dr main_v95) = KU1 m c :=
  (W4_arr m ρ c 8).trans ((RegionValue.region1_value (V3 m ρ) c).trans (by
    show SageSpec.comb (n := 100000) (W3 m ρ c (dr main_v63)) (W3 m ρ c (dr main_v33)) (W3 m ρ c (dr main_arg0)) (W3 m ρ c (dr main_v90)) (W3 m ρ c (dr main_v92)) (W3 m ρ c (dr main_v91)) (W3 m ρ c (dr main_v93)) (W3 m ρ c (dr main_v94)) = _
    rw [w3_v63 m ρ c, w3_v33 m ρ c, w3_arg0 m ρ c, w3_v90 m ρ c, w3_v92 m ρ c, w3_v91 m ρ c, w3_v93 m ρ c, w3_v94 m ρ c]
    rfl))
theorem w4_v79 : W4 m ρ c (dr main_v79) = KI1 m c :=
  (W4_of_ne m ρ c main_v79 (by decide)).trans (w3_v79 m ρ c)
theorem w4_v29 : W4 m ρ c (dr main_v29) = inv (norm (row1 (a12 m c))) :=
  (W4_of_ne m ρ c main_v29 (by decide)).trans (w3_v29 m ρ c)
theorem w4_v1 : W4 m ρ c (dr main_v1) = row0 (a12 m c) :=
  (W4_of_ne m ρ c main_v1 (by decide)).trans (w3_v1 m ρ c)
theorem w4_v3 : W4 m ρ c (dr main_v3) = row1 (a12 m c) :=
  (W4_of_ne m ρ c main_v3 (by decide)).trans (w3_v3 m ρ c)
theorem w4_v5 : W4 m ρ c (dr main_v5) = row0 (a13 m c) :=
  (W4_of_ne m ρ c main_v5 (by decide)).trans (w3_v5 m ρ c)
theorem w4_v7 : W4 m ρ c (dr main_v7) = row1 (a13 m c) :=
  (W4_of_ne m ρ c main_v7 (by decide)).trans (w3_v7 m ρ c)
theorem w4_arg2 : W4 m ρ c (dr main_arg2) = (a2 m c) :=
  (W4_of_ne m ρ c main_arg2 (by decide)).trans (w3_arg2 m ρ c)
theorem w4_arg3 : W4 m ρ c (dr main_arg3) = (a3 m c) :=
  (W4_of_ne m ρ c main_arg3 (by decide)).trans (w3_arg3 m ρ c)
theorem w4_arg4 : W4 m ρ c (dr main_arg4) = (a4 m c) :=
  (W4_of_ne m ρ c main_arg4 (by decide)).trans (w3_arg4 m ρ c)
theorem w4_arg10 : W4 m ρ c (dr main_arg10) = (a10 m c) :=
  (W4_of_ne m ρ c main_arg10 (by decide)).trans (w3_arg10 m ρ c)
theorem w4_arg11 : W4 m ρ c (dr main_arg11) = (a11 m c) :=
  (W4_of_ne m ρ c main_arg11 (by decide)).trans (w3_arg11 m ρ c)
theorem w4_arg5 : W4 m ρ c (dr main_arg5) = (a5 m c) :=
  (W4_of_ne m ρ c main_arg5 (by decide)).trans (w3_arg5 m ρ c)
theorem w4_arg6 : W4 m ρ c (dr main_arg6) = (a6 m c) :=
  (W4_of_ne m ρ c main_arg6 (by decide)).trans (w3_arg6 m ρ c)
theorem w4_arg7 : W4 m ρ c (dr main_arg7) = (a7 m c) :=
  (W4_of_ne m ρ c main_arg7 (by decide)).trans (w3_arg7 m ρ c)
theorem w4_arg8 : W4 m ρ c (dr main_arg8) = (a8 m c) :=
  (W4_of_ne m ρ c main_arg8 (by decide)).trans (w3_arg8 m ρ c)
theorem w4_arg9 : W4 m ρ c (dr main_arg9) = (a9 m c) :=
  (W4_of_ne m ρ c main_arg9 (by decide)).trans (w3_arg9 m ρ c)
theorem w4_v33 : W4 m ρ c (dr main_v33) = inv (norm (row1 (a13 m c))) :=
  ((W4_arr m ρ c 1).trans (((dat1 (V3 m ρ) c).arrAt_in 1 rfl _).trans (A_eq1 (V3 m ρ) c 1))).trans (w3_v33 m ρ c)

/-! ### Boundary 5 -/

theorem w5_v110 : W5 m ρ c (dr main_v110) = agg (KU1 m c) (row0 (a12 m c)) (norm (row1 (a12 m c))) :=
  (h2_v110 (W4 m ρ c)).trans (by rw [w4_v95 m ρ c, w4_v1 m ρ c, w4_v3 m ρ c])
theorem w5_v125 : W5 m ρ c (dr main_v125) = agg (KI1 m c) (row0 (a13 m c)) (norm (row1 (a13 m c))) :=
  (h2_v125 (W4 m ρ c)).trans (by rw [w4_v79 m ρ c, w4_v5 m ρ c, w4_v7 m ρ c])
theorem w5_v136 : W5 m ρ c (dr main_v136) = tr (wsl1 (a2 m c)) :=
  (h2_v136 (W4 m ρ c)).trans (by rw [w4_arg2 m ρ c])
theorem w5_v138 : W5 m ρ c (dr main_v138) = rowv (vsl1 (a3 m c)) :=
  (h2_v138 (W4 m ρ c)).trans (by rw [w4_arg3 m ρ c])
theorem w5_v137 : W5 m ρ c (dr main_v137) = tr (wsl1 (a4 m c)) :=
  (h2_v137 (W4 m ρ c)).trans (by rw [w4_arg4 m ρ c])
theorem w5_v139 : W5 m ρ c (dr main_v139) = rowv (vsl1 (a10 m c)) :=
  (h2_v139 (W4 m ρ c)).trans (by rw [w4_arg10 m ρ c])
theorem w5_v140 : W5 m ρ c (dr main_v140) = rowv (vsl1 (a11 m c)) :=
  (h2_v140 (W4 m ρ c)).trans (by rw [w4_arg11 m ρ c])
theorem w5_v29 : W5 m ρ c (dr main_v29) = inv (norm (row1 (a12 m c))) :=
  (h2_v29 (W4 m ρ c)).trans (w4_v29 m ρ c)
theorem w5_v79 : W5 m ρ c (dr main_v79) = KI1 m c :=
  (h2_v79 (W4 m ρ c)).trans (w4_v79 m ρ c)
theorem w5_v33 : W5 m ρ c (dr main_v33) = inv (norm (row1 (a13 m c))) :=
  (h2_v33 (W4 m ρ c)).trans (w4_v33 m ρ c)
theorem w5_v95 : W5 m ρ c (dr main_v95) = KU1 m c :=
  (h2_v95 (W4 m ρ c)).trans (w4_v95 m ρ c)
theorem w5_arg5 : W5 m ρ c (dr main_arg5) = (a5 m c) :=
  (h2_arg5 (W4 m ρ c)).trans (w4_arg5 m ρ c)
theorem w5_arg6 : W5 m ρ c (dr main_arg6) = (a6 m c) :=
  (h2_arg6 (W4 m ρ c)).trans (w4_arg6 m ρ c)
theorem w5_arg7 : W5 m ρ c (dr main_arg7) = (a7 m c) :=
  (h2_arg7 (W4 m ρ c)).trans (w4_arg7 m ρ c)
theorem w5_arg8 : W5 m ρ c (dr main_arg8) = (a8 m c) :=
  (h2_arg8 (W4 m ρ c)).trans (w4_arg8 m ρ c)
theorem w5_arg9 : W5 m ρ c (dr main_arg9) = (a9 m c) :=
  (h2_arg9 (W4 m ρ c)).trans (w4_arg9 m ρ c)

/-! ### Boundary 6 -/

theorem w6_v141 : W6 m ρ c (dr main_v141) = KI2 m c :=
  (W6_arr m ρ c 8).trans ((RegionValue.region2_value (V5 m ρ) c).trans (by
    show SageSpec.comb (n := 100000) (W5 m ρ c (dr main_v110)) (W5 m ρ c (dr main_v29)) (W5 m ρ c (dr main_v79)) (W5 m ρ c (dr main_v136)) (W5 m ρ c (dr main_v138)) (W5 m ρ c (dr main_v137)) (W5 m ρ c (dr main_v139)) (W5 m ρ c (dr main_v140)) = _
    rw [w5_v110 m ρ c, w5_v29 m ρ c, w5_v79 m ρ c, w5_v136 m ρ c, w5_v138 m ρ c, w5_v137 m ρ c, w5_v139 m ρ c, w5_v140 m ρ c]
    rfl))
theorem w6_v125 : W6 m ρ c (dr main_v125) = agg (KI1 m c) (row0 (a13 m c)) (norm (row1 (a13 m c))) :=
  (W6_of_ne m ρ c main_v125 (by decide)).trans (w5_v125 m ρ c)
theorem w6_v33 : W6 m ρ c (dr main_v33) = inv (norm (row1 (a13 m c))) :=
  (W6_of_ne m ρ c main_v33 (by decide)).trans (w5_v33 m ρ c)
theorem w6_v95 : W6 m ρ c (dr main_v95) = KU1 m c :=
  (W6_of_ne m ρ c main_v95 (by decide)).trans (w5_v95 m ρ c)
theorem w6_arg5 : W6 m ρ c (dr main_arg5) = (a5 m c) :=
  (W6_of_ne m ρ c main_arg5 (by decide)).trans (w5_arg5 m ρ c)
theorem w6_arg6 : W6 m ρ c (dr main_arg6) = (a6 m c) :=
  (W6_of_ne m ρ c main_arg6 (by decide)).trans (w5_arg6 m ρ c)
theorem w6_arg7 : W6 m ρ c (dr main_arg7) = (a7 m c) :=
  (W6_of_ne m ρ c main_arg7 (by decide)).trans (w5_arg7 m ρ c)
theorem w6_arg8 : W6 m ρ c (dr main_arg8) = (a8 m c) :=
  (W6_of_ne m ρ c main_arg8 (by decide)).trans (w5_arg8 m ρ c)
theorem w6_arg9 : W6 m ρ c (dr main_arg9) = (a9 m c) :=
  (W6_of_ne m ρ c main_arg9 (by decide)).trans (w5_arg9 m ρ c)

/-! ### Boundary 7 -/

theorem w7_v152 : W7 m ρ c (dr main_v152) = tr (wsl1 (a5 m c)) :=
  (h3_v152 (W6 m ρ c)).trans (by rw [w6_arg5 m ρ c])
theorem w7_v154 : W7 m ρ c (dr main_v154) = rowv (vsl1 (a6 m c)) :=
  (h3_v154 (W6 m ρ c)).trans (by rw [w6_arg6 m ρ c])
theorem w7_v153 : W7 m ρ c (dr main_v153) = tr (wsl1 (a7 m c)) :=
  (h3_v153 (W6 m ρ c)).trans (by rw [w6_arg7 m ρ c])
theorem w7_v155 : W7 m ρ c (dr main_v155) = rowv (vsl1 (a8 m c)) :=
  (h3_v155 (W6 m ρ c)).trans (by rw [w6_arg8 m ρ c])
theorem w7_v156 : W7 m ρ c (dr main_v156) = rowv (vsl1 (a9 m c)) :=
  (h3_v156 (W6 m ρ c)).trans (by rw [w6_arg9 m ρ c])
theorem w7_v125 : W7 m ρ c (dr main_v125) = agg (KI1 m c) (row0 (a13 m c)) (norm (row1 (a13 m c))) :=
  (h3_v125 (W6 m ρ c)).trans (w6_v125 m ρ c)
theorem w7_v33 : W7 m ρ c (dr main_v33) = inv (norm (row1 (a13 m c))) :=
  (h3_v33 (W6 m ρ c)).trans (w6_v33 m ρ c)
theorem w7_v95 : W7 m ρ c (dr main_v95) = KU1 m c :=
  (h3_v95 (W6 m ρ c)).trans (w6_v95 m ρ c)
theorem w7_v141 : W7 m ρ c (dr main_v141) = KI2 m c :=
  (h3_v141 (W6 m ρ c)).trans (w6_v141 m ρ c)

/-! ### Boundary 8 -/

theorem w8_v157 : W8 m ρ c (dr main_v157) = KU2 m c :=
  (W8_arr m ρ c 8).trans ((RegionValue.region3_value (V7 m ρ) c).trans (by
    show SageSpec.comb (n := 100000) (W7 m ρ c (dr main_v125)) (W7 m ρ c (dr main_v33)) (W7 m ρ c (dr main_v95)) (W7 m ρ c (dr main_v152)) (W7 m ρ c (dr main_v154)) (W7 m ρ c (dr main_v153)) (W7 m ρ c (dr main_v155)) (W7 m ρ c (dr main_v156)) = _
    rw [w7_v125 m ρ c, w7_v33 m ρ c, w7_v95 m ρ c, w7_v152 m ρ c, w7_v154 m ρ c, w7_v153 m ρ c, w7_v155 m ρ c, w7_v156 m ρ c]
    rfl))
theorem w8_v141 : W8 m ρ c (dr main_v141) = KI2 m c :=
  (W8_of_ne m ρ c main_v141 (by decide)).trans (w7_v141 m ρ c)

/-- The run of the idealized kernel with both results at their closed forms. -/
theorem kernel_run : θ_run defs (onTc (τ := τ) (main (F := Ideal))) ⟨m, fun _ => 0, ρ⟩ (fun r => ∀ c : Dev nD,
      r.2.mem ((c.tc : Thread nD τ).loc main_v157) = KU2 m c
      ∧ r.2.mem ((c.tc : Thread nD τ).loc main_v141) = KI2 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c => ⟨(h c).1.trans (w8_v157 m ρ c), (h c).2.1.trans (w8_v141 m ρ c), (h c).2.2⟩)
    (Cert.KernelIdeal.RunValue.run_values m ρ)

end Cert.KernelIdeal.Stages

end
-- ==== Proof.LibPlainDotGeneral.lean ====
/-
  The host program's matrix product with plain dimension numbers — the left operand's axis 1 contracted with the right
  operand's axis 0, no batch axis — read at an index, at the extended reals: entry (r, j) is the sum over k of
  x(r, k) · w(k, j). The host's product has no accumulator, so this is the tile product's reading (a product into the
  zero accumulator) without the zero. Nothing here depends on a program: the record's coordinate facts are the
  hypothesis `IsPlain`, which each use site proves from its own record by unfolding.
-/
import proofs.«134971_j26482768347335_2_alg».proof.Proof.LibPlainDot

noncomputable section

namespace PlainDot

open Idealize.ShloMosaic Idealize.ShloMosaic.ValueIdx

variable {M K N : Nat} {φ₁ φ₂ : FTy}

/-- The host's matrix product, at the extended reals, read at (r, j): the sum over the contracted axis of
    x(r, k) · w(k, j). -/
theorem dotGeneral_apply (D : DotDims ⟨2, ![M, K]⟩ ⟨2, ![K, N]⟩ ⟨2, ![M, N]⟩) (h : IsPlain D) (prec : Option ContractPrecision)
    (x : FVec Ideal ⟨2, ![M, K]⟩ φ₁) (w : FVec Ideal ⟨2, ![K, N]⟩ φ₂) (r : Fin M) (j : Fin N) :
    Host.dotGeneral (F := Ideal) D prec x w (ix2 r j) = ∑ k : Fin K, x (ix2 r k) * w (ix2 k j) := by
  simp only [Host.dotGeneral]
  rw [Ideal.dotGeneral_apply, ← Equiv.sum_comp (contrEquiv1 D K h.rank h.size).symm]
  refine Finset.sum_congr rfl fun k _ => ?_
  rw [h.lhsIdx_eq r j k, h.rhsIdx_eq r j k]

end PlainDot

end
-- ==== Proof.LibJoinLayout.lean ====
/-
  Layout facts for a matrix product whose contracted axis is two feature blocks joined side by side, each saying which
  entry of the operand an entry of the result reads. General over the extents.
    • two matrices joined along the columns: entry (r, k) is the first matrix at (r, k) for k below its width, and the
      second at (r, k − width) from there on;
    • a block of columns of a weight matrix, from column o, transposed: entry (k, j) is the matrix at (j, o + k);
    • a vector spread as one row and then down the rows: entry (p, c) is the vector at c;
    • a scalar constant spread over a matrix: every entry is the constant's extended real.
-/
import Idealize.ShloMosaic.Lib.Pipeline.Value
import Idealize.ShloMosaic.Lib.ValueIdx
import Idealize.ShloMosaic.Lib.ValueLayout

namespace JoinLayout

open Idealize.ShloMosaic Idealize.ShloMosaic.ValueIdx

variable {α : Type}

/-- Two matrices joined along the columns read, at `(r, k)` with `k` below the first one's width, the first at `(r, k)`. -/
theorem concatenate_cols_left {M K₁ K₂ K : ℕ} (x : (⟨2, ![M, K₁]⟩ : Shape).Idx → α) (y : (⟨2, ![M, K₂]⟩ : Shape).Idx → α)
    (h : Shape.Concatenates [(⟨2, ![M, K₁]⟩ : Shape), ⟨2, ![M, K₂]⟩] ⟨2, ![M, K]⟩ 1)
    (r : Fin M) (k : Fin K) (k₁ : Fin K₁) (hk : k₁.val = k.val) :
    concatenate ⟨2, ![M, K]⟩ 1 [⟨⟨2, ![M, K₁]⟩, x⟩, ⟨⟨2, ![M, K₂]⟩, y⟩] h (ix2 r k) = x (ix2 r k₁) :=
  concatenate_pair_apply_left 1 x y h (ix2 r k) rfl (ix2 r k₁) fun b => by
    match b with
    | ⟨0, _⟩ => rfl
    | ⟨1, _⟩ => exact hk

/-- Two matrices joined along the columns read, at `(r, k)` with `k` at or past the first one's width, the second at
    `(r, k − width)`. -/
theorem concatenate_cols_right {M K₁ K₂ K : ℕ} (x : (⟨2, ![M, K₁]⟩ : Shape).Idx → α) (y : (⟨2, ![M, K₂]⟩ : Shape).Idx → α)
    (h : Shape.Concatenates [(⟨2, ![M, K₁]⟩ : Shape), ⟨2, ![M, K₂]⟩] ⟨2, ![M, K]⟩ 1)
    (r : Fin M) (k : Fin K) (k₂ : Fin K₂) (hk : k₂.val + K₁ = k.val) :
    concatenate ⟨2, ![M, K]⟩ 1 [⟨⟨2, ![M, K₁]⟩, x⟩, ⟨⟨2, ![M, K₂]⟩, y⟩] h (ix2 r k) = y (ix2 r k₂) :=
  concatenate_pair_apply_right 1 x y h (ix2 r k) rfl rfl (ix2 r k₂)
    (fun b hb => by
      match b, hb with
      | ⟨0, _⟩, _ => rfl
      | ⟨1, _⟩, hb => exact absurd (Fin.ext rfl) hb)
    hk

/-- A block of columns of a matrix, from column `o`, transposed, reads at `(k, j)` the matrix at `(j, o + k)`. -/
theorem transpose_slice_cols_apply {N K K' : ℕ} (o : ℕ) (W : (⟨2, ![N, K]⟩ : Shape).Idx → α)
    (hs : (⟨2, ![N, K]⟩ : Shape).Slices ![0, o] ⟨2, ![N, K']⟩) (ht : (⟨2, ![N, K']⟩ : Shape).Transposes [1, 0] ⟨2, ![K', N]⟩)
    (k : Fin K') (j : Fin N) (k' : Fin K) (hk : k'.val = o + k.val) :
    transpose ⟨2, ![K', N]⟩ [1, 0] (extractStridedSlice ⟨2, ![N, K']⟩ ![0, o] W hs) ht (ix2 k j) = W (ix2 j k') :=
  (transpose_ix2_apply _ ht k j).trans (slice2_axis1_apply o W hs j k k' hk)

/-- A vector `[b]` spread as the row `[1, b]` and then down `a` rows reads, at `(p, c)`, entry `c`. -/
theorem broadcastInDim_row_of_vec_apply {a b : ℕ} (x : (⟨1, ![b]⟩ : Shape).Idx → α)
    (h1 : (⟨1, ![b]⟩ : Shape).BroadcastsInDim ⟨2, ![1, b]⟩ (![1] : Fin 1 → Fin 2))
    (h2 : (⟨2, ![1, b]⟩ : Shape).BroadcastsInDim ⟨2, ![a, b]⟩ (![0, 1] : Fin 2 → Fin 2)) (p : Fin a) (c : Fin b) :
    broadcastInDim ⟨2, ![a, b]⟩ ![0, 1] h2 (broadcastInDim ⟨2, ![1, b]⟩ ![1] h1 x) (ix2 p c) = x (ix1 c) := by
  refine (broadcastInDim_apply _ h2 _ (ix2 p c) (ix2 (0 : Fin 1) c) fun ax => ?_).trans
    (broadcastInDim_apply _ h1 x (ix2 (0 : Fin 1) c) (ix1 c) fun ax => ?_)
  · match ax with
    | ⟨0, _⟩ => rfl
    | ⟨1, _⟩ =>
      show c.val = if b = 1 then 0 else c.val
      split
      · have := c.isLt; omega
      · rfl
  · match ax with
    | ⟨0, _⟩ =>
      show c.val = if b = 1 then 0 else c.val
      split
      · have := c.isLt; omega
      · rfl

/-- A scalar constant spread over any shape reads, at every index, the extended real its word encodes. -/
theorem broadcastInDim_constant_apply {t : Shape} {φ : FTy} (w : BitVec φ.bits)
    (h : (⟨0, ![]⟩ : Shape).BroadcastsInDim t (![] : Fin 0 → Fin t.rank)) (i : t.Idx) :
    broadcastInDim t ![] h (constant (F := Ideal) ⟨0, ![]⟩ φ w) i = Ideal.ofBits φ w := rfl

end JoinLayout
-- ==== Proof.RefLayer.lean ====
/-
  The reference's layer — aggregate divided by the clamped count, the two matrix products, the bias, layer normalisation,
  scale, shift and the clamp at zero — read at an index, and seen to be the specification's function `SageSpec.comb` of
  the same arrays with the count entering through its reciprocal.

  The one law used: for a nonzero extended real y, x / y = x · (1 / y) (both are x · y⁻¹). The clamped count
  max(cnt, 1) is never zero, so the law applies at every node; no finiteness is needed. Everything else is the same
  arithmetic in the same order, with the sums over the 128 channels read off the host's sum and product operations.
-/
import proofs.«134971_j26482768347335_2_alg».proof.ReferenceIdeal
import proofs.«134971_j26482768347335_2_alg».proof.Proof.Gen.ReferenceIdeal
import proofs.«134971_j26482768347335_2_alg».proof.Proof.SageSpec
import proofs.«134971_j26482768347335_2_alg».proof.Proof.LibPlainDotGeneral
import proofs.«134971_j26482768347335_2_alg».proof.Proof.LibJoinLayout
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.ReferenceIdeal.Layer

open Cert.ReferenceIdeal Cert.ReferenceIdeal.Gen Idealize.ShloMosaic Idealize.ShloMosaic.ValueIdx

/-- The activation before normalisation: (S / max-count) · WLt + b + X · WRt, as the reference's operations. -/
def pre (S : FVec Ideal S100000x128 .f32) (MX : FVec Ideal S100000x1 .f32) (X : FVec Ideal S100000x128 .f32)
    (WLt WRt : FVec Ideal S128x128 .f32) (b : FVec Ideal S128 .f32) : FVec Ideal S100000x128 .f32 :=
  addf (addf (Host.dotGeneral dot_S100000x128_S128x128_S100000x128_1_0_0_1_n_n none
      (Host.divf S (broadcastInDim S100000x128 ![0, 1] bcast_S100000x1_S100000x128_0_1 MX)) WLt)
    (broadcastInDim S100000x128 ![0, 1] bcast_S1x128_S100000x128_0_1 (broadcastInDim S1x128 ![1] bcast_S128_S1x128_1 b)))
    (Host.dotGeneral dot_S100000x128_S128x128_S100000x128_1_0_0_1_n_n none X WRt)

/-- A row's sum over the channels divided by 128, kept as a column. -/
def colMean (h : FVec Ideal S100000x128 .f32) : FVec Ideal S100000x1 .f32 :=
  Host.divf (broadcastInDim S100000x1 ![0] bcast_S100000_S100000x1_0
      (Host.reduceAdd h (constant S_ .f32 0x00000000#32) reducesTo_S100000x128_S100000_d1 h_S_))
    (broadcastInDim S100000x1 ![] bcast_S_S100000x1 (constant S_ .f32 0x43000000#32))

/-- The row minus its mean. -/
def centred (h : FVec Ideal S100000x128 .f32) : FVec Ideal S100000x128 .f32 :=
  subf h (broadcastInDim S100000x128 ![0, 1] bcast_S100000x1_S100000x128_0_1 (colMean h))

/-- Layer normalisation, scale, shift, and the clamp at zero, as the reference's operations. -/
def lnRelu (h : FVec Ideal S100000x128 .f32) (lw lb : FVec Ideal S128 .f32) : FVec Ideal S100000x128 .f32 :=
  maximumf (addf (mulf (mulf (centred h)
      (broadcastInDim S100000x128 ![0, 1] bcast_S100000x1_S100000x128_0_1
        (Host.rsqrt (addf (colMean (mulf (centred h) (centred h)))
          (broadcastInDim S100000x1 ![] bcast_S_S100000x1 (constant S_ .f32 0x3727C5AC#32))))))
      (broadcastInDim S100000x128 ![0, 1] bcast_S1x128_S100000x128_0_1 (broadcastInDim S1x128 ![1] bcast_S128_S1x128_1 lw)))
      (broadcastInDim S100000x128 ![0, 1] bcast_S1x128_S100000x128_0_1 (broadcastInDim S1x128 ![1] bcast_S128_S1x128_1 lb)))
    (broadcastInDim S100000x128 ![] bcast_S_S100000x128 (constant S_ .f32 0x00000000#32))

/-- The whole layer. -/
def layer (S : FVec Ideal S100000x128 .f32) (MX : FVec Ideal S100000x1 .f32) (X : FVec Ideal S100000x128 .f32)
    (WLt WRt : FVec Ideal S128x128 .f32) (b lw lb : FVec Ideal S128 .f32) : FVec Ideal S100000x128 .f32 :=
  lnRelu (pre S MX X WLt WRt b) lw lb

/-- The reference's product has plain dimension numbers. -/
theorem plain : PlainDot.IsPlain dot_S100000x128_S128x128_S100000x128_1_0_0_1_n_n :=
  ⟨rfl, rfl, fun _ _ => rfl, fun _ _ => rfl, fun _ _ => rfl, fun _ _ => rfl⟩

/-- A column spread across the 128 channels reads, at (p, q), the column's entry p. -/
theorem bcast_col {α : Type} (v : S100000x1.Idx → α) (p : Fin 100000) (q : Fin 128) :
    broadcastInDim S100000x128 ![0, 1] bcast_S100000x1_S100000x128_0_1 v (ix2 p q) = v (ix2 p (0 : Fin 1)) :=
  broadcastInDim_apply _ bcast_S100000x1_S100000x128_0_1 v (ix2 p q) (ix2 p (0 : Fin 1)) fun a => by
    match a with
    | ⟨0, _⟩ => show p.val = if (100000 : Nat) = 1 then 0 else p.val; rw [if_neg (by decide)]
    | ⟨1, _⟩ => rfl

/-- A vector over the nodes kept as a column reads, at (p, 0), entry p. -/
theorem bcast_keep {α : Type} (y : S100000.Idx → α) (p : Fin 100000) (u : Fin 1) :
    broadcastInDim S100000x1 ![0] bcast_S100000_S100000x1_0 y (ix2 p u) = y (ix1 p) :=
  broadcastInDim_apply _ bcast_S100000_S100000x1_0 y (ix2 p u) (ix1 p) fun a => by
    match a with
    | ⟨0, _⟩ => show p.val = if (100000 : Nat) = 1 then 0 else p.val; rw [if_neg (by decide)]

/-- The f32 word of one is the real one. -/
theorem ofBits_one : Ideal.ofBits .f32 0x3F800000#32 = (1 : EReal) := by
  simp [Ideal.ofBits, Ideal.ieee]
  rw [← EReal.coe_mul, ← EReal.coe_one]
  exact congrArg _ (by norm_num)

/-- The column mean at node p: the sum of the row over the channels, divided by 128. -/
theorem colMean_apply (h : FVec Ideal S100000x128 .f32) (p : Fin 100000) (u : Fin 1) :
    colMean h (ix2 p u) = SageSpec.rowMean (fun r => h (ix2 p r)) := by
  unfold colMean SageSpec.rowMean
  simp only [Host.divf, Ideal.hostDivf_def, Host.reduceAdd, Ideal.hostReduceAdd_def]
  rw [bcast_keep, Ideal.hostReduceAdd_single reducesTo_S100000x128_S100000_d1 (by decide)]
  refine congrArg₂ Ideal.div ?_ rfl
  rw [constant_apply, Ideal.ofBits_zero_f32, zero_add]
  refine Finset.sum_congr rfl fun k _ => ?_
  exact congrArg h (funext fun a => Fin.ext (by match a with | ⟨0, _⟩ => rfl | ⟨1, _⟩ => rfl))

theorem centred_apply (h : FVec Ideal S100000x128 .f32) (p : Fin 100000) (q : Fin 128) :
    centred h (ix2 p q) = h (ix2 p q) - SageSpec.rowMean (fun r => h (ix2 p r)) := by
  unfold centred
  rw [subf_apply, bcast_col, colMean_apply]

/-- Layer normalisation, scale, shift and clamp at (p, q) is the specification's function of the row p. -/
theorem lnRelu_apply (h : FVec Ideal S100000x128 .f32) (lw lb : FVec Ideal S128 .f32) (hc : S128.ShapeCasts S1x128)
    (p : Fin 100000) (q : Fin 128) :
    lnRelu h lw lb (ix2 p q)
      = SageSpec.lnrelu (fun r => h (ix2 p r)) (shapeCast S1x128 lw hc) (shapeCast S1x128 lb hc) q := by
  unfold lnRelu SageSpec.lnrelu
  rw [maximumf_apply, addf_apply, mulf_apply, mulf_apply, centred_apply, bcast_col,
    JoinLayout.broadcastInDim_row_of_vec_apply, JoinLayout.broadcastInDim_row_of_vec_apply,
    shapeCast_a_1a_apply lw hc 0 q, shapeCast_a_1a_apply lb hc 0 q]
  refine congrArg₂ max (congrArg₂ (· + ·) (congrArg₂ (· * ·) (congrArg₂ (· * ·) rfl ?_) rfl) rfl) rfl
  show Ideal.rsqrt (colMean (mulf (centred h) (centred h)) (ix2 p (0 : Fin 1)) + Ideal.ofBits .f32 0x3727C5AC#32) = _
  rw [colMean_apply]
  refine congrArg Ideal.rsqrt (congrArg₂ (· + ·) (congrArg₂ Ideal.div (Finset.sum_congr rfl fun r _ => ?_) rfl) rfl)
  beta_reduce
  rw [mulf_apply, centred_apply]

/-- The activation before normalisation at (p, r) is the specification's, the count entering through its reciprocal. -/
theorem pre_apply (S : FVec Ideal S100000x128 .f32) (MX : FVec Ideal S100000x1 .f32) (X : FVec Ideal S100000x128 .f32)
    (WLt WRt : FVec Ideal S128x128 .f32) (b : FVec Ideal S128 .f32) (hc : S128.ShapeCasts S1x128)
    (hmx : ∀ i, MX i ≠ 0) (p : Fin 100000) (r : Fin 128) :
    pre S MX X WLt WRt b (ix2 p r)
      = SageSpec.hrow (n := 100000) S
          (Host.divf (broadcastInDim S100000x1 ![] bcast_S_S100000x1 (constant (F := Ideal) S_ .f32 0x3F800000#32)) MX)
          X WLt (shapeCast S1x128 b hc) WRt p r := by
  unfold pre SageSpec.hrow
  rw [addf_apply, addf_apply, PlainDot.dotGeneral_apply _ plain, PlainDot.dotGeneral_apply _ plain,
    JoinLayout.broadcastInDim_row_of_vec_apply, shapeCast_a_1a_apply b hc 0 r]
  refine congrArg₂ (· + ·) (congrArg₂ (· + ·) (Finset.sum_congr rfl fun k _ => ?_) rfl) rfl
  refine congrArg₂ (· * ·) ?_ rfl
  show Ideal.div (S (ix2 p k)) (broadcastInDim S100000x128 ![0, 1] bcast_S100000x1_S100000x128_0_1 MX (ix2 p k))
    = S (ix2 p k) * Ideal.div (Ideal.ofBits .f32 0x3F800000#32) (MX (ix2 p (0 : Fin 1)))
  rw [bcast_col, ofBits_one, SageSpec.div_eq_mul_one_div _ _ (hmx _)]

/-- The reference's layer is the specification's function, the clamped count entering through its reciprocal. -/
theorem layer_eq (S : FVec Ideal S100000x128 .f32) (MX : FVec Ideal S100000x1 .f32) (X : FVec Ideal S100000x128 .f32)
    (WLt WRt : FVec Ideal S128x128 .f32) (b lw lb : FVec Ideal S128 .f32) (hc : S128.ShapeCasts S1x128)
    (hmx : ∀ i, MX i ≠ 0) :
    layer S MX X WLt WRt b lw lb
      = SageSpec.comb (n := 100000) S
          (Host.divf (broadcastInDim S100000x1 ![] bcast_S_S100000x1 (constant (F := Ideal) S_ .f32 0x3F800000#32)) MX)
          X WLt (shapeCast S1x128 b hc) WRt (shapeCast S1x128 lw hc) (shapeCast S1x128 lb hc) := by
  funext j
  obtain ⟨p, q, rfl⟩ : ∃ (p : Fin 100000) (q : Fin 128), j = ix2 p q := ⟨j 0, j 1, eq_ix2 j⟩
  rw [SageSpec.comb_ix2]
  unfold layer
  rw [lnRelu_apply _ lw lb hc]
  refine congrArg (fun f => SageSpec.lnrelu f (shapeCast S1x128 lw hc) (shapeCast S1x128 lb hc) q) (funext fun r => ?_)
  exact pre_apply S MX X WLt WRt b hc hmx p r

end Cert.ReferenceIdeal.Layer

end
-- ==== Proof.RefChain.lean ====
/-
  The reference's two results as closed functions of the argument arrays: four applications of one layer
  (`Layer.layer` after the host's neighbour sum and clamped count), layer 0 from the arguments and layer 1 from layer 0's
  outputs. The composed term the reference's run ends at is, by unfolding, this nest of layers.
-/
import proofs.«134971_j26482768347335_2_alg».proof.Proof.RefRunP
import proofs.«134971_j26482768347335_2_alg».proof.Proof.RefLayer

set_option maxRecDepth 16384

noncomputable section

namespace Cert.ReferenceIdeal.Chain

open Cert.ReferenceIdeal Cert.ReferenceIdeal.Gen Idealize.ShloMosaic Idealize.ShloMosaic.TcCoe Idealize.SL.Sem

/-- Row 0 (sources) and row 1 (destinations) of an edge list. -/
def row0 (ei : IVec S2x600000 32) : IVec S600000 32 :=
  shapeCast S600000 (extractStridedSlice S1x600000 ![0, 0] ei slices_S2x600000_S1x600000_0_0) shapeCasts_S1x600000_S600000
def row1 (ei : IVec S2x600000 32) : IVec S600000 32 :=
  shapeCast S600000 (extractStridedSlice S1x600000 ![1, 0] ei slices_S2x600000_S1x600000_1_0) shapeCasts_S1x600000_S600000

/-- A negative index i read as i + 100000 (the reference does this to the source indices only). -/
def norm (d : IVec S600000 32) : IVec S600000 32 :=
  select (cmpi .slt d (broadcastInDim S600000 ![] bcast_S_S600000 (constantI S_ 32 0#32)))
    (addi d (broadcastInDim S600000 ![] bcast_S_S600000 (constantI S_ 32 100000#32))) d

def col (d : IVec S600000 32) : IVec S600000x1 32 := broadcastInDim S600000x1 ![0] bcast_S600000_S600000x1_0 d

/-- The number of edges arriving at each node, clamped below at one. -/
def cmax (d : IVec S600000 32) : FVec Ideal S100000x1 .f32 :=
  maximumf (Host.scatterAdd scatter_S100000x1_S600000x1_S600000x1_1_0_0_1
      (broadcastInDim S100000x1 ![] bcast_S_S100000x1 (constant S_ .f32 0x00000000#32)) (col d)
      (broadcastInDim S600000x1 ![] bcast_S_S600000x1 (constant S_ .f32 0x3F800000#32)))
    (broadcastInDim S100000x1 ![] bcast_S_S100000x1 (constant S_ .f32 0x3F800000#32))

/-- The sum, at each destination node, of the feature rows of x at the sources of the edges arriving there. -/
def agg (x : FVec Ideal S100000x128 .f32) (s d : IVec S600000 32) : FVec Ideal S100000x128 .f32 :=
  Host.scatterAdd scatter_S100000x128_S600000x1_S600000x128_1_0_0_1
    (broadcastInDim S100000x128 ![] bcast_S_S100000x128 (constant S_ .f32 0x00000000#32)) (col d)
    (Host.gather gather_S100000x128_S600000x1_S600000x128_1_0_n_n_0_1_1128 x (col (norm s)))

def wsl0 (W : FVec Ideal S2x128x128 .f32) : FVec Ideal S128x128 .f32 :=
  shapeCast S128x128 (extractStridedSlice S1x128x128 ![0, 0, 0] W slices_S2x128x128_S1x128x128_0_0_0) shapeCasts_S1x128x128_S128x128
def wsl1 (W : FVec Ideal S2x128x128 .f32) : FVec Ideal S128x128 .f32 :=
  shapeCast S128x128 (extractStridedSlice S1x128x128 ![1, 0, 0] W slices_S2x128x128_S1x128x128_1_0_0) shapeCasts_S1x128x128_S128x128
def vsl0 (b : FVec Ideal S2x128 .f32) : FVec Ideal S128 .f32 :=
  shapeCast S128 (extractStridedSlice S1x128 ![0, 0] b slices_S2x128_S1x128_0_0) shapeCasts_S1x128_S128
def vsl1 (b : FVec Ideal S2x128 .f32) : FVec Ideal S128 .f32 :=
  shapeCast S128 (extractStridedSlice S1x128 ![1, 0] b slices_S2x128_S1x128_1_0) shapeCasts_S1x128_S128
def tr (W : FVec Ideal S128x128 .f32) : FVec Ideal S128x128 .f32 := transpose S128x128 [1, 0] W transposes_S128x128_S128x128_1_0

/-- One layer as the reference computes it, the destination indices entering as given. -/
def RL (xs xd : FVec Ideal S100000x128 .f32) (ei : IVec S2x600000 32) (W Wr : FVec Ideal S128x128 .f32) (b lw lb : FVec Ideal S128 .f32) :
    FVec Ideal S100000x128 .f32 :=
  Layer.layer (agg xs (row0 ei) (row1 ei)) (cmax (row1 ei)) xd (tr W) (tr Wr) b lw lb

section
variable (x0 x1 : FVec Ideal S100000x128 .f32) (x2 : FVec Ideal S2x128x128 .f32) (x3 : FVec Ideal S2x128 .f32)
  (x4 x5 : FVec Ideal S2x128x128 .f32) (x6 : FVec Ideal S2x128 .f32) (x7 : FVec Ideal S2x128x128 .f32)
  (x8 x9 x10 x11 : FVec Ideal S2x128 .f32) (x12 x13 : IVec S2x600000 32)

/-- Layer 0: items from users along the user→item edges, users from items along the item→user edges. -/
def RI1 : FVec Ideal S100000x128 .f32 := RL x0 x1 x12 (wsl0 x2) (wsl0 x4) (vsl0 x3) (vsl0 x10) (vsl0 x11)
def RU1 : FVec Ideal S100000x128 .f32 := RL x1 x0 x13 (wsl0 x5) (wsl0 x7) (vsl0 x6) (vsl0 x8) (vsl0 x9)
/-- Layer 1, from layer 0's outputs. -/
def RI2 : FVec Ideal S100000x128 .f32 :=
  RL (RU1 x0 x1 x5 x6 x7 x8 x9 x13) (RI1 x0 x1 x2 x3 x4 x10 x11 x12) x12 (wsl1 x2) (wsl1 x4) (vsl1 x3) (vsl1 x10) (vsl1 x11)
def RU2 : FVec Ideal S100000x128 .f32 :=
  RL (RI1 x0 x1 x2 x3 x4 x10 x11 x12) (RU1 x0 x1 x5 x6 x7 x8 x9 x13) x13 (wsl1 x5) (wsl1 x7) (vsl1 x6) (vsl1 x8) (vsl1 x9)
end

variable (m : (ℓ : Loc nD τ sig) → Buf (Elt Ideal) ℓ) (c : Dev nD)

set_option maxHeartbeats 4000000 in
/-- The run's first result term is layer 1 for the user nodes. -/
theorem res0_eq : ValueP.res_main_v230 m c
    = RU2 (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5))
        (m ((c.tc : Thread nD τ).loc main_arg6)) (m ((c.tc : Thread nD τ).loc main_arg7)) (m ((c.tc : Thread nD τ).loc main_arg8))
        (m ((c.tc : Thread nD τ).loc main_arg9)) (m ((c.tc : Thread nD τ).loc main_arg10)) (m ((c.tc : Thread nD τ).loc main_arg11))
        (m ((c.tc : Thread nD τ).loc main_arg12)) (m ((c.tc : Thread nD τ).loc main_arg13)) := by
  unfold ValueP.res_main_v230
  rfl

set_option maxHeartbeats 4000000 in
/-- The run's second result term is layer 1 for the item nodes. -/
theorem res1_eq : ValueP.res_main_v259 m c
    = RI2 (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5))
        (m ((c.tc : Thread nD τ).loc main_arg6)) (m ((c.tc : Thread nD τ).loc main_arg7)) (m ((c.tc : Thread nD τ).loc main_arg8))
        (m ((c.tc : Thread nD τ).loc main_arg9)) (m ((c.tc : Thread nD τ).loc main_arg10)) (m ((c.tc : Thread nD τ).loc main_arg11))
        (m ((c.tc : Thread nD τ).loc main_arg12)) (m ((c.tc : Thread nD τ).loc main_arg13)) := by
  unfold ValueP.res_main_v259
  rfl

end Cert.ReferenceIdeal.Chain

end
-- ==== Proof.DstNonneg.lean ====
/-
  UNTRUSTED — THE SCATTER ROWS ARE NON-NEGATIVE, SO THE INDEX NORMALISATION IS THE IDENTITY.

  The host program reads row 1 of each of the two [2, 600000] integer arrays as a vector d of 600000 words and,
  before it uses d as the row index of a scatter into an array of 100000 rows, normalises it the way an array
  index is normalised: an entry that reads negative, signed, is replaced by itself plus 100000,
      d'[e] = (if d[e] < 0 then d[e] + 100000 else d[e]).
  The precondition ends in two conjuncts saying, of exactly these two rows, that every entry is ≥ 0 signed
  (an "all" of the compare d ≥ 0). Under it the compare d < 0 is false at every entry, the select takes its
  third operand, and d' = d.

  Three steps. (1) The identity for any vector with non-negative entries, with no program in sight.
  (2) The precondition decoded: it is a conjunction (an "and" chain) of one-bit words, each an "all" (a reduce by
  "and" from 1 into one element) of a compare; the conjunction being 1 gives each conjunct 1, an "all" being 1
  gives the compare 1 at every index, and the compare "d[e] ≥ 0, signed" being 1 says 0 ≤ d[e] as integers. Only the
  last two conjuncts are kept; the float ones are not needed here. (3) The two together, stated at the memory
  the idealized kernel starts from, over the kernel's own names for the row.
-/
import proofs.«134971_j26482768347335_2_alg».proof.Defs
import proofs.«134971_j26482768347335_2_alg».proof.Proof.Gen.Pre_finite_inputs
import proofs.«134971_j26482768347335_2_alg».proof.Proof.Gen.KernelIdeal
import Idealize.ShloMosaic.Lib.ReduceAll
import Idealize.ShloMosaic.Lib.ValueIdx

noncomputable section

namespace Cert.DstNonneg

open Idealize.ShloMosaic Idealize.ShloMosaic.TcCoe Idealize.SL.Sem
open Idealize.ShloMosaic.ValueIdx

/-! ## (1) A vector of non-negative words is its own normalisation -/

/-- The word 0 reads 0, signed. -/
theorem toInt_zero32 : (0#32 : BitVec 32).toInt = 0 := by decide

/-- If every entry of d is non-negative (signed) then "d < z" is false wherever z is 0, so the select between
    d + n and d on that condition is d: whatever n is. -/
theorem select_slt_zero_eq_self {s : Shape} (d z n : IVec s 32) (hz : ∀ e, z e = 0#32) (h : ∀ e, 0 ≤ (d e).toInt) :
    select (cmpi .slt d z) (addi d n) d = d := by
  funext e
  rw [select_apply]
  have hc : cmpi .slt d z e = 0#1 := by
    apply eq_zero_of_ne_one
    show ¬IntOp.cmpi .slt (d e) (z e) = 1#1
    rw [IntOp.cmpi_slt, hz e, toInt_zero32]
    exact not_lt.2 (h e)
  rw [hc, select_zero]

/-! ## (2) The precondition decoded: both rows are non-negative -/

/-- The scalar shape has one index. -/
instance subsingleton_S_ : Subsingleton Cert.Pre_finite_inputs.S_.Idx := ⟨fun a b => funext fun d => d.elim0⟩

section Decode
variable {F : FTy → Type} [FloatOps F] [hP : Cert.Pre_finite_inputs.Facts]

open Cert.Pre_finite_inputs in
/-- Row 1 of a [2, 600000] array as a vector of 600000 words, as the precondition (and the kernel) prints it:
    the slice [1:2, 0:600000], reshaped. -/
abbrev row1 (a : IVec S2x600000 32) : IVec S600000 32 :=
  shapeCast S600000 (extractStridedSlice S1x600000 ![1, 0] a hP.slices_S2x600000_S1x600000_1_0) hP.shapeCasts_S1x600000_S600000

open Cert.Pre_finite_inputs in
/-- An "all" of "v ≥ 0, signed" that is 1 says every entry of v is a non-negative integer. -/
theorem all_sge_zero (v : IVec S600000 32)
    (h : Host.reduce IntOp.andi (cmpi .sge v (broadcastInDim S600000 ![] hP.bcast_S_S600000 (constantI S_ 32 0#32)))
        (constantI S_ 1 1#1) hP.reducesTo_S600000_S_d0 hP.h_S_ ix0 = 1#1) (e : S600000.Idx) : 0 ≤ (v e).toInt := by
  have h1 := Host.reduce_andi_all _ _ _ _ ix0 h e
  have h2 : IntOp.cmpi .sge (v e) (0#32) = 1#1 := h1
  rw [IntOp.cmpi_sge, toInt_zero32] at h2
  exact h2

open Cert.Pre_finite_inputs in
/-- THE PRECONDITION DECODED. The printed predicate is a left-nested "and" of one-bit words whose last two are the
    "all" of row1 a12 ≥ 0 and the "all" of row1 a13 ≥ 0; if the predicate is 1 so are these two, hence every entry of
    both rows is a non-negative integer. -/
theorem rows_nonneg (a0 a1 : FVec F S100000x128 .f32) (a2 : FVec F S2x128x128 .f32) (a3 : FVec F S2x128 .f32)
    (a4 a5 : FVec F S2x128x128 .f32) (a6 : FVec F S2x128 .f32) (a7 : FVec F S2x128x128 .f32)
    (a8 a9 a10 a11 : FVec F S2x128 .f32) (a12 a13 : IVec S2x600000 32)
    (h : Cert.Pre_finite_inputs.fn (F := F) a0 a1 a2 a3 a4 a5 a6 a7 a8 a9 a10 a11 a12 a13 = fun _ => 1#1) :
    (∀ e, 0 ≤ (row1 a12 e).toInt) ∧ (∀ e, 0 ≤ (row1 a13 e).toInt) := by
  have e := congrFun h ix0
  unfold Cert.Pre_finite_inputs.fn Cert.Pre_finite_inputs.fn_part1 Cert.Pre_finite_inputs.fn_part2
    Cert.Pre_finite_inputs.fn_part3 Cert.Pre_finite_inputs.fn_part4 at e
  dsimp only at e
  -- e : ((… ∧ all (row1 a12 ≥ 0)) ∧ all (row1 a13 ≥ 0)) read at the one index
  obtain ⟨h64, h69⟩ := IntOp.andi_eq_one.1 e
  obtain ⟨-, h63⟩ := IntOp.andi_eq_one.1 h64
  exact ⟨all_sge_zero _ h63, all_sge_zero _ h69⟩

end Decode

/-! ## (3) At the kernel's launch memory: the normalisation of each row is the row -/

section AtKernel
open Cert.KernelIdeal Cert.KernelIdeal.Facts₀

variable [hK : Cert.KernelIdeal.Facts] [hP : Cert.Pre_finite_inputs.Facts]
variable (m : (ℓ : Loc Cert.KernelIdeal.nD Cert.KernelIdeal.τ Cert.KernelIdeal.sig) → Buf (Elt Ideal) ℓ)

/-- Row 1 of the kernel's argument 12 at the launch memory, over the kernel's own names. -/
abbrev dstUt (c : Dev Cert.KernelIdeal.nD) : IVec S600000 32 :=
  shapeCast S600000 (extractStridedSlice S1x600000 ![1, 0] (m ((c.tc : Thread nD τ).loc main_arg12))
    hK.slices_S2x600000_S1x600000_1_0) hK.shapeCasts_S1x600000_S600000

/-- Row 1 of the kernel's argument 13 at the launch memory, over the kernel's own names. -/
abbrev dstIu (c : Dev Cert.KernelIdeal.nD) : IVec S600000 32 :=
  shapeCast S600000 (extractStridedSlice S1x600000 ![1, 0] (m ((c.tc : Thread nD τ).loc main_arg13))
    hK.slices_S2x600000_S1x600000_1_0) hK.shapeCasts_S1x600000_S600000

/-- Under the precondition every entry of row 1 of argument 12 is a non-negative integer. -/
theorem dstUt_nonneg (hpre : Cert.Pre_KernelIdeal m) (c : Dev Cert.KernelIdeal.nD) (e : S600000.Idx) :
    0 ≤ (dstUt m c e).toInt :=
  (rows_nonneg (F := Ideal) _ _ _ _ _ _ _ _ _ _ _ _ _ _ (hpre c)).1 e

/-- Under the precondition every entry of row 1 of argument 13 is a non-negative integer. -/
theorem dstIu_nonneg (hpre : Cert.Pre_KernelIdeal m) (c : Dev Cert.KernelIdeal.nD) (e : S600000.Idx) :
    0 ≤ (dstIu m c e).toInt :=
  (rows_nonneg (F := Ideal) _ _ _ _ _ _ _ _ _ _ _ _ _ _ (hpre c)).2 e

/-- THE NORMALISATION OF ROW 1 OF ARGUMENT 12 IS THE ROW: no entry is negative, so none is moved by 100000. -/
theorem norm_dst_ut (hpre : Cert.Pre_KernelIdeal m) (c : Dev Cert.KernelIdeal.nD) :
    select
      (cmpi .slt
        (shapeCast S600000 (extractStridedSlice S1x600000 ![1, 0] (m ((c.tc : Thread nD τ).loc main_arg12)) slices_S2x600000_S1x600000_1_0) shapeCasts_S1x600000_S600000)
        (broadcastInDim S600000 ![] bcast_S_S600000 (constantI S_ 32 0#32)))
      (addi
        (shapeCast S600000 (extractStridedSlice S1x600000 ![1, 0] (m ((c.tc : Thread nD τ).loc main_arg12)) slices_S2x600000_S1x600000_1_0) shapeCasts_S1x600000_S600000)
        (broadcastInDim S600000 ![] bcast_S_S600000 (constantI S_ 32 100000#32)))
      (shapeCast S600000 (extractStridedSlice S1x600000 ![1, 0] (m ((c.tc : Thread nD τ).loc main_arg12)) slices_S2x600000_S1x600000_1_0) shapeCasts_S1x600000_S600000)
    = shapeCast S600000 (extractStridedSlice S1x600000 ![1, 0] (m ((c.tc : Thread nD τ).loc main_arg12)) slices_S2x600000_S1x600000_1_0) shapeCasts_S1x600000_S600000 :=
  select_slt_zero_eq_self _ _ _ (fun _ => rfl) (dstUt_nonneg m hpre c)

/-- THE NORMALISATION OF ROW 1 OF ARGUMENT 13 IS THE ROW. -/
theorem norm_dst_iu (hpre : Cert.Pre_KernelIdeal m) (c : Dev Cert.KernelIdeal.nD) :
    select
      (cmpi .slt
        (shapeCast S600000 (extractStridedSlice S1x600000 ![1, 0] (m ((c.tc : Thread nD τ).loc main_arg13)) slices_S2x600000_S1x600000_1_0) shapeCasts_S1x600000_S600000)
        (broadcastInDim S600000 ![] bcast_S_S600000 (constantI S_ 32 0#32)))
      (addi
        (shapeCast S600000 (extractStridedSlice S1x600000 ![1, 0] (m ((c.tc : Thread nD τ).loc main_arg13)) slices_S2x600000_S1x600000_1_0) shapeCasts_S1x600000_S600000)
        (broadcastInDim S600000 ![] bcast_S_S600000 (constantI S_ 32 100000#32)))
      (shapeCast S600000 (extractStridedSlice S1x600000 ![1, 0] (m ((c.tc : Thread nD τ).loc main_arg13)) slices_S2x600000_S1x600000_1_0) shapeCasts_S1x600000_S600000)
    = shapeCast S600000 (extractStridedSlice S1x600000 ![1, 0] (m ((c.tc : Thread nD τ).loc main_arg13)) slices_S2x600000_S1x600000_1_0) shapeCasts_S1x600000_S600000 :=
  select_slt_zero_eq_self _ _ _ (fun _ => rfl) (dstIu_nonneg m hpre c)

end AtKernel

end Cert.DstNonneg

end
-- ==== Proof.Bridge.lean ====
/-
  The two programs compute one function.

  One layer: the reference divides the neighbour sum by the clamped count and the kernel multiplies it by the count's
  reciprocal, which is the same extended real because the clamped count is never zero; the reference scatters with the
  destination indices as given and the kernel with the indices normalised (a negative i read as i + 100000), which is the
  same under the precondition that every destination index is non-negative. Everything else in a layer is the same
  arithmetic, so the reference's layer `RL` and the kernel's layer `KL` agree on equal arrays.

  Two layers: layer 0's outputs agree, hence layer 1's inputs do, hence the results.
-/
import proofs.«134971_j26482768347335_2_alg».proof.Proof.KernelChain
import proofs.«134971_j26482768347335_2_alg».proof.Proof.RefChain
import proofs.«134971_j26482768347335_2_alg».proof.Proof.DstNonneg

set_option maxRecDepth 16384

noncomputable section

namespace Cert.Bridge

open Idealize.ShloMosaic Idealize.SL.Sem

/-- The clamped count is at least one, so it is not zero. -/
theorem cmax_ne_zero (d : IVec ⟨1, ![600000]⟩ 32) (i : (⟨2, ![100000, 1]⟩ : Shape).Idx) : Cert.ReferenceIdeal.Chain.cmax d i ≠ 0 := by
  unfold Cert.ReferenceIdeal.Chain.cmax
  rw [ValueIdx.maximumf_apply]
  show max _ (Ideal.ofBits .f32 0x3F800000#32) ≠ 0
  rw [Cert.ReferenceIdeal.Layer.ofBits_one]
  exact SageSpec.max_one_ne_zero _

/-- On equal arrays, with the destination indices unchanged by normalisation, the reference's layer is the kernel's. -/
theorem layer_bridge (xs xd : FVec Ideal ⟨2, ![100000, 128]⟩ .f32) (ei : IVec ⟨2, ![2, 600000]⟩ 32)
    (W Wr : FVec Ideal ⟨2, ![128, 128]⟩ .f32) (b lw lb : FVec Ideal ⟨1, ![128]⟩ .f32)
    (hdst : Cert.KernelIdeal.Stages.norm (Cert.KernelIdeal.Stages.row1 ei) = Cert.KernelIdeal.Stages.row1 ei) :
    Cert.ReferenceIdeal.Chain.RL xs xd ei W Wr b lw lb = Cert.KernelIdeal.Stages.KL xs xd ei W Wr b lw lb := by
  unfold Cert.ReferenceIdeal.Chain.RL Cert.KernelIdeal.Stages.KL
  rw [Cert.ReferenceIdeal.Layer.layer_eq _ _ _ _ _ _ _ _ (by decide) (cmax_ne_zero _), hdst]
  rfl

variable [hK : Cert.KernelIdeal.Facts] [hP : Cert.Pre_finite_inputs.Facts]

/-- Under the precondition, the reference's two results on the kernel's argument arrays are the kernel's two results. -/
theorem results_eq (m : (ℓ : Loc Cert.KernelIdeal.nD Cert.KernelIdeal.τ Cert.KernelIdeal.sig) → Buf (Elt Ideal) ℓ)
    (hpre : Cert.Pre_KernelIdeal m) (c : Dev Cert.KernelIdeal.nD) :
    Cert.ReferenceIdeal.Chain.RU2 (Cert.KernelIdeal.Stages.a0 m c) (Cert.KernelIdeal.Stages.a1 m c) (Cert.KernelIdeal.Stages.a2 m c) (Cert.KernelIdeal.Stages.a3 m c) (Cert.KernelIdeal.Stages.a4 m c) (Cert.KernelIdeal.Stages.a5 m c) (Cert.KernelIdeal.Stages.a6 m c) (Cert.KernelIdeal.Stages.a7 m c) (Cert.KernelIdeal.Stages.a8 m c) (Cert.KernelIdeal.Stages.a9 m c) (Cert.KernelIdeal.Stages.a10 m c) (Cert.KernelIdeal.Stages.a11 m c) (Cert.KernelIdeal.Stages.a12 m c) (Cert.KernelIdeal.Stages.a13 m c) = Cert.KernelIdeal.Stages.KU2 m c
    ∧ Cert.ReferenceIdeal.Chain.RI2 (Cert.KernelIdeal.Stages.a0 m c) (Cert.KernelIdeal.Stages.a1 m c) (Cert.KernelIdeal.Stages.a2 m c) (Cert.KernelIdeal.Stages.a3 m c) (Cert.KernelIdeal.Stages.a4 m c) (Cert.KernelIdeal.Stages.a5 m c) (Cert.KernelIdeal.Stages.a6 m c) (Cert.KernelIdeal.Stages.a7 m c) (Cert.KernelIdeal.Stages.a8 m c) (Cert.KernelIdeal.Stages.a9 m c) (Cert.KernelIdeal.Stages.a10 m c) (Cert.KernelIdeal.Stages.a11 m c) (Cert.KernelIdeal.Stages.a12 m c) (Cert.KernelIdeal.Stages.a13 m c) = Cert.KernelIdeal.Stages.KI2 m c := by
  have hut : Cert.KernelIdeal.Stages.norm (Cert.KernelIdeal.Stages.row1 (Cert.KernelIdeal.Stages.a12 m c)) = Cert.KernelIdeal.Stages.row1 (Cert.KernelIdeal.Stages.a12 m c) := Cert.DstNonneg.norm_dst_ut m hpre c
  have hiu : Cert.KernelIdeal.Stages.norm (Cert.KernelIdeal.Stages.row1 (Cert.KernelIdeal.Stages.a13 m c)) = Cert.KernelIdeal.Stages.row1 (Cert.KernelIdeal.Stages.a13 m c) := Cert.DstNonneg.norm_dst_iu m hpre c
  have eI1 : Cert.ReferenceIdeal.Chain.RI1 (Cert.KernelIdeal.Stages.a0 m c) (Cert.KernelIdeal.Stages.a1 m c) (Cert.KernelIdeal.Stages.a2 m c) (Cert.KernelIdeal.Stages.a3 m c) (Cert.KernelIdeal.Stages.a4 m c) (Cert.KernelIdeal.Stages.a10 m c) (Cert.KernelIdeal.Stages.a11 m c) (Cert.KernelIdeal.Stages.a12 m c) = Cert.KernelIdeal.Stages.KI1 m c := layer_bridge _ _ _ _ _ _ _ _ hut
  have eU1 : Cert.ReferenceIdeal.Chain.RU1 (Cert.KernelIdeal.Stages.a0 m c) (Cert.KernelIdeal.Stages.a1 m c) (Cert.KernelIdeal.Stages.a5 m c) (Cert.KernelIdeal.Stages.a6 m c) (Cert.KernelIdeal.Stages.a7 m c) (Cert.KernelIdeal.Stages.a8 m c) (Cert.KernelIdeal.Stages.a9 m c) (Cert.KernelIdeal.Stages.a13 m c) = Cert.KernelIdeal.Stages.KU1 m c := layer_bridge _ _ _ _ _ _ _ _ hiu
  constructor
  · unfold Cert.ReferenceIdeal.Chain.RU2 Cert.KernelIdeal.Stages.KU2
    rw [eI1, eU1]
    exact layer_bridge _ _ _ _ _ _ _ _ hiu
  · unfold Cert.ReferenceIdeal.Chain.RI2 Cert.KernelIdeal.Stages.KI2
    rw [eI1, eU1]
    exact layer_bridge _ _ _ _ _ _ _ _ hut

end Cert.Bridge

end
-- ==== Proof.lean ====
/-
  The certificate: the kernel (a two-layer graph network over two node types: per layer, for each node type, the sum of
  the neighbours' feature rows by a gather and a scatter-add on the host, then one region that scales the sum by the
  reciprocal neighbour count, applies two 128×128 matrix products and a bias, layer-normalises each row and clamps at
  zero) against its reference.

  The three frames: the kernel's two are the generated frame certificates of its four-region @main; the reference's is
  its run with the results dropped. The idealization rewrote no operation, so the preservation claim is trivial.
  Equal results: the kernel's run ends at the closed forms `KU2`, `KI2` of its argument arrays (KernelChain), the
  reference's at `RU2`, `RI2` (RefChain), and on agreeing arguments under the precondition these are equal (Bridge):
  x / max(cnt, 1) = x · (1 / max(cnt, 1)) on the extended reals, and a non-negative destination index is its own
  normalisation.
-/
import proofs.«134971_j26482768347335_2_alg».proof.Defs
import proofs.«134971_j26482768347335_2_alg».proof.Proof.Gen.Kernel
import proofs.«134971_j26482768347335_2_alg».proof.Proof.Gen.Kernel.Skeleton
import proofs.«134971_j26482768347335_2_alg».proof.Proof.Gen.Kernel.Launch
import proofs.«134971_j26482768347335_2_alg».proof.Proof.Gen.Kernel.Points
import proofs.«134971_j26482768347335_2_alg».proof.Proof.Gen.Kernel.Frame
import proofs.«134971_j26482768347335_2_alg».proof.Proof.Gen.KernelIdeal
import proofs.«134971_j26482768347335_2_alg».proof.Proof.Gen.KernelIdeal.Skeleton
import proofs.«134971_j26482768347335_2_alg».proof.Proof.Gen.KernelIdeal.Launch
import proofs.«134971_j26482768347335_2_alg».proof.Proof.Gen.KernelIdeal.Points
import proofs.«134971_j26482768347335_2_alg».proof.Proof.Gen.KernelIdeal.Frame
import proofs.«134971_j26482768347335_2_alg».proof.Proof.Gen.ReferenceIdeal
import proofs.«134971_j26482768347335_2_alg».proof.Proof.Gen.Pre_finite_inputs
import proofs.«134971_j26482768347335_2_alg».proof.Proof.Bridge
import Idealize.ShloMosaic.Adequacy
import Idealize.ShloMosaic.Init

noncomputable section

namespace Cert.Proof

open Idealize.ShloMosaic Idealize.SL.Sem

section
variable [hKernelIdeal : Cert.KernelIdeal.Facts] [hReferenceIdeal : Cert.ReferenceIdeal.Facts] [hPre_finite_inputs : Cert.Pre_finite_inputs.Facts]

/-- From memories agreeing on the arguments both idealized programs run, and end with equal results. -/
theorem algebraic : Cert.algebraic_KernelIdeal_ReferenceIdeal := by
  intro m ρ m' ρ' hpre hagree
  refine ⟨fun c => Cert.KernelIdeal.Stages.KU2 m c, fun c => Cert.KernelIdeal.Stages.KI2 m c, Cert.KernelIdeal.Stages.kernel_run m ρ, ?_⟩
  refine (θ_run Cert.ReferenceIdeal.defs _ _).mono (fun r h c => ?_) (Cert.ReferenceIdeal.ValueP.run (F := Ideal) m' ρ')
  obtain ⟨e0, e1, e2, e3, e4, e5, e6, e7, e8, e9, e10, e11, e12, e13⟩ := hagree c
  refine ⟨?_, ?_, (h c).2.2⟩
  · rw [(h c).1, Cert.ReferenceIdeal.Chain.res0_eq, e0, e1, e2, e3, e4, e5, e6, e7, e8, e9, e10, e11, e12, e13]
    exact (Cert.Bridge.results_eq m hpre c).1
  · rw [(h c).2.1, Cert.ReferenceIdeal.Chain.res1_eq, e0, e1, e2, e3, e4, e5, e6, e7, e8, e9, e10, e11, e12, e13]
    exact (Cert.Bridge.results_eq m hpre c).2
end

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2.2) (Cert.ReferenceIdeal.ValueP.run (F := Ideal) m ρ),
  trivial,
  algebraic⟩

end Cert.Proof

end
